-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  reducesTo_S_S_d : S_.ReducesTo [] S_

variable [Facts]

def fn_part2 {F : FTy → Type} [FloatOps F] (main_arg9 : FVec F S128 .f32) (main_arg10 : FVec F S128 .f32) (main_arg11 : FVec F S_ .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S_ .f32 := Host.absf main_arg11
  let main_cst_16 : FVec F S_ .f32 := constant S_ .f32 0x7F800000#32
  let main_v45 : IVec S_ 1 := cmpf .olt main_v44 main_cst_16
  let main_c_17 : IVec S_ 1 := constantI S_ 1 1#1
  let main_v46 : IVec S_ 1 := (fun x v => Host.reduce IntOp.andi x v reducesTo_S_S_d h_S_) main_v45 main_c_17
  let main_v47 : IVec S_ 1 := andi main_v43 main_v46
  main_v47

def fn_part1 {F : FTy → Type} [FloatOps F] (main_arg6 : FVec F S128 .f32) (main_arg7 : FVec F S128x128 .f32) (main_arg8 : FVec F S128 .f32) (main_arg9 : FVec F S128 .f32) (main_arg10 : FVec F S128 .f32) (main_arg11 : FVec F S_ .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_v33

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S_ .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S1x1 : Shape := ⟨2, ![1, 1]⟩
abbrev S1x128 : Shape := ⟨2, ![1, 128]⟩
abbrev S2x1x128 : Shape := ⟨3, ![2, 1, 128]⟩
abbrev S5000x128 : Shape := ⟨2, ![5000, 128]⟩
abbrev S1x1x128 : Shape := ⟨3, ![1, 1, 128]⟩

abbrev nBuf : Space → Nat
  | .hbm => 83
  | .vmem => 40
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S_, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S_, .f32⟩
  | .hbm, ⟨27, _⟩ => ⟨S1x1, .f32⟩
  | .hbm, ⟨28, _⟩ => ⟨S1x128, .f32⟩
  | .hbm, ⟨29, _⟩ => ⟨S1x128, .f32⟩
  | .hbm, ⟨30, _⟩ => ⟨S1x128, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S1x128, .f32⟩
  | .hbm, ⟨35, _⟩ => ⟨S2x1x128, .f32⟩
  | .hbm, ⟨36, _⟩ => ⟨S2x1x128, .f32⟩
  | .hbm, ⟨37, _⟩ => ⟨S1x1x128, .f32⟩
  | .hbm, ⟨38, _⟩ => ⟨S1x128, .f32⟩
  | .hbm, ⟨39, _⟩ => ⟨S1x1x128, .f32⟩
  | .hbm, ⟨40, _⟩ => ⟨S1x128, .f32⟩
  | .hbm, ⟨41, _⟩ => ⟨S1x128, .f32⟩
  | .hbm, ⟨42, _⟩ => ⟨S1x1x128, .f32⟩
  | .hbm, ⟨43, _⟩ => ⟨S1x128, .f32⟩
  | .hbm, ⟨44, _⟩ => ⟨S1x1x128, .f32⟩
  | .hbm, ⟨45, _⟩ => ⟨S1x128, .f32⟩
  | .hbm, ⟨46, _⟩ => ⟨S1x128, .f32⟩
  | .hbm, ⟨47, _⟩ => ⟨S_, .f32⟩
  | .hbm, ⟨48, _⟩ => ⟨S1x128, .f32⟩
  | .hbm, ⟨49, _⟩ => ⟨S1x128, .f32⟩
  | .hbm, ⟨50, _⟩ => ⟨S_, .f32⟩
  | .hbm, ⟨51, _⟩ => ⟨S1x128, .f32⟩
  | .hbm, ⟨52, _⟩ => ⟨S1x128, .f32⟩
  | .hbm, ⟨53, _⟩ => ⟨S1x128, .f32⟩
  | .hbm, ⟨54, _⟩ => ⟨S1x128, .f32⟩
  | .hbm, ⟨55, _⟩ => ⟨S_, .f32⟩
  | .hbm, ⟨56, _⟩ => ⟨S1x128, .f32⟩
  | .hbm, ⟨57, _⟩ => ⟨S1x128, .f32⟩
  | .hbm, ⟨58, _⟩ => ⟨S100000x128, .f32⟩
  | .hbm, ⟨59, _⟩ => ⟨S2x1x128, .f32⟩
  | .hbm, ⟨60, _⟩ => ⟨S2x1x128, .f32⟩
  | .hbm, ⟨61, _⟩ => ⟨S1x1x128, .f32⟩
  | .hbm, ⟨62, _⟩ => ⟨S1x128, .f32⟩
  | .hbm, ⟨63, _⟩ => ⟨S1x1x128, .f32⟩
  | .hbm, ⟨64, _⟩ => ⟨S1x128, .f32⟩
  | .hbm, ⟨65, _⟩ => ⟨S1x128, .f32⟩
  | .hbm, ⟨66, _⟩ => ⟨S1x1x128, .f32⟩
  | .hbm, ⟨67, _⟩ => ⟨S1x128, .f32⟩
  | .hbm, ⟨68, _⟩ => ⟨S1x1x128, .f32⟩
  | .hbm, ⟨69, _⟩ => ⟨S1x128, .f32⟩
  | .hbm, ⟨70, _⟩ => ⟨S1x128, .f32⟩
  | .hbm, ⟨71, _⟩ => ⟨S_, .f32⟩
  | .hbm, ⟨72, _⟩ => ⟨S1x128, .f32⟩
  | .hbm, ⟨73, _⟩ => ⟨S1x128, .f32⟩
  | .hbm, ⟨74, _⟩ => ⟨S_, .f32⟩
  | .hbm, ⟨75, _⟩ => ⟨S1x128, .f32⟩
  | .hbm, ⟨76, _⟩ => ⟨S1x128, .f32⟩
  | .hbm, ⟨77, _⟩ => ⟨S1x128, .f32⟩
  | .hbm, ⟨78, _⟩ => ⟨S1x128, .f32⟩
  | .hbm, ⟨79, _⟩ => ⟨S_, .f32⟩
  | .hbm, ⟨80, _⟩ => ⟨S1x128, .f32⟩
  | .hbm, ⟨81, _⟩ => ⟨S1x128, .f32⟩
  | .hbm, ⟨82, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S1x128, .f32⟩
  | .local _ .vmem, ⟨5, _⟩ => ⟨S128x128, .f32⟩
  | .local _ .vmem, ⟨6, _⟩ => ⟨S1x128, .f32⟩
  | .local _ .vmem, ⟨7, _⟩ => ⟨S1x1x128, .f32⟩
  | .local _ .vmem, ⟨8, _⟩ => ⟨S1x1x128, .f32⟩
  | .local _ .vmem, ⟨9, _⟩ => ⟨S1x1x128, .f32⟩
  | .local _ .vmem, ⟨10, _⟩ => ⟨S1x1x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S128x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S1x1x128, .f32⟩
  | .local _ .vmem, ⟨27, _⟩ => ⟨S1x1x128, .f32⟩
  | .local _ .vmem, ⟨28, _⟩ => ⟨S1x1x128, .f32⟩
  | .local _ .vmem, ⟨29, _⟩ => ⟨S1x1x128, .f32⟩
  | .local _ .vmem, ⟨30, _⟩ => ⟨S5000x128, .f32⟩
  | .local _ .vmem, ⟨31, _⟩ => ⟨S5000x128, .f32⟩
  | .local _ .vmem, ⟨32, _⟩ => ⟨S128x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19_0 : Ref sig .tc := ⟨.hbm, 35, rfl⟩
abbrev main_v19_1 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_2 : Ref sig .tc := ⟨.hbm, 47, rfl⟩
abbrev main_v30 : Ref sig .tc := ⟨.hbm, 48, rfl⟩
abbrev main_v31 : Ref sig .tc := ⟨.hbm, 49, rfl⟩
abbrev main_cst_3 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_4 : Ref sig .tc := ⟨.hbm, 55, rfl⟩
abbrev main_v36 : Ref sig .tc := ⟨.hbm, 56, rfl⟩
abbrev main_v37 : Ref sig .tc := ⟨.hbm, 57, rfl⟩
abbrev main_v38_0 : Ref sig .tc := ⟨.hbm, 58, rfl⟩
abbrev main_v38_1 : Ref sig .tc := ⟨.hbm, 59, rfl⟩
abbrev main_v38_2 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_5 : Ref sig .tc := ⟨.hbm, 71, rfl⟩
abbrev main_v49 : Ref sig .tc := ⟨.hbm, 72, rfl⟩
abbrev main_v50 : Ref sig .tc := ⟨.hbm, 73, rfl⟩
abbrev main_cst_6 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_7 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg10_0 : Ref sig .tc := ⟨.vmem, 23, rfl⟩
abbrev cc1_stg11_0 : Ref sig .tc := ⟨.vmem, 24, rfl⟩
abbrev cc1_stg11_1 : Ref sig .tc := ⟨.vmem, 25, rfl⟩
abbrev cc1_stg12_0 : Ref sig .tc := ⟨.vmem, 26, rfl⟩
abbrev cc1_stg12_1 : Ref sig .tc := ⟨.vmem, 27, rfl⟩
abbrev cc1_stg13_0 : Ref sig .tc := ⟨.vmem, 28, rfl⟩
abbrev cc1_stg13_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg2_0 : Ref sig .tc := ⟨.vmem, 33, rfl⟩
abbrev cc2_stg3_0 : Ref sig .tc := ⟨.vmem, 34, rfl⟩
abbrev cc2_stg4_0 : Ref sig .tc := ⟨.vmem, 35, rfl⟩
abbrev cc2_stg5_0 : Ref sig .tc := ⟨.vmem, 36, rfl⟩
abbrev cc2_stg6_0 : Ref sig .tc := ⟨.vmem, 37, rfl⟩
abbrev cc2_stg7_0 : Ref sig .tc := ⟨.vmem, 38, rfl⟩
abbrev cc2_stg7_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem10_0 : DmaSem sig := 23
abbrev cc1_sem11_0 : DmaSem sig := 24
abbrev cc1_sem11_1 : DmaSem sig := 25
abbrev cc1_sem12_0 : DmaSem sig := 26
abbrev cc1_sem12_1 : DmaSem sig := 27
abbrev cc1_sem13_0 : DmaSem sig := 28
abbrev cc1_sem13_1 : DmaSem sig := 29
abbrev cc2_sem0_0 : DmaSem sig := 30
abbrev cc2_sem0_1 : DmaSem sig := 31
abbrev cc2_sem1_0 : DmaSem sig := 32
abbrev cc2_sem2_0 : DmaSem sig := 33
abbrev cc2_sem3_0 : DmaSem sig := 34
abbrev cc2_sem4_0 : DmaSem sig := 35
abbrev cc2_sem5_0 : DmaSem sig := 36
abbrev cc2_sem6_0 : DmaSem sig := 37
abbrev cc2_sem7_0 : DmaSem sig := 38
abbrev cc2_sem7_1 : DmaSem sig := 39

abbrev nD : Nat := 1
abbrev τ : Topo := Topo.v7x

variable {F : FTy → Type} [FloatOps F]

abbrev grid0 : Pipeline.Grid := ⟨2, ![2, 10], ![false, false]⟩

def cc0_transform_0 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![2, 10], ![false, false]⟩

def cc1_transform_0 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc1_transform_12 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_13 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S128x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 2 → Memref sig .tc .vmem S5000x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S1x1x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, false]

abbrev stage1_13 : Fin 2 → Memref sig .tc .vmem S1x1x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S_S1x1 : S_.ShapeCasts S1x1
  bcast_S1x1_S1x128_0_1 : S1x1.BroadcastsInDim S1x128 (![0, 1] : Fin 2 → Fin S1x128.rank)
  shapeCasts_S128_S1x128 : S128.ShapeCasts S1x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  reduces_S5000x128_S128 : S5000x128.Reduces [0] S128
  slices_S2x1x128_S1x1x128_0_0_0 : S2x1x128.Slices ![0, 0, 0] S1x1x128
  slices_S2x1x128_S1x1x128_1_0_0 : S2x1x128.Slices ![1, 0, 0] S1x1x128
  bcast_S_S1x128 : S_.BroadcastsInDim S1x128 (![] : Fin 0 → Fin S1x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x128.size a ≤ S2x1x128.size a
  hwx0_5 : ∀ i : grid0.Coords, EltTy.bits .f32 = 32 ∨ (Rect.block (s := S2x1x128) S1x1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x128.size a ≤ S2x1x128.size a
  hwx0_6 : ∀ i : grid0.Coords, EltTy.bits .f32 = 32 ∨ (Rect.block (s := S2x1x128) S1x1x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128x128.size a ≤ S128x128.size a
  hwx1_9 : ∀ i : grid1.Coords, EltTy.bits .f32 = 32 ∨ (Rect.block (s := S128x128) S128x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S5000x128.size a ≤ S100000x128.size a
  hwx1_11 : ∀ i : grid1.Coords, EltTy.bits .f32 = 32 ∨ (Rect.block (s := S100000x128) S5000x128.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S1x1x128.size a ≤ S2x1x128.size a
  hwx1_12 : ∀ i : grid1.Coords, EltTy.bits .f32 = 32 ∨ (Rect.block (s := S2x1x128) S1x1x128.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S1x1x128.size a ≤ S2x1x128.size a
  hwx1_13 : ∀ i : grid1.Coords, EltTy.bits .f32 = 32 ∨ (Rect.block (s := S2x1x128) S1x1x128.size (cc1_transform_13 i) (hinb1_13 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S100000x128.size a
  hwx2_7 : ∀ i : grid2.Coords, EltTy.bits .f32 = 32 ∨ (Rect.block (s := S100000x128) S5000x128.size (cc2_transform_7 i) (hinb2_7 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v9) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19_0) S1x1x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v19_1) S1x1x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v9) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v15) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v31) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v37) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg7) S128x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v16) S1x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v38_0) S5000x128.size cc1_transform_11 reads1_11 true false 2 stage1_11 sem1_11
    hrank1 hreads1_11 hinb1_11 nbuf1_11 (Memref.isWhole_whole _) hwx1_11 hstage1_11

abbrev win1_12 : Pipeline.Window sig grid1 :=
  Pipeline.Window.ofSpec (Memref.whole main_v38_1) S1x1x128.size cc1_transform_12 reads1_12 true false 2 stage1_12 sem1_12
    hrank1 hreads1_12 hinb1_12 nbuf1_12 (Memref.isWhole_whole _) hwx1_12 hstage1_12

abbrev win1_13 : Pipeline.Window sig grid1 :=
  Pipeline.Window.ofSpec (Memref.whole main_v38_2) S1x1x128.size cc1_transform_13 reads1_13 true false 2 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

abbrev win2_0 : Pipeline.Window sig grid2 :=
  Pipeline.Window.ofSpec (Memref.whole main_v38_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v17) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v18) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v50) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v56) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v57) S5000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 104
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S_, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S_, .f32⟩
  | .hbm, ⟨27, _⟩ => ⟨S100000x128, .f32⟩
  | .hbm, ⟨28, _⟩ => ⟨S100000x128, .f32⟩
  | .hbm, ⟨29, _⟩ => ⟨S100000x128, .f32⟩
  | .hbm, ⟨30, _⟩ => ⟨S100000x128, .f32⟩
  | .hbm, ⟨31, _⟩ => ⟨S1x128, .f32⟩
  | .hbm, ⟨32, _⟩ => ⟨S100000x128, .f32⟩
  | .hbm, ⟨33, _⟩ => ⟨S100000x128, .f32⟩
  | .hbm, ⟨34, _⟩ => ⟨S_, .f32⟩
  | .hbm, ⟨35, _⟩ => ⟨S128, .f32⟩
  | .hbm, ⟨36, _⟩ => ⟨S_, .f32⟩
  | .hbm, ⟨37, _⟩ => ⟨S128, .f32⟩
  | .hbm, ⟨38, _⟩ => ⟨S128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S128, .f32⟩
  | .hbm, ⟨45, _⟩ => ⟨S_, .f32⟩
  | .hbm, ⟨46, _⟩ => ⟨S128, .f32⟩
  | .hbm, ⟨47, _⟩ => ⟨S128, .f32⟩
  | .hbm, ⟨48, _⟩ => ⟨S1x128, .f32⟩
  | .hbm, ⟨49, _⟩ => ⟨S100000x128, .f32⟩
  | .hbm, ⟨50, _⟩ => ⟨S100000x128, .f32⟩
  | .hbm, ⟨51, _⟩ => ⟨S_, .f32⟩
  | .hbm, ⟨52, _⟩ => ⟨S128, .f32⟩
  | .hbm, ⟨53, _⟩ => ⟨S128, .f32⟩
  | .hbm, ⟨54, _⟩ => ⟨S128, .f32⟩
  | .hbm, ⟨55, _⟩ => ⟨S1x128, .f32⟩
  | .hbm, ⟨56, _⟩ => ⟨S100000x128, .f32⟩
  | .hbm, ⟨57, _⟩ => ⟨S100000x128, .f32⟩
  | .hbm, ⟨58, _⟩ => ⟨S1x128, .f32⟩
  | .hbm, ⟨59, _⟩ => ⟨S100000x128, .f32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S_, .f32⟩
  | .hbm, ⟨72, _⟩ => ⟨S128, .f32⟩
  | .hbm, ⟨73, _⟩ => ⟨S_, .f32⟩
  | .hbm, ⟨74, _⟩ => ⟨S128, .f32⟩
  | .hbm, ⟨75, _⟩ => ⟨S128, .f32⟩
  | .hbm, ⟨76, _⟩ => ⟨S1x128, .f32⟩
  | .hbm, ⟨77, _⟩ => ⟨S100000x128, .f32⟩
  | .hbm, ⟨78, _⟩ => ⟨S100000x128, .f32⟩
  | .hbm, ⟨79, _⟩ => ⟨S100000x128, .f32⟩
  | .hbm, ⟨80, _⟩ => ⟨S_, .f32⟩
  | .hbm, ⟨81, _⟩ => ⟨S128, .f32⟩
  | .hbm, ⟨82, _⟩ => ⟨S_, .f32⟩
  | .hbm, ⟨83, _⟩ => ⟨S128, .f32⟩
  | .hbm, ⟨84, _⟩ => ⟨S128, .f32⟩
  | .hbm, ⟨85, _⟩ => ⟨S1x128, .f32⟩
  | .hbm, ⟨86, _⟩ => ⟨S100000x128, .f32⟩
  | .hbm, ⟨87, _⟩ => ⟨S100000x128, .f32⟩
  | .hbm, ⟨88, _⟩ => ⟨S_, .f32⟩
  | .hbm, ⟨89, _⟩ => ⟨S128, .f32⟩
  | .hbm, ⟨90, _⟩ => ⟨S128, .f32⟩
  | .hbm, ⟨91, _⟩ => ⟨S128, .f32⟩
  | .hbm, ⟨92, _⟩ => ⟨S1x128, .f32⟩
  | .hbm, ⟨93, _⟩ => ⟨S100000x128, .f32⟩
  | .hbm, ⟨94, _⟩ => ⟨S100000x128, .f32⟩
  | .hbm, ⟨95, _⟩ => ⟨S1x128, .f32⟩
  | .hbm, ⟨96, _⟩ => ⟨S100000x128, .f32⟩
  | .hbm, ⟨97, _⟩ => ⟨S100000x128, .f32⟩
  | .hbm, ⟨98, _⟩ => ⟨S1x128, .f32⟩
  | .hbm, ⟨99, _⟩ => ⟨S100000x128, .f32⟩
  | .hbm, ⟨100, _⟩ => ⟨S100000x128, .f32⟩
  | .hbm, ⟨101, _⟩ => ⟨S_, .f32⟩
  | .hbm, ⟨102, _⟩ => ⟨S100000x128, .f32⟩
  | .hbm, ⟨103, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_cst_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_call0_cst : Ref sig .tc := ⟨.hbm, 64, rfl⟩
abbrev main_call0_v0 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_7 : Ref sig .tc := ⟨.hbm, 71, rfl⟩
abbrev main_v48 : Ref sig .tc := ⟨.hbm, 72, rfl⟩
abbrev main_cst_8 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_9 : Ref sig .tc := ⟨.hbm, 80, rfl⟩
abbrev main_v55 : Ref sig .tc := ⟨.hbm, 81, rfl⟩
abbrev main_cst_10 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_11 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_call1_cst : Ref sig .tc := ⟨.hbm, 101, rfl⟩
abbrev main_call1_v0 : Ref sig .tc := ⟨.hbm, 102, rfl⟩
abbrev main_v73 : Ref sig .tc := ⟨.hbm, 103, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KRun.lean ====
/-
  The idealized kernel program's run, with its result named.

  The program is three kernel regions among stretches of host operations.  Every weakly fair execution from a memory
  with zero counters terminates, nothing faulting; at the end the argument arrays are as launched and the result array
  holds what the fold of the segments leaves in it: the last region's write-backs over the contents the stretch before
  it left, and so on back to the launch memory.
-/
import proofs.«144824_j22643067584730_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at the fold's contents, the arguments as launched. -/
theorem run_main : θ_run defs (onTc (τ := τ) (main (F := F))) ⟨m, fun _ => 0, ρ⟩ (fun r => ∀ c : Dev nD,
      r.2.mem ((c.tc : Thread nD τ).loc main_v57) = W6 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v57 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

end Cert.KernelIdeal.KRun

end
-- ==== Proof.KPay.lean ====
/-
  The kernel bodies' arithmetic read at an index, on the extended reals.

  Each body works on a tile of 5000 rows.  A row of the tile is multiplied into a 128 × 128 matrix (the changes of float
  format are the identity here), a bias row is added, and either the tile's column sums of the result and of its square
  are added to running columns, or the result is normalised column by column, scaled, shifted and cut off at zero.
-/
import proofs.«144824_j22643067584730_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KPay

open Cert.KernelIdeal Cert.KernelIdeal.Gen Idealize.ShloMosaic Idealize.ShloMosaic.ValueIdx

/-- The tile product's dimension record. -/
abbrev D := dot_S5000x128_S128x128_S5000x128_1_0_0_1_n_n

theorem lhs_0 (i : S5000x128.Idx) (q : D.contr.Idx) : (D.lhsIdx i q 0).val = (i 0).val := by
  unfold DotDims.lhsIdx
  rw [dif_neg (show ¬(0 : Fin S5000x128.rank) ∈ D.lhsBatch by decide), dif_pos (show (0 : Fin S5000x128.rank) ∈ D.lhsNonContracting by decide)]
  rfl
theorem lhs_1 (i : S5000x128.Idx) (q : D.contr.Idx) : (D.lhsIdx i q 1).val = (q ⟨0, by decide⟩).val :=
  D.lhsIdx_val_of_single rfl i q
theorem rhs_0 (i : S5000x128.Idx) (q : D.contr.Idx) : (D.rhsIdx i q 0).val = (q ⟨0, by decide⟩).val :=
  D.rhsIdx_val_of_single rfl i q
theorem rhs_1 (i : S5000x128.Idx) (q : D.contr.Idx) : (D.rhsIdx i q 1).val = (i 1).val := by
  unfold DotDims.rhsIdx
  rw [dif_neg (show ¬(1 : Fin S128x128.rank) ∈ D.rhsBatch by decide), dif_pos (show (1 : Fin S128x128.rank) ∈ D.rhsNonContracting by decide)]
  rfl

/-- A tile times a matrix into a zero accumulator, at row r and column k: the sum over l of x[r,l] · w[l,k]. -/
theorem matmul_tile (x : FVec Ideal S5000x128 .bf16) (w : FVec Ideal S128x128 .bf16) (r : Fin 5000) (k : Fin 128) :
    matmul D none x w (constant (F := Ideal) S5000x128 .f32 0x00000000#32) (ix2 r k) = ∑ l : Fin 128, x (ix2 r l) * w (ix2 l k) := by
  simp only [matmul]
  rw [Ideal.matmul_constant_zero_apply, ← Equiv.sum_comp (contrEquiv1 D 128 rfl rfl).symm]
  refine Finset.sum_congr rfl fun l _ => ?_
  have hk := contrEquiv1_symm_val D 128 rfl rfl l
  have el : D.lhsIdx (ix2 r k) ((contrEquiv1 D 128 rfl rfl).symm l) = ix2 r l := funext fun a => Fin.ext (by
    match a with
    | ⟨0, _⟩ => exact lhs_0 _ _
    | ⟨1, _⟩ => exact (lhs_1 _ _).trans hk)
  have er : D.rhsIdx (ix2 r k) ((contrEquiv1 D 128 rfl rfl).symm l) = ix2 l k := funext fun a => Fin.ext (by
    match a with
    | ⟨0, _⟩ => exact (rhs_0 _ _).trans hk
    | ⟨1, _⟩ => exact rhs_1 _ _)
  rw [el, er]

/-- A tile's column sum at column k. -/
theorem colsum_apply (src : FVec Ideal S5000x128 .f32) (hφ : FKind.Formats .f32)
    (hacc : (0x00000000#32 : BitVec 32) = FKind.add.neutral .f32 hφ) (k : Fin 128) :
    multiReduction (F := Ideal) .add [0] S128 src 0x00000000#32 reduces_S5000x128_S128 hφ hacc (ix1 k) = ∑ r : Fin 5000, src (ix2 r k) := by
  refine (Ideal.multiReduction_add_single src 0x00000000#32 reduces_S5000x128_S128 hφ hacc (ix1 k)).trans ?_
  refine Finset.sum_congr rfl fun r _ => congrArg src (funext fun a => ?_)
  match a with
  | ⟨0, _⟩ => rfl
  | ⟨1, _⟩ => rfl

/-- The linear map of a tile row: (x · w)[r,k] + b[0,k], for x already formed. -/
theorem lin_tile (x : FVec Ideal S5000x128 .f32) (w : FVec Ideal S128x128 .f32) (b : FVec Ideal S1x128 .f32) (r : Fin 5000) (k : Fin 128) :
    addf (matmul D none (truncf .bf16 x bitsLt_bf16_f32) (truncf .bf16 w bitsLt_bf16_f32) (constant (F := Ideal) S5000x128 .f32 0x00000000#32))
      (broadcastTo S5000x128 b broadcasts_S1x128_S5000x128) (ix2 r k)
      = (∑ l : Fin 128, x (ix2 r l) * w (ix2 l k)) + b (ix2 (0 : Fin 1) k) := by
  rw [addf_apply, matmul_tile, broadcastTo_1b_ab_apply]
  rfl

/-- The first stage's linear map on a tile: ((raw + scale · h) · W + b)[r,k]. -/
theorem pay4_apply (v3 : Vec Ideal S5000x128 .f32) (v5 : Vec Ideal S1x128 .f32) (v7 : Vec Ideal S5000x128 .f32)
    (v11 : Vec Ideal S128x128 .f32) (v12 : Vec Ideal S1x128 .f32) (r : Fin 5000) (k : Fin 128) :
    k0_pay4 v3 v5 v7 v11 v12 (ix2 r k)
      = (∑ l : Fin 128, (v3 (ix2 r l) + v5 (ix2 (0 : Fin 1) l) * v7 (ix2 r l)) * v11 (ix2 l k)) + v12 (ix2 (0 : Fin 1) k) := by
  unfold k0_pay4
  simp only [shapeCast_self]
  refine (lin_tile _ _ _ r k).trans ?_
  refine congrArg (· + v12 (ix2 (0 : Fin 1) k)) (Finset.sum_congr rfl fun l _ => ?_)
  rw [addf_apply, mulf_apply, broadcastTo_1b_ab_apply]

/-- The zero word is zero. -/
theorem zeroW : (Scalar.ofBits (F := Ideal) .f32 0x00000000#32 : EReal) = 0 := Ideal.ofBits_zero_f32

/-- The running column of sums after a tile: what it held plus the tile's column sum of the linear map. -/
theorem pay5_apply (v3 : Vec Ideal S5000x128 .f32) (v5 : Vec Ideal S1x128 .f32) (v7 : Vec Ideal S5000x128 .f32)
    (v11 : Vec Ideal S128x128 .f32) (v12 : Vec Ideal S1x128 .f32) (v19 : Vec Ideal S1x1x128 .f32) (u v : Fin 1) (k : Fin 128) :
    k0_pay5 v3 v5 v7 v11 v12 v19 (ix3 u v k) = v19 (ix3 (0 : Fin 1) v k) + ∑ r : Fin 5000, k0_pay4 v3 v5 v7 v11 v12 (ix2 r k) := by
  unfold k0_pay5
  refine (shapeCast_ab_1ab_apply _ _ u v k).trans ?_
  rw [addf_apply, shapeCast_1ab_ab_apply, shapeCast_a_1a_apply]
  exact congrArg (v19 (ix3 (0 : Fin 1) v k) + ·) (colsum_apply _ _ _ k)

/-- The running column of sums of squares after a tile. -/
theorem pay1_apply (v3 : Vec Ideal S5000x128 .f32) (v5 : Vec Ideal S1x128 .f32) (v7 : Vec Ideal S5000x128 .f32)
    (v11 : Vec Ideal S128x128 .f32) (v12 : Vec Ideal S1x128 .f32) (v27 : Vec Ideal S1x1x128 .f32) (u v : Fin 1) (k : Fin 128) :
    k0_pay1 (k0_pay6 v27) (k0_pay7 v3 v5 v7 v11 v12) (ix3 u v k)
      = v27 (ix3 (0 : Fin 1) v k) + ∑ r : Fin 5000, k0_pay4 v3 v5 v7 v11 v12 (ix2 r k) * k0_pay4 v3 v5 v7 v11 v12 (ix2 r k) := by
  unfold k0_pay1 k0_pay6 k0_pay7
  refine (shapeCast_ab_1ab_apply _ _ u v k).trans ?_
  rw [addf_apply, shapeCast_1ab_ab_apply, shapeCast_a_1a_apply]
  refine congrArg (v27 (ix3 (0 : Fin 1) v k) + ·) ((colsum_apply _ _ _ k).trans ?_)
  rfl

/-- The column a half starts from: zero. -/
theorem pay2_apply (u v : Fin 1) (k : Fin 128) : k0_pay2 (F := Ideal) (ix3 u v k) = 0 := by
  unfold k0_pay2
  exact (shapeCast_ab_1ab_apply _ _ u v k).trans zeroW
theorem pay3_apply (u v : Fin 1) (k : Fin 128) : k0_pay3 (F := Ideal) (ix3 u v k) = 0 := by
  unfold k0_pay3
  exact (shapeCast_ab_1ab_apply _ _ u v k).trans zeroW

/-! ### The second region's body -/

/-- Normalised and scaled first-stage rows of a tile, before the shift:
    (((raw + scale·h)·W + b)[r,k] − mean[0,k]) · rsqrt(var[0,k] + ε) · g[0,k]. -/
theorem k1_pay7_apply (v3 : Vec Ideal S5000x128 .f32) (v5 : Vec Ideal S1x128 .f32) (v7 : Vec Ideal S5000x128 .f32)
    (v11 : Vec Ideal S128x128 .f32) (v12 v19 v24 v30 : Vec Ideal S1x128 .f32) (r : Fin 5000) (k : Fin 128) :
    k1_pay7 v3 v5 v7 v11 v12 v19 v24 v30 (ix2 r k)
      = ((((∑ l : Fin 128, (v3 (ix2 r l) + v5 (ix2 (0 : Fin 1) l) * v7 (ix2 r l)) * v11 (ix2 l k)) + v12 (ix2 (0 : Fin 1) k))
          - v24 (ix2 (0 : Fin 1) k)) * Ideal.rsqrt (v19 (ix2 (0 : Fin 1) k) + Ideal.ofBits .f32 0x3727C5AC#32)) * v30 (ix2 (0 : Fin 1) k) := by
  unfold k1_pay7
  simp only [shapeCast_self]
  rw [mulf_apply, mulf_apply, subf_apply, broadcastTo_1b_ab_apply, broadcastTo_1b_ab_apply, broadcastTo_1b_ab_apply]
  refine congrArg₂ (· * ·) (congrArg₂ (· * ·) (congrArg (· - v24 (ix2 (0 : Fin 1) k)) ?_) rfl) rfl
  refine (lin_tile _ _ _ r k).trans ?_
  refine congrArg (· + v12 (ix2 (0 : Fin 1) k)) (Finset.sum_congr rfl fun l _ => ?_)
  rw [addf_apply, mulf_apply, broadcastTo_1b_ab_apply]

/-- The hidden rows of a tile: the shift added and the cut at zero. -/
theorem k1_pay1_apply (v33 : FVec Ideal S5000x128 .f32) (v34 : Vec Ideal S1x128 .f32) (r : Fin 5000) (k : Fin 128) :
    k1_pay1 v33 v34 (ix2 r k) = max (v33 (ix2 r k) + v34 (ix2 (0 : Fin 1) k)) 0 := by
  unfold k1_pay1
  simp only [shapeCast_self]
  rw [maximumf_apply, addf_apply, broadcastTo_1b_ab_apply, broadcast_apply, zeroW]

/-- The second linear map on a tile's hidden rows. -/
theorem k1_pay2_apply (v33 : FVec Ideal S5000x128 .f32) (v34 : Vec Ideal S1x128 .f32) (v41 : Vec Ideal S128x128 .f32)
    (v42 : Vec Ideal S1x128 .f32) (r : Fin 5000) (k : Fin 128) :
    k1_pay2 v33 v34 v41 v42 (ix2 r k) = (∑ l : Fin 128, k1_pay1 v33 v34 (ix2 r l) * v41 (ix2 l k)) + v42 (ix2 (0 : Fin 1) k) := by
  unfold k1_pay2
  simp only [shapeCast_self]
  exact lin_tile _ _ _ r k

theorem k1_pay3_apply (v33 : FVec Ideal S5000x128 .f32) (v34 : Vec Ideal S1x128 .f32) (v41 : Vec Ideal S128x128 .f32)
    (v42 : Vec Ideal S1x128 .f32) (v49 : Vec Ideal S1x1x128 .f32) (u v : Fin 1) (k : Fin 128) :
    k1_pay3 v33 v34 v41 v42 v49 (ix3 u v k) = v49 (ix3 (0 : Fin 1) v k) + ∑ r : Fin 5000, k1_pay2 v33 v34 v41 v42 (ix2 r k) := by
  unfold k1_pay3
  refine (shapeCast_ab_1ab_apply _ _ u v k).trans ?_
  rw [addf_apply, shapeCast_1ab_ab_apply, shapeCast_a_1a_apply]
  exact congrArg (v49 (ix3 (0 : Fin 1) v k) + ·) (colsum_apply _ _ _ k)

theorem k1_pay4_apply (v33 : FVec Ideal S5000x128 .f32) (v34 : Vec Ideal S1x128 .f32) (v41 : Vec Ideal S128x128 .f32)
    (v42 : Vec Ideal S1x128 .f32) (v57 : Vec Ideal S1x1x128 .f32) (u v : Fin 1) (k : Fin 128) :
    k1_pay4 v33 v34 v41 v42 v57 (ix3 u v k)
      = v57 (ix3 (0 : Fin 1) v k) + ∑ r : Fin 5000, k1_pay2 v33 v34 v41 v42 (ix2 r k) * k1_pay2 v33 v34 v41 v42 (ix2 r k) := by
  unfold k1_pay4
  refine (shapeCast_ab_1ab_apply _ _ u v k).trans ?_
  rw [addf_apply, shapeCast_1ab_ab_apply, shapeCast_a_1a_apply]
  refine congrArg (v57 (ix3 (0 : Fin 1) v k) + ·) ((colsum_apply _ _ _ k).trans ?_)
  rfl

theorem k1_pay5_apply (u v : Fin 1) (k : Fin 128) : k1_pay5 (F := Ideal) (ix3 u v k) = 0 := by
  unfold k1_pay5
  exact (shapeCast_ab_1ab_apply _ _ u v k).trans zeroW
theorem k1_pay6_apply (u v : Fin 1) (k : Fin 128) : k1_pay6 (F := Ideal) (ix3 u v k) = 0 := by
  unfold k1_pay6
  exact (shapeCast_ab_1ab_apply _ _ u v k).trans zeroW

/-! ### The third region's body -/

/-- The output rows of a tile: the second linear map, normalised, scaled, shifted and cut at zero. -/
theorem k2_pay1_apply (v0 : Vec Ideal S5000x128 .f32) (v2 : Vec Ideal S128x128 .f32) (v3 v10 v15 v21 v25 : Vec Ideal S1x128 .f32)
    (r : Fin 5000) (k : Fin 128) :
    k2_pay1 v0 v2 v3 v10 v15 v21 v25 (ix2 r k)
      = max ((((((∑ l : Fin 128, v0 (ix2 r l) * v2 (ix2 l k)) + v3 (ix2 (0 : Fin 1) k)) - v15 (ix2 (0 : Fin 1) k))
          * Ideal.rsqrt (v10 (ix2 (0 : Fin 1) k) + Ideal.ofBits .f32 0x3727C5AC#32)) * v21 (ix2 (0 : Fin 1) k)) + v25 (ix2 (0 : Fin 1) k)) 0 := by
  unfold k2_pay1
  simp only [shapeCast_self]
  rw [maximumf_apply, addf_apply, mulf_apply, mulf_apply, subf_apply, broadcastTo_1b_ab_apply, broadcastTo_1b_ab_apply,
    broadcastTo_1b_ab_apply, broadcastTo_1b_ab_apply, broadcast_apply, zeroW]
  refine congrArg (max · 0) (congrArg (· + v25 (ix2 (0 : Fin 1) k)) (congrArg₂ (· * ·) (congrArg₂ (· * ·)
    (congrArg (· - v15 (ix2 (0 : Fin 1) k)) (lin_tile _ _ _ r k)) rfl) rfl))

end Cert.KernelIdeal.KPay

end
-- ==== Proof.LibTileFold.lean ====
import Mathlib.Data.EReal.Basic
import Mathlib.Algebra.BigOperators.Fin
import Mathlib.Tactic

/-!
# Sums accumulated tile by tile, with one term taken back

General facts about finite sums on the extended reals, used to read a column that a kernel carries across a row of
tiles: reset at the first tile, a tile's partial sum added at every tile, one distinguished term subtracted on one
tile. On the extended reals addition is commutative and associative without any finiteness, so the column ends at
the sum of all the partial sums plus the negated term; cancelling that term against its own copy inside the sum is the
one step that needs it finite.
-/

namespace Cert.LibTileFold

open Finset

/-- A column carried across rows of `n` tiles, at the positions below `M`. Position `t` is tile `t % n` of row `t / n`. At the
    first tile of a row the column restarts from `z + T`; at every other tile it gains `T`; on the tile `t % n = t / n` it also
    gains `N` (the negated distinguished term). Then at every position the column is `z` plus the partial sums so far plus,
    once the diagonal tile is passed, `N`. -/
theorem fold_tiles {n : ℕ} (hn : 0 < n) (M : ℕ) (z : EReal) (T : ℕ → ℕ → EReal) (N : ℕ → EReal) (acc : ℕ → EReal)
    (h0 : ∀ t, t < M → t % n = 0 → acc t = (z + T (t / n) 0) + (if t / n = t % n then N (t / n) else 0))
    (hs : ∀ t, t < M → t % n ≠ 0 → acc t = (acc (t - 1) + T (t / n) (t % n)) + (if t / n = t % n then N (t / n) else 0)) :
    ∀ t, t < M → acc t = (z + ∑ k ∈ range (t % n + 1), T (t / n) k) + (if t / n ≤ t % n then N (t / n) else 0) := by
  suffices H : ∀ q r, r < n → n * q + r < M → acc (n * q + r) = (z + ∑ k ∈ range (r + 1), T q k) + (if q ≤ r then N q else 0) by
    intro t ht
    have h := H (t / n) (t % n) (Nat.mod_lt t hn) (by rw [Nat.div_add_mod]; exact ht)
    rwa [Nat.div_add_mod] at h
  intro q r
  induction r with
  | zero =>
    intro _ hM
    have hd : (n * q + 0) / n = q := by rw [Nat.add_zero, Nat.mul_div_cancel_left q hn]
    have hm : (n * q + 0) % n = 0 := by rw [Nat.add_zero, Nat.mul_mod_right]
    rw [h0 _ hM hm, hd, hm]
    simp only [zero_add, range_one, sum_singleton, Nat.le_zero]
  | succ r ih =>
    intro hr hM
    have hr' : r < n := Nat.lt_of_succ_lt hr
    have hM' : n * q + r < M := Nat.lt_of_succ_lt hM
    have hd : (n * q + (r + 1)) / n = q := by rw [Nat.mul_add_div hn, Nat.div_eq_of_lt hr, Nat.add_zero]
    have hm : (n * q + (r + 1)) % n = r + 1 := by rw [Nat.mul_add_mod, Nat.mod_eq_of_lt hr]
    have hp : n * q + (r + 1) - 1 = n * q + r := rfl
    rw [hs _ hM (by rw [hm]; exact Nat.succ_ne_zero r), hd, hm, hp, ih hr' hM', sum_range_succ (fun k => T q k) (r + 1)]
    by_cases hq : q = r + 1
    · have h1 : ¬ q ≤ r := by omega
      have h2 : q ≤ r + 1 := by omega
      rw [if_neg h1, if_pos hq, if_pos h2, add_zero]
      ac_rfl
    · by_cases hle : q ≤ r
      · have h2 : q ≤ r + 1 := by omega
        rw [if_pos hle, if_neg hq, if_pos h2, add_zero]
        ac_rfl
      · have h2 : ¬ q ≤ r + 1 := by omega
        rw [if_neg hle, if_neg hq, if_neg h2, add_zero, add_zero, add_zero]
        ac_rfl

/-- A sum over `m` tiles of `n` is the sum over `m * n`, position `k` of tile `j` being `n * j + k`. -/
theorem sum_tiles {M : Type*} [AddCommMonoid M] (m n : ℕ) (f : ℕ → M) :
    ∑ j ∈ range m, ∑ k ∈ range n, f (n * j + k) = ∑ i ∈ range (m * n), f i := by
  induction m with
  | zero => simp
  | succ m ih =>
    rw [sum_range_succ, ih, Nat.succ_mul, sum_range_add, Nat.mul_comm m n]

/-- A finite term inside a sum cancels against its negation: the sum over all indices plus the negated term at `i` is
    the sum over the other indices. -/
theorem sum_add_neg_eq_sum_erase {ι : Type*} [DecidableEq ι] (s : Finset ι) (f : ι → EReal) {i : ι} (hi : i ∈ s)
    (r : ℝ) (hr : f i = (r : EReal)) : (∑ j ∈ s, f j) + -(f i) = ∑ j ∈ s.erase i, f j := by
  rw [← add_sum_erase s f hi, hr, add_comm ((r : EReal)) _, add_assoc]
  have : ((r : EReal)) + -((r : EReal)) = 0 := by
    rw [← EReal.coe_neg, ← EReal.coe_add, add_neg_cancel, EReal.coe_zero]
  rw [this, add_zero]

end Cert.LibTileFold
-- ==== Proof.TileSums.lean ====
/-
  Column sums taken tile by tile.

  The 100000 rows are cut into 20 tiles of 5000 rows; tiles 0–9 belong to one half, tiles 10–19 to the other.  A running
  column sum restarts from zero at the first tile of a half and gains one tile's partial sum at every tile, so after the
  last tile of a half it is the sum over that half's 50000 rows, and the two halves together give the sum over all rows.
  Addition on the extended reals is commutative and associative without any finiteness, so nothing here asks the terms
  to be finite.
-/
import Mathlib
import proofs.«144824_j22643067584730_2_alg».proof.Proof.LibTileFold

namespace Cert.TileSums

open Finset

/-- A family over `Fin n` extended to all naturals by zero. -/
noncomputable def ext0 {n : ℕ} (f : Fin n → EReal) (x : ℕ) : EReal := if h : x < n then f ⟨x, h⟩ else 0

theorem ext0_of_lt {n : ℕ} (f : Fin n → EReal) {x : ℕ} (h : x < n) : ext0 f x = f ⟨x, h⟩ := dif_pos h

theorem sum_fin_eq_range {n : ℕ} (f : Fin n → EReal) : ∑ r : Fin n, f r = ∑ x ∈ range n, ext0 f x := by
  rw [← Fin.sum_univ_eq_sum_range (fun x => ext0 f x) n]
  exact Finset.sum_congr rfl fun r _ => (ext0_of_lt f r.isLt).symm

/-- A running sum over 20 positions that restarts from zero at positions 0 and 10: at position 10·p + r it is the sum of
    the terms of positions 10·p … 10·p + r. -/
theorem chain_prefix (T : ℕ → EReal) (acc : ℕ → EReal)
    (h0 : ∀ t, t < 20 → t % 10 = 0 → acc t = 0 + T t)
    (hs : ∀ t, t < 20 → t % 10 ≠ 0 → acc t = acc (t - 1) + T t) (p : ℕ) (hp : p < 2) :
    ∀ r, r < 10 → acc (10 * p + r) = ∑ i ∈ range (r + 1), T (10 * p + i) := by
  intro r
  induction r with
  | zero =>
    intro _
    rw [h0 (10 * p + 0) (by omega) (by omega), zero_add, Finset.sum_range_one]
  | succ r ih =>
    intro hr
    rw [hs (10 * p + (r + 1)) (by omega) (by omega), show 10 * p + (r + 1) - 1 = 10 * p + r by omega, ih (by omega),
      Finset.sum_range_succ (fun i => T (10 * p + i)) (r + 1)]

/-- After the last tile of half `p` the running sum is the sum of that half's ten tile terms. -/
theorem chain_closed (T : ℕ → EReal) (acc : ℕ → EReal)
    (h0 : ∀ t, t < 20 → t % 10 = 0 → acc t = 0 + T t)
    (hs : ∀ t, t < 20 → t % 10 ≠ 0 → acc t = acc (t - 1) + T t) (p : ℕ) (hp : p < 2) :
    acc (10 * p + 9) = ∑ i ∈ range 10, T (10 * p + i) :=
  chain_prefix T acc h0 hs p hp 9 (by omega)

/-- The two halves' tile sums together are the sum over all rows: tile `t` holds rows 5000·t … 5000·t + 4999. -/
theorem halves_total (f : Fin 100000 → EReal) :
    (∑ i ∈ range 10, ∑ r : Fin 5000, ext0 f (5000 * (10 * 0 + i) + r.val))
      + (∑ i ∈ range 10, ∑ r : Fin 5000, ext0 f (5000 * (10 * 1 + i) + r.val)) = ∑ x : Fin 100000, f x := by
  have e : ∀ b : ℕ, (∑ i ∈ range 10, ∑ r : Fin 5000, ext0 f (5000 * (10 * b + i) + r.val))
      = ∑ x ∈ range 50000, ext0 f (50000 * b + x) := by
    intro b
    rw [show (50000 : ℕ) = 10 * 5000 from rfl, ← Cert.LibTileFold.sum_tiles 10 5000 (fun x => ext0 f (10 * 5000 * b + x))]
    refine Finset.sum_congr rfl fun i _ => ?_
    rw [Fin.sum_univ_eq_sum_range (fun r => ext0 f (5000 * (10 * b + i) + r)) 5000]
    refine Finset.sum_congr rfl fun r _ => ?_
    congr 1
    ring
  rw [e 0, e 1, sum_fin_eq_range f]
  have h := Finset.sum_range_add (fun x => ext0 f x) 50000 50000
  simp only [Nat.mul_zero, Nat.zero_add, Nat.mul_one]
  exact h.symm

end Cert.TileSums
-- ==== Proof.Spec.lean ====
/-
  The layer as one function of its argument arrays, on the extended reals.

  With P the pooled neighbour features (one row per node), h the node features and s = 1 + eps, a row of the layer's
  input is  x = P + s · h.  A linear map  y = x · W + b  is followed by batch normalisation over the node axis —
  subtract the column's mean, multiply by the reciprocal square root of the column's variance plus a small constant,
  scale by g, shift by be — and by max(·, 0); the whole is applied twice.  The column's variance is taken either as
  the mean of the squared deviations (two passes over the column) or as the mean of the squares minus the squared
  mean, cut off at zero (one pass).  Everything else is common to the two, so the layer is stated once with the
  variance a parameter.
-/
import Idealize.ShloMosaic.PureOps.Ideal
import Idealize.ShloMosaic.Lib.ValueIdx

noncomputable section

namespace Cert.Spec

open Idealize.ShloMosaic

/-- A table of 100000 rows of 128 extended reals. -/
abbrev Rows := Fin 100000 → Fin 128 → EReal
/-- A 128 × 128 matrix. -/
abbrev Mat := Fin 128 → Fin 128 → EReal
/-- One value per column. -/
abbrev Col := Fin 128 → EReal

/-- The number of rows, as the binary32 word both programs divide by. -/
abbrev nRows : EReal := Ideal.ofBits .f32 0x47C35000#32
/-- The small constant added to a variance, as the binary32 word both programs carry. -/
abbrev varEps : EReal := Ideal.ofBits .f32 0x3727C5AC#32
/-- The binary32 word of one. -/
abbrev oneW : EReal := Ideal.ofBits .f32 0x3F800000#32

/-- A [100000, 128] array as a table of rows. -/
def rows (A : FVec Ideal ⟨2, ![100000, 128]⟩ .f32) : Rows := fun r l => A (ValueIdx.ix2 r l)
/-- A [128, 128] array as a matrix. -/
def mat (A : FVec Ideal ⟨2, ![128, 128]⟩ .f32) : Mat := fun l k => A (ValueIdx.ix2 l k)
/-- A [128] array as one value per column. -/
def col (A : FVec Ideal ⟨1, ![128]⟩ .f32) : Col := fun k => A (ValueIdx.ix1 k)
/-- A table of rows as a [100000, 128] array. -/
def unrows (R : Rows) : FVec Ideal ⟨2, ![100000, 128]⟩ .f32 := fun i => R (i 0) (i 1)

/-- The layer's input row: pooled features plus s times the node's own. -/
def xin (P h : Rows) (s : EReal) : Rows := fun r l => P r l + s * h r l

/-- A linear map on rows: x · W + b. -/
def lin (X : Rows) (W : Mat) (b : Col) : Rows := fun r k => (∑ l : Fin 128, X r l * W l k) + b k

/-- A column's mean: the sum over the rows divided by their number. -/
def meanOf (Y : Rows) : Col := fun k => Ideal.div (∑ r : Fin 100000, Y r k) nRows

/-- A column's variance in two passes: the mean of the squared deviations from the mean. -/
def varTwo (Y : Rows) : Col := fun k =>
  Ideal.div (∑ r : Fin 100000, (Y r k - meanOf Y k) * (Y r k - meanOf Y k)) nRows

/-- A column's variance in one pass: the mean of the squares minus the squared mean, cut off at zero. -/
def varOne (Y : Rows) : Col := fun k =>
  max (Ideal.div (∑ r : Fin 100000, Y r k * Y r k) nRows - meanOf Y k * meanOf Y k) 0

/-- Normalise a column by a given mean and variance, scale, shift, and cut off at zero. -/
def normRelu (Y : Rows) (mean var g be : Col) : Rows := fun r k =>
  max ((((Y r k - mean k) * Ideal.rsqrt (var k + varEps)) * g k) + be k) 0

/-- The first linear map's output. -/
def y1 (P h : Rows) (s : EReal) (W1 : Mat) (b1 : Col) : Rows := lin (xin P h s) W1 b1

/-- The hidden rows, for a given way `var` of taking a column's variance. -/
def hidden (var : Rows → Col) (P h : Rows) (s : EReal) (W1 : Mat) (b1 g1 be1 : Col) : Rows :=
  normRelu (y1 P h s W1 b1) (meanOf (y1 P h s W1 b1)) (var (y1 P h s W1 b1)) g1 be1

/-- The second linear map's output. -/
def y2 (var : Rows → Col) (P h : Rows) (s : EReal) (W1 : Mat) (b1 g1 be1 : Col) (W2 : Mat) (b2 : Col) : Rows :=
  lin (hidden var P h s W1 b1 g1 be1) W2 b2

/-- The layer's output, for a given way `var` of taking a column's variance. -/
def layer (var : Rows → Col) (P h : Rows) (s : EReal) (W1 : Mat) (b1 g1 be1 : Col) (W2 : Mat) (b2 g2 be2 : Col) : Rows :=
  normRelu (y2 var P h s W1 b1 g1 be1 W2 b2) (meanOf (y2 var P h s W1 b1 g1 be1 W2 b2))
    (var (y2 var P h s W1 b1 g1 be1 W2 b2)) g2 be2

end Cert.Spec

end
-- ==== Proof.K0.lean ====
/-
  The first kernel region: the column sums, and the column sums of squares, of the layer's first linear map.

  The grid has 20 points; point t works on tile t (rows 5000·t … 5000·t + 4999) of the pooled rows and of the node
  features, and on the whole scale row, weight matrix and bias row.  Points 0–9 add into row 0 of two [2, 1, 128]
  arrays, points 10–19 into row 1: at the first point of a half the two running columns restart from zero, at every
  point they gain the tile's column sums of  y = (pooled + scale · h) · W + b  and of  y · y,  and after the last point
  of a half they are written back.  So row p of the first array ends at the sum of y's column over the ten tiles of
  half p, row p of the second at the same sum of squares: an induction over the points, and the blocks the two
  write-backs cover.
-/
import proofs.«144824_j22643067584730_2_alg».proof.Proof.Gen.KernelIdeal.Frame
import Idealize.ShloMosaic.Lib.Pipeline.Value
import Idealize.ShloMosaic.Lib.Tactic
import proofs.«144824_j22643067584730_2_alg».proof.Proof.KPay
import proofs.«144824_j22643067584730_2_alg».proof.Proof.TileSums
import proofs.«144824_j22643067584730_2_alg».proof.Proof.Spec

set_option maxRecDepth 16384

noncomputable section

open Idealize.ShloMosaic Idealize.ShloMosaic.TcCoe Idealize.SL.Sem
open Idealize.ShloMosaic.Pipeline (Dat)

namespace Cert.KernelIdeal.K0

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-! ## What one point leaves in the two running columns -/

/-- At a point that is not the first of its half, the column of sums gains the tile's column sums. -/
theorem out_B_5 (c : Dev nD) (i : grid0.Coords) (a2 : Memref sig .tc .vmem S5000x128 .f32) (h2 : a2.IsWhole) (a3 : Memref sig .tc .vmem S5000x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S1x1x128 .f32) (h7 : a7.IsWhole) (a8 : Memref sig .tc .vmem S1x1x128 .f32) (h8 : a8.IsWhole) (hc : ¬cond0_0 i) (x0 : Vec F S5000x128 .f32) (x1 : Vec F S5000x128 .f32) (x2 : Vec F S1x128 .f32) (x3 : Vec F S128x128 .f32) (x4 : Vec F S1x128 .f32) (xo5 xo6 : Vec F S1x1x128 .f32) :
    out0_B_5 c i a2 h2 a3 h3 a4 h4 a5 h5 a6 h6 a7 h7 a8 h8 hc x0 x1 x2 x3 x4 xo5 xo6 = k0_pay5 x0 x2 x1 x3 x4 xo5 := by
  unfold out0_B_5
  rw [View.read_writes_eq_canon _ _ _ (cover0_B_5 c i a2 h2 a3 h3 a4 h4 a5 h5 a6 h6 a7 h7 a8 h8 hc x0 x1 x2 x3 x4 xo5 xo6)]
  unfold kernelRun0_B
  dsimp only
  rw [View.canon_unit_zero hz3]
  simp only [View.readAt_eq_ld, h2.read_unread, h3.read_unread, h4.read_unread, h5.read_unread, h6.read_unread, h7.read_unread, h8.read_unread,
    View.ld_unit_zero (S := S5000x128) hz2, View.ld_unit_zero (S := S1x128) hz2, View.ld_unit_zero (S := S128x128) hz2, View.ld_unit_zero (S := S1x1x128) hz3]

/-- At such a point the column of sums of squares gains the tile's column sums of squares. -/
theorem out_B_6 (c : Dev nD) (i : grid0.Coords) (a2 : Memref sig .tc .vmem S5000x128 .f32) (h2 : a2.IsWhole) (a3 : Memref sig .tc .vmem S5000x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S1x1x128 .f32) (h7 : a7.IsWhole) (a8 : Memref sig .tc .vmem S1x1x128 .f32) (h8 : a8.IsWhole) (hc : ¬cond0_0 i) (x0 : Vec F S5000x128 .f32) (x1 : Vec F S5000x128 .f32) (x2 : Vec F S1x128 .f32) (x3 : Vec F S128x128 .f32) (x4 : Vec F S1x128 .f32) (xo5 xo6 : Vec F S1x1x128 .f32) :
    out0_B_6 c i a2 h2 a3 h3 a4 h4 a5 h5 a6 h6 a7 h7 a8 h8 hc x0 x1 x2 x3 x4 xo5 xo6 = k0_pay1 (k0_pay6 xo6) (k0_pay7 x0 x2 x1 x3 x4) := by
  unfold out0_B_6
  rw [View.read_writes_eq_canon _ _ _ (cover0_B_6 c i a2 h2 a3 h3 a4 h4 a5 h5 a6 h6 a7 h7 a8 h8 hc x0 x1 x2 x3 x4 xo5 xo6)]
  unfold kernelRun0_B
  dsimp only
  sl_unfold_words
  rw [View.canon_unit_zero hz3]
  simp only [View.readAt_eq_ld, h2.read_unread, h3.read_unread, h4.read_unread, h5.read_unread, h6.read_unread, h7.read_unread, h8.read_unread,
    View.ld_unit_zero (S := S5000x128) hz2, View.ld_unit_zero (S := S1x128) hz2, View.ld_unit_zero (S := S128x128) hz2, View.ld_unit_zero (S := S1x1x128) hz3]

/-- At the first point of a half the column of sums restarts from the zero column. -/
theorem out_A_5 (c : Dev nD) (i : grid0.Coords) (a2 : Memref sig .tc .vmem S5000x128 .f32) (h2 : a2.IsWhole) (a3 : Memref sig .tc .vmem S5000x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S1x1x128 .f32) (h7 : a7.IsWhole) (a8 : Memref sig .tc .vmem S1x1x128 .f32) (h8 : a8.IsWhole) (hc : cond0_0 i) (x0 : Vec F S5000x128 .f32) (x1 : Vec F S5000x128 .f32) (x2 : Vec F S1x128 .f32) (x3 : Vec F S128x128 .f32) (x4 : Vec F S1x128 .f32) :
    out0_A_5 c i a2 h2 a3 h3 a4 h4 a5 h5 a6 h6 a7 h7 a8 h8 hc x0 x1 x2 x3 x4 = k0_pay5 x0 x2 x1 x3 x4 (k0_pay2 (F := F)) := by
  unfold out0_A_5
  rw [View.read_writes_eq_canon _ _ _ (cover0_A_5 c i a2 h2 a3 h3 a4 h4 a5 h5 a6 h6 a7 h7 a8 h8 hc x0 x1 x2 x3 x4)]
  unfold kernelRun0_A
  dsimp only
  sl_unfold_words
  rw [View.canon_cons_unit_zero (S := S1x1x128) hz3, View.readCov_unit_zero (S := S1x1x128) _ hz3]
  simp only [View.readAt_eq_ld, h2.read_unread, h3.read_unread, h4.read_unread, h5.read_unread, h6.read_unread, h7.read_unread, h8.read_unread,
    View.ld_unit_zero (S := S5000x128) hz2, View.ld_unit_zero (S := S1x128) hz2, View.ld_unit_zero (S := S128x128) hz2, View.ld_unit_zero (S := S1x1x128) hz3]

/-- At the first point of a half the column of sums of squares restarts from the zero column. -/
theorem out_A_6 (c : Dev nD) (i : grid0.Coords) (a2 : Memref sig .tc .vmem S5000x128 .f32) (h2 : a2.IsWhole) (a3 : Memref sig .tc .vmem S5000x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S1x1x128 .f32) (h7 : a7.IsWhole) (a8 : Memref sig .tc .vmem S1x1x128 .f32) (h8 : a8.IsWhole) (hc : cond0_0 i) (x0 : Vec F S5000x128 .f32) (x1 : Vec F S5000x128 .f32) (x2 : Vec F S1x128 .f32) (x3 : Vec F S128x128 .f32) (x4 : Vec F S1x128 .f32) :
    out0_A_6 c i a2 h2 a3 h3 a4 h4 a5 h5 a6 h6 a7 h7 a8 h8 hc x0 x1 x2 x3 x4 = k0_pay1 (k0_pay6 (k0_pay3 (F := F))) (k0_pay7 x0 x2 x1 x3 x4) := by
  unfold out0_A_6
  rw [View.read_writes_eq_canon _ _ _ (cover0_A_6 c i a2 h2 a3 h3 a4 h4 a5 h5 a6 h6 a7 h7 a8 h8 hc x0 x1 x2 x3 x4)]
  unfold kernelRun0_A
  dsimp only
  sl_unfold_words
  rw [View.canon_cons_unit_zero (S := S1x1x128) hz3, View.readCov_unit_zero (S := S1x1x128) _ hz3]
  simp only [View.readAt_eq_ld, h2.read_unread, h3.read_unread, h4.read_unread, h5.read_unread, h6.read_unread, h7.read_unread, h8.read_unread,
    View.ld_unit_zero (S := S5000x128) hz2, View.ld_unit_zero (S := S1x128) hz2, View.ld_unit_zero (S := S128x128) hz2, View.ld_unit_zero (S := S1x1x128) hz3]

/-! ## The windows' blocks read at an index -/

section Blocks
variable (V : (c : Dev nD) → (b : Ref sig .tc) → Buf (Elt F) ((c : Thread nD τ).loc b))

theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = t.val ∧ win0_1.index t (1 : Fin 2) = 0 :=
  (by decide +kernel : ∀ t : Fin grid0.N, _)
theorem idx0_2 : ∀ t : Fin cfg0.N, win0_2.index t (0 : Fin 2) = 0 ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)

/-- Tile t of the pooled rows: row r of the tile is row 5000·t + r of the array. -/
theorem blk0_0 (c : Dev nD) (t : Fin cfg0.N) (r : Fin 5000) (l : Fin 128) (hr : 5000 * t.val + r.val < 100000) :
    iblk0 V c 0 t (ValueIdx.ix2 r l) = V c main_v9 (ValueIdx.ix2 ⟨5000 * t.val + r.val, hr⟩ l) := by
  unfold iblk0
  rw [View.read_apply]
  show V c main_v9 _ = V c main_v9 _
  refine congrArg (V c main_v9) (funext fun a => Fin.ext ?_)
  match a with
  | ⟨0, _⟩ => show win0_0.index t 0 * 5000 + 1 * r.val = 5000 * t.val + r.val; rw [(idx0_0 t).1]; omega
  | ⟨1, _⟩ => show win0_0.index t 1 * 128 + 1 * l.val = l.val; rw [(idx0_0 t).2]; omega

/-- Tile t of the node features. -/
theorem blk0_1 (c : Dev nD) (t : Fin cfg0.N) (r : Fin 5000) (l : Fin 128) (hr : 5000 * t.val + r.val < 100000) :
    iblk0 V c 1 t (ValueIdx.ix2 r l) = V c main_arg0 (ValueIdx.ix2 ⟨5000 * t.val + r.val, hr⟩ l) := by
  unfold iblk0
  rw [View.read_apply]
  show V c main_arg0 _ = V c main_arg0 _
  refine congrArg (V c main_arg0) (funext fun a => Fin.ext ?_)
  match a with
  | ⟨0, _⟩ => show win0_1.index t 0 * 5000 + 1 * r.val = 5000 * t.val + r.val; rw [(idx0_1 t).1]; omega
  | ⟨1, _⟩ => show win0_1.index t 1 * 128 + 1 * l.val = l.val; rw [(idx0_1 t).2]; omega

/-- The scale row, whole at every point. -/
theorem blk0_2 (c : Dev nD) (t : Fin cfg0.N) (u : Fin 1) (l : Fin 128) :
    iblk0 V c 2 t (ValueIdx.ix2 u l) = V c main_v12 (ValueIdx.ix2 u l) := by
  unfold iblk0
  rw [View.read_apply]
  show V c main_v12 _ = V c main_v12 _
  refine congrArg (V c main_v12) (funext fun a => Fin.ext ?_)
  match a with
  | ⟨0, _⟩ => show win0_2.index t 0 * 1 + 1 * u.val = u.val; rw [(idx0_2 t).1]; omega
  | ⟨1, _⟩ => show win0_2.index t 1 * 128 + 1 * l.val = l.val; rw [(idx0_2 t).2]; omega

/-- The weight matrix, whole at every point. -/
theorem blk0_3 (c : Dev nD) (t : Fin cfg0.N) (l k : Fin 128) :
    iblk0 V c 3 t (ValueIdx.ix2 l k) = V c main_arg3 (ValueIdx.ix2 l k) := by
  unfold iblk0
  rw [View.read_apply]
  show V c main_arg3 _ = V c main_arg3 _
  refine congrArg (V c main_arg3) (funext fun a => Fin.ext ?_)
  match a with
  | ⟨0, _⟩ => show win0_3.index t 0 * 128 + 1 * l.val = l.val; rw [(idx0_3 t).1]; omega
  | ⟨1, _⟩ => show win0_3.index t 1 * 128 + 1 * k.val = k.val; rw [(idx0_3 t).2]; omega

/-- The bias row, whole at every point. -/
theorem blk0_4 (c : Dev nD) (t : Fin cfg0.N) (u : Fin 1) (k : Fin 128) :
    iblk0 V c 4 t (ValueIdx.ix2 u k) = V c main_v13 (ValueIdx.ix2 u k) := by
  unfold iblk0
  rw [View.read_apply]
  show V c main_v13 _ = V c main_v13 _
  refine congrArg (V c main_v13) (funext fun a => Fin.ext ?_)
  match a with
  | ⟨0, _⟩ => show win0_4.index t 0 * 1 + 1 * u.val = u.val; rw [(idx0_4 t).1]; omega
  | ⟨1, _⟩ => show win0_4.index t 1 * 128 + 1 * k.val = k.val; rw [(idx0_4 t).2]; omega

end Blocks

/-! ## The two running columns over the grid -/

section Columns
variable (V : (c : Dev nD) → (b : Ref sig .tc) → Buf (Elt F) ((c : Thread nD τ).loc b))

theorem fst_A (c : Dev nD) (t : Fin cfg0.N) (h0 : t.val % 10 = 0) :
    (outsAt0 V c t.val t.isLt).1 = k0_pay5 (iblk0 V c 0 t) (iblk0 V c 2 t) (iblk0 V c 1 t) (iblk0 V c 3 t) (iblk0 V c 4 t) (k0_pay2 (F := F)) := by
  rw [outsAt0_A V c t h0]
  dsimp only
  exact out_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t) (iblk0 V c 4 t)

theorem snd_A (c : Dev nD) (t : Fin cfg0.N) (h0 : t.val % 10 = 0) :
    (outsAt0 V c t.val t.isLt).2 = k0_pay1 (k0_pay6 (k0_pay3 (F := F))) (k0_pay7 (iblk0 V c 0 t) (iblk0 V c 2 t) (iblk0 V c 1 t) (iblk0 V c 3 t) (iblk0 V c 4 t)) := by
  rw [outsAt0_A V c t h0]
  dsimp only
  exact out_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t) (iblk0 V c 4 t)

theorem fst_B (c : Dev nD) (t : Fin cfg0.N) (h0 : ¬t.val % 10 = 0) :
    (outsAt0 V c t.val t.isLt).1 = k0_pay5 (iblk0 V c 0 t) (iblk0 V c 2 t) (iblk0 V c 1 t) (iblk0 V c 3 t) (iblk0 V c 4 t) (outsAt0 V c (t.val - 1) (Nat.lt_of_le_of_lt (Nat.sub_le _ _) t.isLt)).1 := by
  rw [outsAt0_B V c t h0]
  dsimp only
  exact out_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).1 (outsAt0 V c (t.val - 1) (Nat.lt_of_le_of_lt (Nat.sub_le _ _) t.isLt)).2

theorem snd_B (c : Dev nD) (t : Fin cfg0.N) (h0 : ¬t.val % 10 = 0) :
    (outsAt0 V c t.val t.isLt).2 = k0_pay1 (k0_pay6 (outsAt0 V c (t.val - 1) (Nat.lt_of_le_of_lt (Nat.sub_le _ _) t.isLt)).2) (k0_pay7 (iblk0 V c 0 t) (iblk0 V c 2 t) (iblk0 V c 1 t) (iblk0 V c 3 t) (iblk0 V c 4 t)) := by
  rw [outsAt0_B V c t h0]
  dsimp only
  exact out_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).1 (outsAt0 V c (t.val - 1) (Nat.lt_of_le_of_lt (Nat.sub_le _ _) t.isLt)).2

end Columns

section Ideal
variable (V : (c : Dev nD) → (b : Ref sig .tc) → Buf (Elt Ideal) ((c : Thread nD τ).loc b))

open Idealize.ShloMosaic.ValueIdx Cert.TileSums

theorem N20 : cfg0.N = 20 := N_0

/-- Tile n's linear map (zero past the grid). -/
def tileY (c : Dev nD) (n : ℕ) : FVec Ideal S5000x128 .f32 :=
  if h : n < cfg0.N then k0_pay4 (iblk0 V c 0 ⟨n, h⟩) (iblk0 V c 2 ⟨n, h⟩) (iblk0 V c 1 ⟨n, h⟩) (iblk0 V c 3 ⟨n, h⟩) (iblk0 V c 4 ⟨n, h⟩) else fun _ => 0

/-- Tile n's column sum of the linear map, at column k. -/
def T5 (c : Dev nD) (k : Fin 128) (n : ℕ) : EReal := ∑ r : Fin 5000, tileY V c n (ix2 r k)
/-- Tile n's column sum of the squared linear map, at column k. -/
def T6 (c : Dev nD) (k : Fin 128) (n : ℕ) : EReal := ∑ r : Fin 5000, tileY V c n (ix2 r k) * tileY V c n (ix2 r k)
/-- The running column of sums after point n, at column k. -/
def A5 (c : Dev nD) (k : Fin 128) (n : ℕ) : EReal :=
  if h : n < cfg0.N then (outsAt0 V c n h).1 (ix3 (0 : Fin 1) (0 : Fin 1) k) else 0
/-- The running column of sums of squares after point n, at column k. -/
def A6 (c : Dev nD) (k : Fin 128) (n : ℕ) : EReal :=
  if h : n < cfg0.N then (outsAt0 V c n h).2 (ix3 (0 : Fin 1) (0 : Fin 1) k) else 0

theorem A5_first (c : Dev nD) (k : Fin 128) (t : ℕ) (ht : t < 20) (h0 : t % 10 = 0) : A5 V c k t = 0 + T5 V c k t := by
  have h : t < cfg0.N := by rw [N20]; exact ht
  unfold A5 T5 tileY
  rw [dif_pos h, dif_pos h]
  refine (congrFun (fst_A V c ⟨t, h⟩ h0) (ix3 (0 : Fin 1) (0 : Fin 1) k)).trans ((KPay.pay5_apply _ _ _ _ _ _ 0 0 k).trans ?_)
  rw [KPay.pay2_apply]

theorem A5_next (c : Dev nD) (k : Fin 128) (t : ℕ) (ht : t < 20) (h0 : t % 10 ≠ 0) : A5 V c k t = A5 V c k (t - 1) + T5 V c k t := by
  have h : t < cfg0.N := by rw [N20]; exact ht
  have h' : t - 1 < cfg0.N := Nat.lt_of_le_of_lt (Nat.sub_le _ _) h
  unfold A5 T5 tileY
  rw [dif_pos h, dif_pos h, dif_pos h']
  exact (congrFun (fst_B V c ⟨t, h⟩ h0) (ix3 (0 : Fin 1) (0 : Fin 1) k)).trans (KPay.pay5_apply _ _ _ _ _ _ 0 0 k)

theorem A6_first (c : Dev nD) (k : Fin 128) (t : ℕ) (ht : t < 20) (h0 : t % 10 = 0) : A6 V c k t = 0 + T6 V c k t := by
  have h : t < cfg0.N := by rw [N20]; exact ht
  unfold A6 T6 tileY
  rw [dif_pos h, dif_pos h]
  refine (congrFun (snd_A V c ⟨t, h⟩ h0) (ix3 (0 : Fin 1) (0 : Fin 1) k)).trans ((KPay.pay1_apply _ _ _ _ _ _ 0 0 k).trans ?_)
  rw [KPay.pay3_apply]

theorem A6_next (c : Dev nD) (k : Fin 128) (t : ℕ) (ht : t < 20) (h0 : t % 10 ≠ 0) : A6 V c k t = A6 V c k (t - 1) + T6 V c k t := by
  have h : t < cfg0.N := by rw [N20]; exact ht
  have h' : t - 1 < cfg0.N := Nat.lt_of_le_of_lt (Nat.sub_le _ _) h
  unfold A6 T6 tileY
  rw [dif_pos h, dif_pos h, dif_pos h']
  exact (congrFun (snd_B V c ⟨t, h⟩ h0) (ix3 (0 : Fin 1) (0 : Fin 1) k)).trans (KPay.pay1_apply _ _ _ _ _ _ 0 0 k)

/-- After the last tile of half p the running columns hold that half's ten tile sums. -/
theorem A5_last (c : Dev nD) (k : Fin 128) (p : ℕ) (hp : p < 2) : A5 V c k (10 * p + 9) = ∑ i ∈ Finset.range 10, T5 V c k (10 * p + i) :=
  chain_closed (T5 V c k) (A5 V c k) (A5_first V c k) (A5_next V c k) p hp
theorem A6_last (c : Dev nD) (k : Fin 128) (p : ℕ) (hp : p < 2) : A6 V c k (10 * p + 9) = ∑ i ∈ Finset.range 10, T6 V c k (10 * p + i) :=
  chain_closed (T6 V c k) (A6 V c k) (A6_first V c k) (A6_next V c k) p hp

end Ideal

/-! ## The arrays of running columns after the run -/

section Final
variable (V : (c : Dev nD) → (b : Ref sig .tc) → Buf (Elt Ideal) ((c : Thread nD τ).loc b))

open Idealize.ShloMosaic.ValueIdx Cert.TileSums

theorem idx0_5 : ∀ t : Fin cfg0.N, win0_5.index t (0 : Fin 3) = t.val / 10 ∧ win0_5.index t (1 : Fin 3) = 0 ∧ win0_5.index t (2 : Fin 3) = 0 :=
  (by decide +kernel : ∀ t : Fin grid0.N, _)
theorem idx0_6 : ∀ t : Fin cfg0.N, win0_6.index t (0 : Fin 3) = t.val / 10 ∧ win0_6.index t (1 : Fin 3) = 0 ∧ win0_6.index t (2 : Fin 3) = 0 :=
  (by decide +kernel : ∀ t : Fin grid0.N, _)

/-- The array of sums: row p, column k holds half p's running column after its last tile. -/
def G5 (c : Dev nD) : Vec Ideal S2x1x128 .f32 := fun i => A5 V c (i 2) (10 * (i 0).val + 9)
/-- The array of sums of squares. -/
def G6 (c : Dev nD) : Vec Ideal S2x1x128 .f32 := fun i => A6 V c (i 2) (10 * (i 0).val + 9)

theorem flushed5 (c : Dev nD) (t : Fin cfg0.N) (hf : (cfg0.win 5).flush t = true) :
    (dat0 V c).flushed 5 t = ((cfg0.win 5).blk t).view.read (Elt Ideal) (G5 V c) := by
  have h9 : t.val % 10 = 9 := (flush0_5 t).mp hf
  have hN : t.val < 20 := lt_of_lt_of_eq t.isLt N20
  show (cfg0.win 5).cut (grid0.coords t) ((dat0 V c).after 5 t) = _
  rw [after0_5]
  funext y
  have y0 : (y 0).val < 1 := (y 0).isLt
  have y1 : (y 1).val < 1 := (y 1).isLt
  have y2 : (y 2).val < 128 := (y 2).isLt
  show (outsAt0 V c t.val t.isLt).1 y = G5 V c (((cfg0.win 5).blk t).view.emb y)
  have he : ((cfg0.win 5).blk t).view.emb y = ix3 (⟨t.val / 10, by omega⟩ : Fin 2) (0 : Fin 1) (⟨(y 2).val, y2⟩ : Fin 128) :=
    funext fun a => Fin.ext (by
      match a with
      | ⟨0, _⟩ => show win0_5.index t 0 * 1 + 1 * (y 0).val = t.val / 10; rw [(idx0_5 t).1]; omega
      | ⟨1, _⟩ => show win0_5.index t 1 * 1 + 1 * (y 1).val = 0; rw [(idx0_5 t).2.1]; omega
      | ⟨2, _⟩ => show win0_5.index t 2 * 128 + 1 * (y 2).val = (y 2).val; rw [(idx0_5 t).2.2]; omega)
  have hy : y = ix3 (0 : Fin 1) (0 : Fin 1) (⟨(y 2).val, y2⟩ : Fin 128) := funext fun a => Fin.ext (by
    match a with
    | ⟨0, _⟩ => show (y 0).val = 0; omega
    | ⟨1, _⟩ => show (y 1).val = 0; omega
    | ⟨2, _⟩ => rfl)
  rw [he]
  show _ = A5 V c (⟨(y 2).val, y2⟩ : Fin 128) (10 * (t.val / 10) + 9)
  have ht : 10 * (t.val / 10) + 9 = t.val := by omega
  rw [ht]
  unfold A5
  rw [dif_pos t.isLt]
  exact congrArg (outsAt0 V c t.val t.isLt).1 hy

theorem mem_blk5 (t : Fin cfg0.N) (i : S2x1x128.Idx) :
    i ∈ ((cfg0.win 5).blk t).view.set ↔ ∀ a : Fin 3, win0_5.index t a * S1x1x128.size a ≤ (i a).val ∧ (i a).val < win0_5.index t a * S1x1x128.size a + S1x1x128.size a := by
  show i ∈ ((View.whole main_v19_0).slice (win0_5.rect t)).set ↔ _
  rw [View.set_slice_whole, Rect.mem_set_unit]
  exact Iff.rfl

/-- The array of running columns after the run: row p holds half p's column after its last tile. -/
theorem final5 (c : Dev nD) : (dat0 V c).arrAt 5 cfg0.N = G5 V c :=
  (dat0 V c).arrAt_eq_of_cover 5 (G5 V c) (flushed5 V c) fun i => by
    have i0 : (i 0).val < 2 := (i 0).isLt
    have i1 : (i 1).val < 1 := (i 1).isLt
    have i2 : (i 2).val < 128 := (i 2).isLt
    have hN : cfg0.N = 20 := N20
    have hN' : grid0.N = 20 := N_0
    refine ⟨⟨10 * (i 0).val + 9, by omega⟩, (flush0_5 _).mpr (by show (10 * (i 0).val + 9) % 10 = 9; omega), ?_⟩
    rw [mem_blk5]
    obtain ⟨e0, e1, e2⟩ := idx0_5 ⟨10 * (i 0).val + 9, by omega⟩
    have e0' : win0_5.index ⟨10 * (i 0).val + 9, by omega⟩ 0 = (i 0).val := by rw [e0]; show (10 * (i 0).val + 9) / 10 = (i 0).val; omega
    intro a
    match a with
    | ⟨0, _⟩ => show win0_5.index _ 0 * 1 ≤ (i 0).val ∧ (i 0).val < win0_5.index _ 0 * 1 + 1; rw [e0']; omega
    | ⟨1, _⟩ => show win0_5.index _ 1 * 1 ≤ (i 1).val ∧ (i 1).val < win0_5.index _ 1 * 1 + 1; rw [e1]; omega
    | ⟨2, _⟩ => show win0_5.index _ 2 * 128 ≤ (i 2).val ∧ (i 2).val < win0_5.index _ 2 * 128 + 128; rw [e2]; omega

theorem flushed6 (c : Dev nD) (t : Fin cfg0.N) (hf : (cfg0.win 6).flush t = true) :
    (dat0 V c).flushed 6 t = ((cfg0.win 6).blk t).view.read (Elt Ideal) (G6 V c) := by
  have h9 : t.val % 10 = 9 := (flush0_6 t).mp hf
  have hN : t.val < 20 := lt_of_lt_of_eq t.isLt N20
  show (cfg0.win 6).cut (grid0.coords t) ((dat0 V c).after 6 t) = _
  rw [after0_6]
  funext y
  have y0 : (y 0).val < 1 := (y 0).isLt
  have y1 : (y 1).val < 1 := (y 1).isLt
  have y2 : (y 2).val < 128 := (y 2).isLt
  show (outsAt0 V c t.val t.isLt).2 y = G6 V c (((cfg0.win 6).blk t).view.emb y)
  have he : ((cfg0.win 6).blk t).view.emb y = ix3 (⟨t.val / 10, by omega⟩ : Fin 2) (0 : Fin 1) (⟨(y 2).val, y2⟩ : Fin 128) :=
    funext fun a => Fin.ext (by
      match a with
      | ⟨0, _⟩ => show win0_6.index t 0 * 1 + 1 * (y 0).val = t.val / 10; rw [(idx0_6 t).1]; omega
      | ⟨1, _⟩ => show win0_6.index t 1 * 1 + 1 * (y 1).val = 0; rw [(idx0_6 t).2.1]; omega
      | ⟨2, _⟩ => show win0_6.index t 2 * 128 + 1 * (y 2).val = (y 2).val; rw [(idx0_6 t).2.2]; omega)
  have hy : y = ix3 (0 : Fin 1) (0 : Fin 1) (⟨(y 2).val, y2⟩ : Fin 128) := funext fun a => Fin.ext (by
    match a with
    | ⟨0, _⟩ => show (y 0).val = 0; omega
    | ⟨1, _⟩ => show (y 1).val = 0; omega
    | ⟨2, _⟩ => rfl)
  rw [he]
  show _ = A6 V c (⟨(y 2).val, y2⟩ : Fin 128) (10 * (t.val / 10) + 9)
  have ht : 10 * (t.val / 10) + 9 = t.val := by omega
  rw [ht]
  unfold A6
  rw [dif_pos t.isLt]
  exact congrArg (outsAt0 V c t.val t.isLt).2 hy

theorem mem_blk6 (t : Fin cfg0.N) (i : S2x1x128.Idx) :
    i ∈ ((cfg0.win 6).blk t).view.set ↔ ∀ a : Fin 3, win0_6.index t a * S1x1x128.size a ≤ (i a).val ∧ (i a).val < win0_6.index t a * S1x1x128.size a + S1x1x128.size a := by
  show i ∈ ((View.whole main_v19_1).slice (win0_6.rect t)).set ↔ _
  rw [View.set_slice_whole, Rect.mem_set_unit]
  exact Iff.rfl

/-- The array of running columns after the run: row p holds half p's column after its last tile. -/
theorem final6 (c : Dev nD) : (dat0 V c).arrAt 6 cfg0.N = G6 V c :=
  (dat0 V c).arrAt_eq_of_cover 6 (G6 V c) (flushed6 V c) fun i => by
    have i0 : (i 0).val < 2 := (i 0).isLt
    have i1 : (i 1).val < 1 := (i 1).isLt
    have i2 : (i 2).val < 128 := (i 2).isLt
    have hN : cfg0.N = 20 := N20
    have hN' : grid0.N = 20 := N_0
    refine ⟨⟨10 * (i 0).val + 9, by omega⟩, (flush0_6 _).mpr (by show (10 * (i 0).val + 9) % 10 = 9; omega), ?_⟩
    rw [mem_blk6]
    obtain ⟨e0, e1, e2⟩ := idx0_6 ⟨10 * (i 0).val + 9, by omega⟩
    have e0' : win0_6.index ⟨10 * (i 0).val + 9, by omega⟩ 0 = (i 0).val := by rw [e0]; show (10 * (i 0).val + 9) / 10 = (i 0).val; omega
    intro a
    match a with
    | ⟨0, _⟩ => show win0_6.index _ 0 * 1 ≤ (i 0).val ∧ (i 0).val < win0_6.index _ 0 * 1 + 1; rw [e0']; omega
    | ⟨1, _⟩ => show win0_6.index _ 1 * 1 ≤ (i 1).val ∧ (i 1).val < win0_6.index _ 1 * 1 + 1; rw [e1]; omega
    | ⟨2, _⟩ => show win0_6.index _ 2 * 128 ≤ (i 2).val ∧ (i 2).val < win0_6.index _ 2 * 128 + 128; rw [e2]; omega

end Final

/-! ## The running columns in terms of the layer's first linear map -/

section Reading
variable (V : (c : Dev nD) → (b : Ref sig .tc) → Buf (Elt Ideal) ((c : Thread nD τ).loc b))

open Idealize.ShloMosaic.ValueIdx Cert.TileSums Cert.Spec

/-- Row r of tile n of the linear map is row 5000·n + r of the layer's first linear map, when the region's arrays are the
    pooled rows, the node features, the scale row, the weights and the bias row. -/
theorem tileY_eq (c : Dev nD) (P h : Rows) (s : EReal) (W1 : Mat) (b1 : Col)
    (hP : ∀ r l, V c main_v9 (ix2 r l) = P r l) (hh : ∀ r l, V c main_arg0 (ix2 r l) = h r l)
    (hs : ∀ l, V c main_v12 (ix2 (0 : Fin 1) l) = s) (hW : ∀ l k, V c main_arg3 (ix2 l k) = W1 l k)
    (hb : ∀ k, V c main_v13 (ix2 (0 : Fin 1) k) = b1 k)
    (n : ℕ) (hn : n < 20) (r : Fin 5000) (k : Fin 128) :
    tileY V c n (ix2 r k) = ext0 (fun x => y1 P h s W1 b1 x k) (5000 * n + r.val) := by
  have hN : n < cfg0.N := by rw [N20]; exact hn
  have hr : 5000 * n + r.val < 100000 := by have := r.isLt; omega
  unfold tileY
  rw [dif_pos hN, ext0_of_lt _ hr, KPay.pay4_apply]
  unfold y1 lin xin
  refine congrArg₂ (· + ·) (Finset.sum_congr rfl fun l _ => ?_) ?_
  · rw [blk0_0 V c ⟨n, hN⟩ r l hr, blk0_1 V c ⟨n, hN⟩ r l hr, blk0_2, blk0_3, hP, hh, hs, hW]
  · rw [blk0_4, hb]

/-- Row p of the array of sums: the sum of the first linear map's column k over the ten tiles of half p. -/
theorem sums5 (c : Dev nD) (P h : Rows) (s : EReal) (W1 : Mat) (b1 : Col)
    (hP : ∀ r l, V c main_v9 (ix2 r l) = P r l) (hh : ∀ r l, V c main_arg0 (ix2 r l) = h r l)
    (hs : ∀ l, V c main_v12 (ix2 (0 : Fin 1) l) = s) (hW : ∀ l k, V c main_arg3 (ix2 l k) = W1 l k)
    (hb : ∀ k, V c main_v13 (ix2 (0 : Fin 1) k) = b1 k) (p : Fin 2) (k : Fin 128) :
    (dat0 V c).arrAt 5 cfg0.N (ix3 p (0 : Fin 1) k)
      = ∑ i ∈ Finset.range 10, ∑ r : Fin 5000, ext0 (fun x => y1 P h s W1 b1 x k) (5000 * (10 * p.val + i) + r.val) := by
  rw [final5]
  show A5 V c k (10 * p.val + 9) = _
  rw [A5_last V c k p.val p.isLt]
  refine Finset.sum_congr rfl fun i hi => ?_
  have hi' : i < 10 := Finset.mem_range.mp hi
  have hp := p.isLt
  unfold T5
  exact Finset.sum_congr rfl fun r _ => tileY_eq V c P h s W1 b1 hP hh hs hW hb (10 * p.val + i) (by omega) r k

/-- Row p of the array of sums of squares. -/
theorem sums6 (c : Dev nD) (P h : Rows) (s : EReal) (W1 : Mat) (b1 : Col)
    (hP : ∀ r l, V c main_v9 (ix2 r l) = P r l) (hh : ∀ r l, V c main_arg0 (ix2 r l) = h r l)
    (hs : ∀ l, V c main_v12 (ix2 (0 : Fin 1) l) = s) (hW : ∀ l k, V c main_arg3 (ix2 l k) = W1 l k)
    (hb : ∀ k, V c main_v13 (ix2 (0 : Fin 1) k) = b1 k) (p : Fin 2) (k : Fin 128) :
    (dat0 V c).arrAt 6 cfg0.N (ix3 p (0 : Fin 1) k)
      = ∑ i ∈ Finset.range 10, ∑ r : Fin 5000, ext0 (fun x => y1 P h s W1 b1 x k * y1 P h s W1 b1 x k) (5000 * (10 * p.val + i) + r.val) := by
  rw [final6]
  show A6 V c k (10 * p.val + 9) = _
  rw [A6_last V c k p.val p.isLt]
  refine Finset.sum_congr rfl fun i hi => ?_
  have hi' : i < 10 := Finset.mem_range.mp hi
  have hp := p.isLt
  unfold T6
  refine Finset.sum_congr rfl fun r _ => ?_
  have hr : 5000 * (10 * p.val + i) + r.val < 100000 := by have := r.isLt; omega
  rw [tileY_eq V c P h s W1 b1 hP hh hs hW hb (10 * p.val + i) (by omega) r k, ext0_of_lt _ hr, ext0_of_lt _ hr]

end Reading

end Cert.KernelIdeal.K0
end
-- ==== Proof.K1.lean ====
/-
  The second kernel region: the hidden rows, and the column sums and sums of squares of the layer's second linear map.

  The grid and the tiles are those of the first region.  At point t the body forms the first linear map of tile t,
  normalises it by the mean and variance columns it is handed, scales, shifts and cuts at zero — the hidden rows of the
  tile, written back at every point — and multiplies the hidden rows into the second weight matrix, adds the second bias
  row, and adds the tile's column sums of that and of its square to two running columns, which restart from zero at the
  first point of a half and are written back after its last.
-/
import proofs.«144824_j22643067584730_2_alg».proof.Proof.Gen.KernelIdeal.Frame
import Idealize.ShloMosaic.Lib.Pipeline.Value
import Idealize.ShloMosaic.Lib.Tactic
import proofs.«144824_j22643067584730_2_alg».proof.Proof.KPay
import proofs.«144824_j22643067584730_2_alg».proof.Proof.TileSums
import proofs.«144824_j22643067584730_2_alg».proof.Proof.Spec

set_option maxRecDepth 16384

noncomputable section

open Idealize.ShloMosaic Idealize.ShloMosaic.TcCoe Idealize.SL.Sem
open Idealize.ShloMosaic.Pipeline (Dat)

namespace Cert.KernelIdeal.K1

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-! ## What one point leaves in the hidden rows' tile and in the two running columns -/

/-- The hidden rows of the point's tile. -/
theorem out_B_11 (c : Dev nD) (i : grid1.Coords) (a2 : Memref sig .tc .vmem S5000x128 .f32) (h2 : a2.IsWhole) (a3 : Memref sig .tc .vmem S5000x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S1x128 .f32) (h7 : a7.IsWhole) (a8 : Memref sig .tc .vmem S1x128 .f32) (h8 : a8.IsWhole) (a9 : Memref sig .tc .vmem S1x128 .f32) (h9 : a9.IsWhole) (a10 : Memref sig .tc .vmem S1x128 .f32) (h10 : a10.IsWhole) (a11 : Memref sig .tc .vmem S128x128 .f32) (h11 : a11.IsWhole) (a12 : Memref sig .tc .vmem S1x128 .f32) (h12 : a12.IsWhole) (a13 : Memref sig .tc .vmem S5000x128 .f32) (h13 : a13.IsWhole) (a14 : Memref sig .tc .vmem S1x1x128 .f32) (h14 : a14.IsWhole) (a15 : Memref sig .tc .vmem S1x1x128 .f32) (h15 : a15.IsWhole) (hc : ¬cond1_0 i) (x0 : Vec F S5000x128 .f32) (x1 : Vec F S5000x128 .f32) (x2 : Vec F S1x128 .f32) (x3 : Vec F S128x128 .f32) (x4 : Vec F S1x128 .f32) (x5 : Vec F S1x128 .f32) (x6 : Vec F S1x128 .f32) (x7 : Vec F S1x128 .f32) (x8 : Vec F S1x128 .f32) (x9 : Vec F S128x128 .f32) (x10 : Vec F S1x128 .f32) (xo12 xo13 : Vec F S1x1x128 .f32) :
    out1_B_11 c i a2 h2 a3 h3 a4 h4 a5 h5 a6 h6 a7 h7 a8 h8 a9 h9 a10 h10 a11 h11 a12 h12 a13 h13 a14 h14 a15 h15 hc x0 x1 x2 x3 x4 x5 x6 x7 x8 x9 x10 xo12 xo13 = k1_pay1 (k1_pay7 x0 x2 x1 x3 x4 x8 x7 x5) x6 := by
  unfold out1_B_11
  rw [View.read_writes_eq_canon _ _ _ (cover1_B_11 c i a2 h2 a3 h3 a4 h4 a5 h5 a6 h6 a7 h7 a8 h8 a9 h9 a10 h10 a11 h11 a12 h12 a13 h13 a14 h14 a15 h15 hc x0 x1 x2 x3 x4 x5 x6 x7 x8 x9 x10 xo12 xo13)]
  unfold kernelRun1_B
  dsimp only
  sl_unfold_words
  rw [View.canon_unit_zero hz2]
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread,
    View.ld_unit_zero (S := S5000x128) hz2, View.ld_unit_zero (S := S1x128) hz2, View.ld_unit_zero (S := S128x128) hz2, View.ld_unit_zero (S := S1x1x128) hz3]

/-- At a point that is not the first of its half, the column of sums gains the tile's column sums of the second linear map. -/
theorem out_B_12 (c : Dev nD) (i : grid1.Coords) (a2 : Memref sig .tc .vmem S5000x128 .f32) (h2 : a2.IsWhole) (a3 : Memref sig .tc .vmem S5000x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S1x128 .f32) (h7 : a7.IsWhole) (a8 : Memref sig .tc .vmem S1x128 .f32) (h8 : a8.IsWhole) (a9 : Memref sig .tc .vmem S1x128 .f32) (h9 : a9.IsWhole) (a10 : Memref sig .tc .vmem S1x128 .f32) (h10 : a10.IsWhole) (a11 : Memref sig .tc .vmem S128x128 .f32) (h11 : a11.IsWhole) (a12 : Memref sig .tc .vmem S1x128 .f32) (h12 : a12.IsWhole) (a13 : Memref sig .tc .vmem S5000x128 .f32) (h13 : a13.IsWhole) (a14 : Memref sig .tc .vmem S1x1x128 .f32) (h14 : a14.IsWhole) (a15 : Memref sig .tc .vmem S1x1x128 .f32) (h15 : a15.IsWhole) (hc : ¬cond1_0 i) (x0 : Vec F S5000x128 .f32) (x1 : Vec F S5000x128 .f32) (x2 : Vec F S1x128 .f32) (x3 : Vec F S128x128 .f32) (x4 : Vec F S1x128 .f32) (x5 : Vec F S1x128 .f32) (x6 : Vec F S1x128 .f32) (x7 : Vec F S1x128 .f32) (x8 : Vec F S1x128 .f32) (x9 : Vec F S128x128 .f32) (x10 : Vec F S1x128 .f32) (xo12 xo13 : Vec F S1x1x128 .f32) :
    out1_B_12 c i a2 h2 a3 h3 a4 h4 a5 h5 a6 h6 a7 h7 a8 h8 a9 h9 a10 h10 a11 h11 a12 h12 a13 h13 a14 h14 a15 h15 hc x0 x1 x2 x3 x4 x5 x6 x7 x8 x9 x10 xo12 xo13 = k1_pay3 (k1_pay7 x0 x2 x1 x3 x4 x8 x7 x5) x6 x9 x10 xo12 := by
  unfold out1_B_12
  rw [View.read_writes_eq_canon _ _ _ (cover1_B_12 c i a2 h2 a3 h3 a4 h4 a5 h5 a6 h6 a7 h7 a8 h8 a9 h9 a10 h10 a11 h11 a12 h12 a13 h13 a14 h14 a15 h15 hc x0 x1 x2 x3 x4 x5 x6 x7 x8 x9 x10 xo12 xo13)]
  unfold kernelRun1_B
  dsimp only
  sl_unfold_words
  rw [View.canon_unit_zero hz3]
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread,
    View.ld_unit_zero (S := S5000x128) hz2, View.ld_unit_zero (S := S1x128) hz2, View.ld_unit_zero (S := S128x128) hz2, View.ld_unit_zero (S := S1x1x128) hz3]

/-- At such a point the column of sums of squares gains the tile's column sums of squares. -/
theorem out_B_13 (c : Dev nD) (i : grid1.Coords) (a2 : Memref sig .tc .vmem S5000x128 .f32) (h2 : a2.IsWhole) (a3 : Memref sig .tc .vmem S5000x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S1x128 .f32) (h7 : a7.IsWhole) (a8 : Memref sig .tc .vmem S1x128 .f32) (h8 : a8.IsWhole) (a9 : Memref sig .tc .vmem S1x128 .f32) (h9 : a9.IsWhole) (a10 : Memref sig .tc .vmem S1x128 .f32) (h10 : a10.IsWhole) (a11 : Memref sig .tc .vmem S128x128 .f32) (h11 : a11.IsWhole) (a12 : Memref sig .tc .vmem S1x128 .f32) (h12 : a12.IsWhole) (a13 : Memref sig .tc .vmem S5000x128 .f32) (h13 : a13.IsWhole) (a14 : Memref sig .tc .vmem S1x1x128 .f32) (h14 : a14.IsWhole) (a15 : Memref sig .tc .vmem S1x1x128 .f32) (h15 : a15.IsWhole) (hc : ¬cond1_0 i) (x0 : Vec F S5000x128 .f32) (x1 : Vec F S5000x128 .f32) (x2 : Vec F S1x128 .f32) (x3 : Vec F S128x128 .f32) (x4 : Vec F S1x128 .f32) (x5 : Vec F S1x128 .f32) (x6 : Vec F S1x128 .f32) (x7 : Vec F S1x128 .f32) (x8 : Vec F S1x128 .f32) (x9 : Vec F S128x128 .f32) (x10 : Vec F S1x128 .f32) (xo12 xo13 : Vec F S1x1x128 .f32) :
    out1_B_13 c i a2 h2 a3 h3 a4 h4 a5 h5 a6 h6 a7 h7 a8 h8 a9 h9 a10 h10 a11 h11 a12 h12 a13 h13 a14 h14 a15 h15 hc x0 x1 x2 x3 x4 x5 x6 x7 x8 x9 x10 xo12 xo13 = k1_pay4 (k1_pay7 x0 x2 x1 x3 x4 x8 x7 x5) x6 x9 x10 xo13 := by
  unfold out1_B_13
  rw [View.read_writes_eq_canon _ _ _ (cover1_B_13 c i a2 h2 a3 h3 a4 h4 a5 h5 a6 h6 a7 h7 a8 h8 a9 h9 a10 h10 a11 h11 a12 h12 a13 h13 a14 h14 a15 h15 hc x0 x1 x2 x3 x4 x5 x6 x7 x8 x9 x10 xo12 xo13)]
  unfold kernelRun1_B
  dsimp only
  sl_unfold_words
  rw [View.canon_unit_zero hz3]
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread,
    View.ld_unit_zero (S := S5000x128) hz2, View.ld_unit_zero (S := S1x128) hz2, View.ld_unit_zero (S := S128x128) hz2, View.ld_unit_zero (S := S1x1x128) hz3]

/-- The hidden rows of the point's tile, at the first point of a half. -/
theorem out_A_11 (c : Dev nD) (i : grid1.Coords) (a2 : Memref sig .tc .vmem S5000x128 .f32) (h2 : a2.IsWhole) (a3 : Memref sig .tc .vmem S5000x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S1x128 .f32) (h7 : a7.IsWhole) (a8 : Memref sig .tc .vmem S1x128 .f32) (h8 : a8.IsWhole) (a9 : Memref sig .tc .vmem S1x128 .f32) (h9 : a9.IsWhole) (a10 : Memref sig .tc .vmem S1x128 .f32) (h10 : a10.IsWhole) (a11 : Memref sig .tc .vmem S128x128 .f32) (h11 : a11.IsWhole) (a12 : Memref sig .tc .vmem S1x128 .f32) (h12 : a12.IsWhole) (a13 : Memref sig .tc .vmem S5000x128 .f32) (h13 : a13.IsWhole) (a14 : Memref sig .tc .vmem S1x1x128 .f32) (h14 : a14.IsWhole) (a15 : Memref sig .tc .vmem S1x1x128 .f32) (h15 : a15.IsWhole) (hc : cond1_0 i) (x0 : Vec F S5000x128 .f32) (x1 : Vec F S5000x128 .f32) (x2 : Vec F S1x128 .f32) (x3 : Vec F S128x128 .f32) (x4 : Vec F S1x128 .f32) (x5 : Vec F S1x128 .f32) (x6 : Vec F S1x128 .f32) (x7 : Vec F S1x128 .f32) (x8 : Vec F S1x128 .f32) (x9 : Vec F S128x128 .f32) (x10 : Vec F S1x128 .f32) :
    out1_A_11 c i a2 h2 a3 h3 a4 h4 a5 h5 a6 h6 a7 h7 a8 h8 a9 h9 a10 h10 a11 h11 a12 h12 a13 h13 a14 h14 a15 h15 hc x0 x1 x2 x3 x4 x5 x6 x7 x8 x9 x10 = k1_pay1 (k1_pay7 x0 x2 x1 x3 x4 x8 x7 x5) x6 := by
  unfold out1_A_11
  rw [View.read_writes_eq_canon _ _ _ (cover1_A_11 c i a2 h2 a3 h3 a4 h4 a5 h5 a6 h6 a7 h7 a8 h8 a9 h9 a10 h10 a11 h11 a12 h12 a13 h13 a14 h14 a15 h15 hc x0 x1 x2 x3 x4 x5 x6 x7 x8 x9 x10)]
  unfold kernelRun1_A
  dsimp only
  sl_unfold_words
  rw [View.canon_unit_zero hz2]
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread,
    View.ld_unit_zero (S := S5000x128) hz2, View.ld_unit_zero (S := S1x128) hz2, View.ld_unit_zero (S := S128x128) hz2, View.ld_unit_zero (S := S1x1x128) hz3]

/-- At the first point of a half the column of sums restarts from the zero column. -/
theorem out_A_12 (c : Dev nD) (i : grid1.Coords) (a2 : Memref sig .tc .vmem S5000x128 .f32) (h2 : a2.IsWhole) (a3 : Memref sig .tc .vmem S5000x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S1x128 .f32) (h7 : a7.IsWhole) (a8 : Memref sig .tc .vmem S1x128 .f32) (h8 : a8.IsWhole) (a9 : Memref sig .tc .vmem S1x128 .f32) (h9 : a9.IsWhole) (a10 : Memref sig .tc .vmem S1x128 .f32) (h10 : a10.IsWhole) (a11 : Memref sig .tc .vmem S128x128 .f32) (h11 : a11.IsWhole) (a12 : Memref sig .tc .vmem S1x128 .f32) (h12 : a12.IsWhole) (a13 : Memref sig .tc .vmem S5000x128 .f32) (h13 : a13.IsWhole) (a14 : Memref sig .tc .vmem S1x1x128 .f32) (h14 : a14.IsWhole) (a15 : Memref sig .tc .vmem S1x1x128 .f32) (h15 : a15.IsWhole) (hc : cond1_0 i) (x0 : Vec F S5000x128 .f32) (x1 : Vec F S5000x128 .f32) (x2 : Vec F S1x128 .f32) (x3 : Vec F S128x128 .f32) (x4 : Vec F S1x128 .f32) (x5 : Vec F S1x128 .f32) (x6 : Vec F S1x128 .f32) (x7 : Vec F S1x128 .f32) (x8 : Vec F S1x128 .f32) (x9 : Vec F S128x128 .f32) (x10 : Vec F S1x128 .f32) :
    out1_A_12 c i a2 h2 a3 h3 a4 h4 a5 h5 a6 h6 a7 h7 a8 h8 a9 h9 a10 h10 a11 h11 a12 h12 a13 h13 a14 h14 a15 h15 hc x0 x1 x2 x3 x4 x5 x6 x7 x8 x9 x10 = k1_pay3 (k1_pay7 x0 x2 x1 x3 x4 x8 x7 x5) x6 x9 x10 (k1_pay5 (F := F)) := by
  unfold out1_A_12
  rw [View.read_writes_eq_canon _ _ _ (cover1_A_12 c i a2 h2 a3 h3 a4 h4 a5 h5 a6 h6 a7 h7 a8 h8 a9 h9 a10 h10 a11 h11 a12 h12 a13 h13 a14 h14 a15 h15 hc x0 x1 x2 x3 x4 x5 x6 x7 x8 x9 x10)]
  unfold kernelRun1_A
  dsimp only
  sl_unfold_words
  rw [View.canon_cons_unit_zero (S := S1x1x128) hz3, View.readCov_unit_zero (S := S1x1x128) _ hz3]
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread,
    View.ld_unit_zero (S := S5000x128) hz2, View.ld_unit_zero (S := S1x128) hz2, View.ld_unit_zero (S := S128x128) hz2, View.ld_unit_zero (S := S1x1x128) hz3]

/-- At the first point of a half the column of sums of squares restarts from the zero column. -/
theorem out_A_13 (c : Dev nD) (i : grid1.Coords) (a2 : Memref sig .tc .vmem S5000x128 .f32) (h2 : a2.IsWhole) (a3 : Memref sig .tc .vmem S5000x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S1x128 .f32) (h7 : a7.IsWhole) (a8 : Memref sig .tc .vmem S1x128 .f32) (h8 : a8.IsWhole) (a9 : Memref sig .tc .vmem S1x128 .f32) (h9 : a9.IsWhole) (a10 : Memref sig .tc .vmem S1x128 .f32) (h10 : a10.IsWhole) (a11 : Memref sig .tc .vmem S128x128 .f32) (h11 : a11.IsWhole) (a12 : Memref sig .tc .vmem S1x128 .f32) (h12 : a12.IsWhole) (a13 : Memref sig .tc .vmem S5000x128 .f32) (h13 : a13.IsWhole) (a14 : Memref sig .tc .vmem S1x1x128 .f32) (h14 : a14.IsWhole) (a15 : Memref sig .tc .vmem S1x1x128 .f32) (h15 : a15.IsWhole) (hc : cond1_0 i) (x0 : Vec F S5000x128 .f32) (x1 : Vec F S5000x128 .f32) (x2 : Vec F S1x128 .f32) (x3 : Vec F S128x128 .f32) (x4 : Vec F S1x128 .f32) (x5 : Vec F S1x128 .f32) (x6 : Vec F S1x128 .f32) (x7 : Vec F S1x128 .f32) (x8 : Vec F S1x128 .f32) (x9 : Vec F S128x128 .f32) (x10 : Vec F S1x128 .f32) :
    out1_A_13 c i a2 h2 a3 h3 a4 h4 a5 h5 a6 h6 a7 h7 a8 h8 a9 h9 a10 h10 a11 h11 a12 h12 a13 h13 a14 h14 a15 h15 hc x0 x1 x2 x3 x4 x5 x6 x7 x8 x9 x10 = k1_pay4 (k1_pay7 x0 x2 x1 x3 x4 x8 x7 x5) x6 x9 x10 (k1_pay6 (F := F)) := by
  unfold out1_A_13
  rw [View.read_writes_eq_canon _ _ _ (cover1_A_13 c i a2 h2 a3 h3 a4 h4 a5 h5 a6 h6 a7 h7 a8 h8 a9 h9 a10 h10 a11 h11 a12 h12 a13 h13 a14 h14 a15 h15 hc x0 x1 x2 x3 x4 x5 x6 x7 x8 x9 x10)]
  unfold kernelRun1_A
  dsimp only
  sl_unfold_words
  rw [View.canon_cons_unit_zero (S := S1x1x128) hz3, View.readCov_unit_zero (S := S1x1x128) _ hz3]
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread,
    View.ld_unit_zero (S := S5000x128) hz2, View.ld_unit_zero (S := S1x128) hz2, View.ld_unit_zero (S := S128x128) hz2, View.ld_unit_zero (S := S1x1x128) hz3]

/-! ## The windows' blocks read at an index -/

section Blocks
variable (V : (c : Dev nD) → (b : Ref sig .tc) → Buf (Elt F) ((c : Thread nD τ).loc b))

theorem idx1_0 : ∀ t : Fin cfg1.N, win1_0.index t (0 : Fin 2) = t.val ∧ win1_0.index t (1 : Fin 2) = 0 :=
  (by decide +kernel : ∀ t : Fin grid1.N, _)
/-- Tile t of this array: row r of the tile is row 5000·t + r of the array. -/
theorem blk1_0 (c : Dev nD) (t : Fin cfg1.N) (r : Fin 5000) (l : Fin 128) (hr : 5000 * t.val + r.val < 100000) :
    iblk1 V c 0 t (ValueIdx.ix2 r l) = V c main_v9 (ValueIdx.ix2 ⟨5000 * t.val + r.val, hr⟩ l) := by
  unfold iblk1
  rw [View.read_apply]
  show V c main_v9 _ = V c main_v9 _
  refine congrArg (V c main_v9) (funext fun a => Fin.ext ?_)
  match a with
  | ⟨0, _⟩ => show win1_0.index t 0 * 5000 + 1 * r.val = 5000 * t.val + r.val; rw [(idx1_0 t).1]; omega
  | ⟨1, _⟩ => show win1_0.index t 1 * 128 + 1 * l.val = l.val; rw [(idx1_0 t).2]; omega

theorem idx1_1 : ∀ t : Fin cfg1.N, win1_1.index t (0 : Fin 2) = t.val ∧ win1_1.index t (1 : Fin 2) = 0 :=
  (by decide +kernel : ∀ t : Fin grid1.N, _)
/-- Tile t of this array: row r of the tile is row 5000·t + r of the array. -/
theorem blk1_1 (c : Dev nD) (t : Fin cfg1.N) (r : Fin 5000) (l : Fin 128) (hr : 5000 * t.val + r.val < 100000) :
    iblk1 V c 1 t (ValueIdx.ix2 r l) = V c main_arg0 (ValueIdx.ix2 ⟨5000 * t.val + r.val, hr⟩ l) := by
  unfold iblk1
  rw [View.read_apply]
  show V c main_arg0 _ = V c main_arg0 _
  refine congrArg (V c main_arg0) (funext fun a => Fin.ext ?_)
  match a with
  | ⟨0, _⟩ => show win1_1.index t 0 * 5000 + 1 * r.val = 5000 * t.val + r.val; rw [(idx1_1 t).1]; omega
  | ⟨1, _⟩ => show win1_1.index t 1 * 128 + 1 * l.val = l.val; rw [(idx1_1 t).2]; omega

theorem idx1_2 : ∀ t : Fin cfg1.N, win1_2.index t (0 : Fin 2) = 0 ∧ win1_2.index t (1 : Fin 2) = 0 :=
  (by decide +kernel : ∀ t : Fin grid1.N, _)
/-- This array is read whole at every point. -/
theorem blk1_2 (c : Dev nD) (t : Fin cfg1.N) (u : Fin 1) (k : Fin 128) :
    iblk1 V c 2 t (ValueIdx.ix2 u k) = V c main_v12 (ValueIdx.ix2 u k) := by
  unfold iblk1
  rw [View.read_apply]
  show V c main_v12 _ = V c main_v12 _
  refine congrArg (V c main_v12) (funext fun a => Fin.ext ?_)
  match a with
  | ⟨0, _⟩ => show win1_2.index t 0 * 1 + 1 * u.val = u.val; rw [(idx1_2 t).1]; omega
  | ⟨1, _⟩ => show win1_2.index t 1 * 128 + 1 * k.val = k.val; rw [(idx1_2 t).2]; omega

theorem idx1_3 : ∀ t : Fin cfg1.N, win1_3.index t (0 : Fin 2) = 0 ∧ win1_3.index t (1 : Fin 2) = 0 :=
  (by decide +kernel : ∀ t : Fin grid1.N, _)
/-- This array is read whole at every point. -/
theorem blk1_3 (c : Dev nD) (t : Fin cfg1.N) (u : Fin 128) (k : Fin 128) :
    iblk1 V c 3 t (ValueIdx.ix2 u k) = V c main_arg3 (ValueIdx.ix2 u k) := by
  unfold iblk1
  rw [View.read_apply]
  show V c main_arg3 _ = V c main_arg3 _
  refine congrArg (V c main_arg3) (funext fun a => Fin.ext ?_)
  match a with
  | ⟨0, _⟩ => show win1_3.index t 0 * 128 + 1 * u.val = u.val; rw [(idx1_3 t).1]; omega
  | ⟨1, _⟩ => show win1_3.index t 1 * 128 + 1 * k.val = k.val; rw [(idx1_3 t).2]; omega

theorem idx1_4 : ∀ t : Fin cfg1.N, win1_4.index t (0 : Fin 2) = 0 ∧ win1_4.index t (1 : Fin 2) = 0 :=
  (by decide +kernel : ∀ t : Fin grid1.N, _)
/-- This array is read whole at every point. -/
theorem blk1_4 (c : Dev nD) (t : Fin cfg1.N) (u : Fin 1) (k : Fin 128) :
    iblk1 V c 4 t (ValueIdx.ix2 u k) = V c main_v13 (ValueIdx.ix2 u k) := by
  unfold iblk1
  rw [View.read_apply]
  show V c main_v13 _ = V c main_v13 _
  refine congrArg (V c main_v13) (funext fun a => Fin.ext ?_)
  match a with
  | ⟨0, _⟩ => show win1_4.index t 0 * 1 + 1 * u.val = u.val; rw [(idx1_4 t).1]; omega
  | ⟨1, _⟩ => show win1_4.index t 1 * 128 + 1 * k.val = k.val; rw [(idx1_4 t).2]; omega

theorem idx1_5 : ∀ t : Fin cfg1.N, win1_5.index t (0 : Fin 2) = 0 ∧ win1_5.index t (1 : Fin 2) = 0 :=
  (by decide +kernel : ∀ t : Fin grid1.N, _)
/-- This array is read whole at every point. -/
theorem blk1_5 (c : Dev nD) (t : Fin cfg1.N) (u : Fin 1) (k : Fin 128) :
    iblk1 V c 5 t (ValueIdx.ix2 u k) = V c main_v14 (ValueIdx.ix2 u k) := by
  unfold iblk1
  rw [View.read_apply]
  show V c main_v14 _ = V c main_v14 _
  refine congrArg (V c main_v14) (funext fun a => Fin.ext ?_)
  match a with
  | ⟨0, _⟩ => show win1_5.index t 0 * 1 + 1 * u.val = u.val; rw [(idx1_5 t).1]; omega
  | ⟨1, _⟩ => show win1_5.index t 1 * 128 + 1 * k.val = k.val; rw [(idx1_5 t).2]; omega

theorem idx1_6 : ∀ t : Fin cfg1.N, win1_6.index t (0 : Fin 2) = 0 ∧ win1_6.index t (1 : Fin 2) = 0 :=
  (by decide +kernel : ∀ t : Fin grid1.N, _)
/-- This array is read whole at every point. -/
theorem blk1_6 (c : Dev nD) (t : Fin cfg1.N) (u : Fin 1) (k : Fin 128) :
    iblk1 V c 6 t (ValueIdx.ix2 u k) = V c main_v15 (ValueIdx.ix2 u k) := by
  unfold iblk1
  rw [View.read_apply]
  show V c main_v15 _ = V c main_v15 _
  refine congrArg (V c main_v15) (funext fun a => Fin.ext ?_)
  match a with
  | ⟨0, _⟩ => show win1_6.index t 0 * 1 + 1 * u.val = u.val; rw [(idx1_6 t).1]; omega
  | ⟨1, _⟩ => show win1_6.index t 1 * 128 + 1 * k.val = k.val; rw [(idx1_6 t).2]; omega

theorem idx1_7 : ∀ t : Fin cfg1.N, win1_7.index t (0 : Fin 2) = 0 ∧ win1_7.index t (1 : Fin 2) = 0 :=
  (by decide +kernel : ∀ t : Fin grid1.N, _)
/-- This array is read whole at every point. -/
theorem blk1_7 (c : Dev nD) (t : Fin cfg1.N) (u : Fin 1) (k : Fin 128) :
    iblk1 V c 7 t (ValueIdx.ix2 u k) = V c main_v31 (ValueIdx.ix2 u k) := by
  unfold iblk1
  rw [View.read_apply]
  show V c main_v31 _ = V c main_v31 _
  refine congrArg (V c main_v31) (funext fun a => Fin.ext ?_)
  match a with
  | ⟨0, _⟩ => show win1_7.index t 0 * 1 + 1 * u.val = u.val; rw [(idx1_7 t).1]; omega
  | ⟨1, _⟩ => show win1_7.index t 1 * 128 + 1 * k.val = k.val; rw [(idx1_7 t).2]; omega

theorem idx1_8 : ∀ t : Fin cfg1.N, win1_8.index t (0 : Fin 2) = 0 ∧ win1_8.index t (1 : Fin 2) = 0 :=
  (by decide +kernel : ∀ t : Fin grid1.N, _)
/-- This array is read whole at every point. -/
theorem blk1_8 (c : Dev nD) (t : Fin cfg1.N) (u : Fin 1) (k : Fin 128) :
    iblk1 V c 8 t (ValueIdx.ix2 u k) = V c main_v37 (ValueIdx.ix2 u k) := by
  unfold iblk1
  rw [View.read_apply]
  show V c main_v37 _ = V c main_v37 _
  refine congrArg (V c main_v37) (funext fun a => Fin.ext ?_)
  match a with
  | ⟨0, _⟩ => show win1_8.index t 0 * 1 + 1 * u.val = u.val; rw [(idx1_8 t).1]; omega
  | ⟨1, _⟩ => show win1_8.index t 1 * 128 + 1 * k.val = k.val; rw [(idx1_8 t).2]; omega

theorem idx1_9 : ∀ t : Fin cfg1.N, win1_9.index t (0 : Fin 2) = 0 ∧ win1_9.index t (1 : Fin 2) = 0 :=
  (by decide +kernel : ∀ t : Fin grid1.N, _)
/-- This array is read whole at every point. -/
theorem blk1_9 (c : Dev nD) (t : Fin cfg1.N) (u : Fin 128) (k : Fin 128) :
    iblk1 V c 9 t (ValueIdx.ix2 u k) = V c main_arg7 (ValueIdx.ix2 u k) := by
  unfold iblk1
  rw [View.read_apply]
  show V c main_arg7 _ = V c main_arg7 _
  refine congrArg (V c main_arg7) (funext fun a => Fin.ext ?_)
  match a with
  | ⟨0, _⟩ => show win1_9.index t 0 * 128 + 1 * u.val = u.val; rw [(idx1_9 t).1]; omega
  | ⟨1, _⟩ => show win1_9.index t 1 * 128 + 1 * k.val = k.val; rw [(idx1_9 t).2]; omega

theorem idx1_10 : ∀ t : Fin cfg1.N, win1_10.index t (0 : Fin 2) = 0 ∧ win1_10.index t (1 : Fin 2) = 0 :=
  (by decide +kernel : ∀ t : Fin grid1.N, _)
/-- This array is read whole at every point. -/
theorem blk1_10 (c : Dev nD) (t : Fin cfg1.N) (u : Fin 1) (k : Fin 128) :
    iblk1 V c 10 t (ValueIdx.ix2 u k) = V c main_v16 (ValueIdx.ix2 u k) := by
  unfold iblk1
  rw [View.read_apply]
  show V c main_v16 _ = V c main_v16 _
  refine congrArg (V c main_v16) (funext fun a => Fin.ext ?_)
  match a with
  | ⟨0, _⟩ => show win1_10.index t 0 * 1 + 1 * u.val = u.val; rw [(idx1_10 t).1]; omega
  | ⟨1, _⟩ => show win1_10.index t 1 * 128 + 1 * k.val = k.val; rw [(idx1_10 t).2]; omega

end Blocks

/-! ## The hidden rows and the two running columns over the grid -/

section Columns
variable (V : (c : Dev nD) → (b : Ref sig .tc) → Buf (Elt F) ((c : Thread nD τ).loc b))

theorem o11_A (c : Dev nD) (t : Fin cfg1.N) (h0 : t.val % 10 = 0) :
    (outsAt1 V c t.val t.isLt).1 = k1_pay1 (k1_pay7 (iblk1 V c 0 t) (iblk1 V c 2 t) (iblk1 V c 1 t) (iblk1 V c 3 t) (iblk1 V c 4 t) (iblk1 V c 8 t) (iblk1 V c 7 t) (iblk1 V c 5 t)) (iblk1 V c 6 t) := by
  rw [outsAt1_A V c t h0]
  dsimp only
  exact out_A_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)

theorem o11_B (c : Dev nD) (t : Fin cfg1.N) (h0 : ¬t.val % 10 = 0) :
    (outsAt1 V c t.val t.isLt).1 = k1_pay1 (k1_pay7 (iblk1 V c 0 t) (iblk1 V c 2 t) (iblk1 V c 1 t) (iblk1 V c 3 t) (iblk1 V c 4 t) (iblk1 V c 8 t) (iblk1 V c 7 t) (iblk1 V c 5 t)) (iblk1 V c 6 t) := by
  rw [outsAt1_B V c t h0]
  dsimp only
  exact out_B_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (outsAt1 V c (t.val - 1) (Nat.lt_of_le_of_lt (Nat.sub_le _ _) t.isLt)).2.1 (outsAt1 V c (t.val - 1) (Nat.lt_of_le_of_lt (Nat.sub_le _ _) t.isLt)).2.2

theorem o12_A (c : Dev nD) (t : Fin cfg1.N) (h0 : t.val % 10 = 0) :
    (outsAt1 V c t.val t.isLt).2.1 = k1_pay3 (k1_pay7 (iblk1 V c 0 t) (iblk1 V c 2 t) (iblk1 V c 1 t) (iblk1 V c 3 t) (iblk1 V c 4 t) (iblk1 V c 8 t) (iblk1 V c 7 t) (iblk1 V c 5 t)) (iblk1 V c 6 t) (iblk1 V c 9 t) (iblk1 V c 10 t) (k1_pay5 (F := F)) := by
  rw [outsAt1_A V c t h0]
  dsimp only
  exact out_A_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)

theorem o12_B (c : Dev nD) (t : Fin cfg1.N) (h0 : ¬t.val % 10 = 0) :
    (outsAt1 V c t.val t.isLt).2.1 = k1_pay3 (k1_pay7 (iblk1 V c 0 t) (iblk1 V c 2 t) (iblk1 V c 1 t) (iblk1 V c 3 t) (iblk1 V c 4 t) (iblk1 V c 8 t) (iblk1 V c 7 t) (iblk1 V c 5 t)) (iblk1 V c 6 t) (iblk1 V c 9 t) (iblk1 V c 10 t) (outsAt1 V c (t.val - 1) (Nat.lt_of_le_of_lt (Nat.sub_le _ _) t.isLt)).2.1 := by
  rw [outsAt1_B V c t h0]
  dsimp only
  exact out_B_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (outsAt1 V c (t.val - 1) (Nat.lt_of_le_of_lt (Nat.sub_le _ _) t.isLt)).2.1 (outsAt1 V c (t.val - 1) (Nat.lt_of_le_of_lt (Nat.sub_le _ _) t.isLt)).2.2

theorem o13_A (c : Dev nD) (t : Fin cfg1.N) (h0 : t.val % 10 = 0) :
    (outsAt1 V c t.val t.isLt).2.2 = k1_pay4 (k1_pay7 (iblk1 V c 0 t) (iblk1 V c 2 t) (iblk1 V c 1 t) (iblk1 V c 3 t) (iblk1 V c 4 t) (iblk1 V c 8 t) (iblk1 V c 7 t) (iblk1 V c 5 t)) (iblk1 V c 6 t) (iblk1 V c 9 t) (iblk1 V c 10 t) (k1_pay6 (F := F)) := by
  rw [outsAt1_A V c t h0]
  dsimp only
  exact out_A_13 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)

theorem o13_B (c : Dev nD) (t : Fin cfg1.N) (h0 : ¬t.val % 10 = 0) :
    (outsAt1 V c t.val t.isLt).2.2 = k1_pay4 (k1_pay7 (iblk1 V c 0 t) (iblk1 V c 2 t) (iblk1 V c 1 t) (iblk1 V c 3 t) (iblk1 V c 4 t) (iblk1 V c 8 t) (iblk1 V c 7 t) (iblk1 V c 5 t)) (iblk1 V c 6 t) (iblk1 V c 9 t) (iblk1 V c 10 t) (outsAt1 V c (t.val - 1) (Nat.lt_of_le_of_lt (Nat.sub_le _ _) t.isLt)).2.2 := by
  rw [outsAt1_B V c t h0]
  dsimp only
  exact out_B_13 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (outsAt1 V c (t.val - 1) (Nat.lt_of_le_of_lt (Nat.sub_le _ _) t.isLt)).2.1 (outsAt1 V c (t.val - 1) (Nat.lt_of_le_of_lt (Nat.sub_le _ _) t.isLt)).2.2

end Columns

section Ideal
variable (V : (c : Dev nD) → (b : Ref sig .tc) → Buf (Elt Ideal) ((c : Thread nD τ).loc b))

open Idealize.ShloMosaic.ValueIdx Cert.TileSums

theorem N20 : cfg1.N = 20 := N_1

/-- Tile n's hidden rows (zero past the grid). -/
def hidT (c : Dev nD) (n : ℕ) : FVec Ideal S5000x128 .f32 :=
  if h : n < cfg1.N then k1_pay1 (k1_pay7 (iblk1 V c 0 ⟨n, h⟩) (iblk1 V c 2 ⟨n, h⟩) (iblk1 V c 1 ⟨n, h⟩) (iblk1 V c 3 ⟨n, h⟩) (iblk1 V c 4 ⟨n, h⟩) (iblk1 V c 8 ⟨n, h⟩) (iblk1 V c 7 ⟨n, h⟩) (iblk1 V c 5 ⟨n, h⟩)) (iblk1 V c 6 ⟨n, h⟩) else fun _ => 0

/-- Tile n's second linear map (zero past the grid). -/
def tileY (c : Dev nD) (n : ℕ) : FVec Ideal S5000x128 .f32 :=
  if h : n < cfg1.N then k1_pay2 (k1_pay7 (iblk1 V c 0 ⟨n, h⟩) (iblk1 V c 2 ⟨n, h⟩) (iblk1 V c 1 ⟨n, h⟩) (iblk1 V c 3 ⟨n, h⟩) (iblk1 V c 4 ⟨n, h⟩) (iblk1 V c 8 ⟨n, h⟩) (iblk1 V c 7 ⟨n, h⟩) (iblk1 V c 5 ⟨n, h⟩)) (iblk1 V c 6 ⟨n, h⟩) (iblk1 V c 9 ⟨n, h⟩) (iblk1 V c 10 ⟨n, h⟩) else fun _ => 0

/-- Tile n's column sum of the second linear map, at column k. -/
def T12 (c : Dev nD) (k : Fin 128) (n : ℕ) : EReal := ∑ r : Fin 5000, tileY V c n (ix2 r k)
/-- Tile n's column sum of the squared second linear map, at column k. -/
def T13 (c : Dev nD) (k : Fin 128) (n : ℕ) : EReal := ∑ r : Fin 5000, tileY V c n (ix2 r k) * tileY V c n (ix2 r k)
/-- The running column of sums after point n, at column k. -/
def A12 (c : Dev nD) (k : Fin 128) (n : ℕ) : EReal :=
  if h : n < cfg1.N then (outsAt1 V c n h).2.1 (ix3 (0 : Fin 1) (0 : Fin 1) k) else 0
/-- The running column of sums of squares after point n, at column k. -/
def A13 (c : Dev nD) (k : Fin 128) (n : ℕ) : EReal :=
  if h : n < cfg1.N then (outsAt1 V c n h).2.2 (ix3 (0 : Fin 1) (0 : Fin 1) k) else 0

theorem A12_first (c : Dev nD) (k : Fin 128) (t : ℕ) (ht : t < 20) (h0 : t % 10 = 0) : A12 V c k t = 0 + T12 V c k t := by
  have h : t < cfg1.N := by rw [N20]; exact ht
  unfold A12 T12 tileY
  rw [dif_pos h, dif_pos h]
  refine (congrFun (o12_A V c ⟨t, h⟩ h0) (ix3 (0 : Fin 1) (0 : Fin 1) k)).trans ((KPay.k1_pay3_apply _ _ _ _ _ 0 0 k).trans ?_)
  rw [KPay.k1_pay5_apply]

theorem A12_next (c : Dev nD) (k : Fin 128) (t : ℕ) (ht : t < 20) (h0 : t % 10 ≠ 0) : A12 V c k t = A12 V c k (t - 1) + T12 V c k t := by
  have h : t < cfg1.N := by rw [N20]; exact ht
  have h' : t - 1 < cfg1.N := Nat.lt_of_le_of_lt (Nat.sub_le _ _) h
  unfold A12 T12 tileY
  rw [dif_pos h, dif_pos h, dif_pos h']
  exact (congrFun (o12_B V c ⟨t, h⟩ h0) (ix3 (0 : Fin 1) (0 : Fin 1) k)).trans (KPay.k1_pay3_apply _ _ _ _ _ 0 0 k)

theorem A13_first (c : Dev nD) (k : Fin 128) (t : ℕ) (ht : t < 20) (h0 : t % 10 = 0) : A13 V c k t = 0 + T13 V c k t := by
  have h : t < cfg1.N := by rw [N20]; exact ht
  unfold A13 T13 tileY
  rw [dif_pos h, dif_pos h]
  refine (congrFun (o13_A V c ⟨t, h⟩ h0) (ix3 (0 : Fin 1) (0 : Fin 1) k)).trans ((KPay.k1_pay4_apply _ _ _ _ _ 0 0 k).trans ?_)
  rw [KPay.k1_pay6_apply]

theorem A13_next (c : Dev nD) (k : Fin 128) (t : ℕ) (ht : t < 20) (h0 : t % 10 ≠ 0) : A13 V c k t = A13 V c k (t - 1) + T13 V c k t := by
  have h : t < cfg1.N := by rw [N20]; exact ht
  have h' : t - 1 < cfg1.N := Nat.lt_of_le_of_lt (Nat.sub_le _ _) h
  unfold A13 T13 tileY
  rw [dif_pos h, dif_pos h, dif_pos h']
  exact (congrFun (o13_B V c ⟨t, h⟩ h0) (ix3 (0 : Fin 1) (0 : Fin 1) k)).trans (KPay.k1_pay4_apply _ _ _ _ _ 0 0 k)

/-- After the last tile of half p the running columns hold that half's ten tile sums. -/
theorem A12_last (c : Dev nD) (k : Fin 128) (p : ℕ) (hp : p < 2) : A12 V c k (10 * p + 9) = ∑ i ∈ Finset.range 10, T12 V c k (10 * p + i) :=
  chain_closed (T12 V c k) (A12 V c k) (A12_first V c k) (A12_next V c k) p hp
theorem A13_last (c : Dev nD) (k : Fin 128) (p : ℕ) (hp : p < 2) : A13 V c k (10 * p + 9) = ∑ i ∈ Finset.range 10, T13 V c k (10 * p + i) :=
  chain_closed (T13 V c k) (A13 V c k) (A13_first V c k) (A13_next V c k) p hp

/-- Whatever the point, the hidden rows' tile is the same function of the point's blocks. -/
theorem hid_at (c : Dev nD) (t : Fin cfg1.N) : (outsAt1 V c t.val t.isLt).1 = hidT V c t.val := by
  unfold hidT
  rw [dif_pos t.isLt]
  by_cases h0 : t.val % 10 = 0
  · exact o11_A V c t h0
  · exact o11_B V c t h0

end Ideal

/-! ## The arrays after the run -/

section Final
variable (V : (c : Dev nD) → (b : Ref sig .tc) → Buf (Elt Ideal) ((c : Thread nD τ).loc b))

open Idealize.ShloMosaic.ValueIdx Cert.TileSums

theorem idx1_11 : ∀ t : Fin cfg1.N, win1_11.index t (0 : Fin 2) = t.val ∧ win1_11.index t (1 : Fin 2) = 0 :=
  (by decide +kernel : ∀ t : Fin grid1.N, _)
theorem idx1_12 : ∀ t : Fin cfg1.N, win1_12.index t (0 : Fin 3) = t.val / 10 ∧ win1_12.index t (1 : Fin 3) = 0 ∧ win1_12.index t (2 : Fin 3) = 0 :=
  (by decide +kernel : ∀ t : Fin grid1.N, _)
theorem idx1_13 : ∀ t : Fin cfg1.N, win1_13.index t (0 : Fin 3) = t.val / 10 ∧ win1_13.index t (1 : Fin 3) = 0 ∧ win1_13.index t (2 : Fin 3) = 0 :=
  (by decide +kernel : ∀ t : Fin grid1.N, _)

/-- The array of sums: row p, column k holds half p's running column after its last tile. -/
def G12 (c : Dev nD) : Vec Ideal S2x1x128 .f32 := fun i => A12 V c (i 2) (10 * (i 0).val + 9)
/-- The array of sums of squares. -/
def G13 (c : Dev nD) : Vec Ideal S2x1x128 .f32 := fun i => A13 V c (i 2) (10 * (i 0).val + 9)
/-- The array of hidden rows: row x is row x % 5000 of tile x / 5000. -/
def G11 (c : Dev nD) : Vec Ideal S100000x128 .f32 := fun i =>
  hidT V c ((i 0).val / 5000) (ix2 (⟨(i 0).val % 5000, Nat.mod_lt _ (by decide)⟩ : Fin 5000) (⟨(i 1).val, (i 1).isLt⟩ : Fin 128))

theorem flushed11 (c : Dev nD) (t : Fin cfg1.N) :
    (dat1 V c).flushed 11 t = ((cfg1.win 11).blk t).view.read (Elt Ideal) (G11 V c) := by
  have hN : t.val < 20 := lt_of_lt_of_eq t.isLt N20
  show (cfg1.win 11).cut (grid1.coords t) ((dat1 V c).after 11 t) = _
  rw [after1_11, hid_at]
  funext y
  have y0 : (y 0).val < 5000 := (y 0).isLt
  have y1 : (y 1).val < 128 := (y 1).isLt
  show hidT V c t.val y = G11 V c (((cfg1.win 11).blk t).view.emb y)
  have he : ((cfg1.win 11).blk t).view.emb y = ix2 (⟨5000 * t.val + (y 0).val, by omega⟩ : Fin 100000) (⟨(y 1).val, y1⟩ : Fin 128) :=
    funext fun a => Fin.ext (by
      match a with
      | ⟨0, _⟩ => show win1_11.index t 0 * 5000 + 1 * (y 0).val = 5000 * t.val + (y 0).val; rw [(idx1_11 t).1]; omega
      | ⟨1, _⟩ => show win1_11.index t 1 * 128 + 1 * (y 1).val = (y 1).val; rw [(idx1_11 t).2]; omega)
  rw [he]
  show _ = hidT V c ((5000 * t.val + (y 0).val) / 5000) (ix2 (⟨(5000 * t.val + (y 0).val) % 5000, _⟩ : Fin 5000) (⟨(y 1).val, _⟩ : Fin 128))
  have hq : (5000 * t.val + (y 0).val) / 5000 = t.val := by omega
  have hy : y = ix2 (⟨(5000 * t.val + (y 0).val) % 5000, Nat.mod_lt _ (by decide)⟩ : Fin 5000) (⟨(y 1).val, y1⟩ : Fin 128) :=
    funext fun a => Fin.ext (by
      match a with
      | ⟨0, _⟩ => show (y 0).val = (5000 * t.val + (y 0).val) % 5000; omega
      | ⟨1, _⟩ => rfl)
  rw [hq]
  exact congrArg (hidT V c t.val) hy

theorem mem_blk11 (t : Fin cfg1.N) (i : S100000x128.Idx) :
    i ∈ ((cfg1.win 11).blk t).view.set ↔ ∀ a : Fin 2, win1_11.index t a * S5000x128.size a ≤ (i a).val ∧ (i a).val < win1_11.index t a * S5000x128.size a + S5000x128.size a := by
  show i ∈ ((View.whole main_v38_0).slice (win1_11.rect t)).set ↔ _
  rw [View.set_slice_whole, Rect.mem_set_unit]
  exact Iff.rfl

/-- The array of hidden rows after the run. -/
theorem final11 (c : Dev nD) : (dat1 V c).arrAt 11 cfg1.N = G11 V c :=
  (dat1 V c).arrAt_eq_of_cover 11 (G11 V c) (fun t _ => flushed11 V c t) fun i => by
    have i0 : (i 0).val < 100000 := (i 0).isLt
    have i1 : (i 1).val < 128 := (i 1).isLt
    have hN : cfg1.N = 20 := N20
    have hN' : grid1.N = 20 := N_1
    refine ⟨⟨(i 0).val / 5000, by omega⟩, flush1_11 _, ?_⟩
    rw [mem_blk11]
    obtain ⟨e0, e1⟩ := idx1_11 ⟨(i 0).val / 5000, by omega⟩
    intro a
    match a with
    | ⟨0, _⟩ => show win1_11.index _ 0 * 5000 ≤ (i 0).val ∧ (i 0).val < win1_11.index _ 0 * 5000 + 5000; rw [e0]; show (i 0).val / 5000 * 5000 ≤ (i 0).val ∧ (i 0).val < (i 0).val / 5000 * 5000 + 5000; omega
    | ⟨1, _⟩ => show win1_11.index _ 1 * 128 ≤ (i 1).val ∧ (i 1).val < win1_11.index _ 1 * 128 + 128; rw [e1]; omega

theorem flushed12 (c : Dev nD) (t : Fin cfg1.N) (hf : (cfg1.win 12).flush t = true) :
    (dat1 V c).flushed 12 t = ((cfg1.win 12).blk t).view.read (Elt Ideal) (G12 V c) := by
  have h9 : t.val % 10 = 9 := (flush1_12 t).mp hf
  have hN : t.val < 20 := lt_of_lt_of_eq t.isLt N20
  show (cfg1.win 12).cut (grid1.coords t) ((dat1 V c).after 12 t) = _
  rw [after1_12]
  funext y
  have y0 : (y 0).val < 1 := (y 0).isLt
  have y1 : (y 1).val < 1 := (y 1).isLt
  have y2 : (y 2).val < 128 := (y 2).isLt
  show (outsAt1 V c t.val t.isLt).2.1 y = G12 V c (((cfg1.win 12).blk t).view.emb y)
  have he : ((cfg1.win 12).blk t).view.emb y = ix3 (⟨t.val / 10, by omega⟩ : Fin 2) (0 : Fin 1) (⟨(y 2).val, y2⟩ : Fin 128) :=
    funext fun a => Fin.ext (by
      match a with
      | ⟨0, _⟩ => show win1_12.index t 0 * 1 + 1 * (y 0).val = t.val / 10; rw [(idx1_12 t).1]; omega
      | ⟨1, _⟩ => show win1_12.index t 1 * 1 + 1 * (y 1).val = 0; rw [(idx1_12 t).2.1]; omega
      | ⟨2, _⟩ => show win1_12.index t 2 * 128 + 1 * (y 2).val = (y 2).val; rw [(idx1_12 t).2.2]; omega)
  have hy : y = ix3 (0 : Fin 1) (0 : Fin 1) (⟨(y 2).val, y2⟩ : Fin 128) := funext fun a => Fin.ext (by
    match a with
    | ⟨0, _⟩ => show (y 0).val = 0; omega
    | ⟨1, _⟩ => show (y 1).val = 0; omega
    | ⟨2, _⟩ => rfl)
  rw [he]
  show _ = A12 V c (⟨(y 2).val, y2⟩ : Fin 128) (10 * (t.val / 10) + 9)
  have ht : 10 * (t.val / 10) + 9 = t.val := by omega
  rw [ht]
  unfold A12
  rw [dif_pos t.isLt]
  exact congrArg (outsAt1 V c t.val t.isLt).2.1 hy

theorem mem_blk12 (t : Fin cfg1.N) (i : S2x1x128.Idx) :
    i ∈ ((cfg1.win 12).blk t).view.set ↔ ∀ a : Fin 3, win1_12.index t a * S1x1x128.size a ≤ (i a).val ∧ (i a).val < win1_12.index t a * S1x1x128.size a + S1x1x128.size a := by
  show i ∈ ((View.whole main_v38_1).slice (win1_12.rect t)).set ↔ _
  rw [View.set_slice_whole, Rect.mem_set_unit]
  exact Iff.rfl

/-- The array of running columns after the run: row p holds half p's column after its last tile. -/
theorem final12 (c : Dev nD) : (dat1 V c).arrAt 12 cfg1.N = G12 V c :=
  (dat1 V c).arrAt_eq_of_cover 12 (G12 V c) (flushed12 V c) fun i => by
    have i0 : (i 0).val < 2 := (i 0).isLt
    have i1 : (i 1).val < 1 := (i 1).isLt
    have i2 : (i 2).val < 128 := (i 2).isLt
    have hN : cfg1.N = 20 := N20
    have hN' : grid1.N = 20 := N_1
    refine ⟨⟨10 * (i 0).val + 9, by omega⟩, (flush1_12 _).mpr (by show (10 * (i 0).val + 9) % 10 = 9; omega), ?_⟩
    rw [mem_blk12]
    obtain ⟨e0, e1, e2⟩ := idx1_12 ⟨10 * (i 0).val + 9, by omega⟩
    have e0' : win1_12.index ⟨10 * (i 0).val + 9, by omega⟩ 0 = (i 0).val := by rw [e0]; show (10 * (i 0).val + 9) / 10 = (i 0).val; omega
    intro a
    match a with
    | ⟨0, _⟩ => show win1_12.index _ 0 * 1 ≤ (i 0).val ∧ (i 0).val < win1_12.index _ 0 * 1 + 1; rw [e0']; omega
    | ⟨1, _⟩ => show win1_12.index _ 1 * 1 ≤ (i 1).val ∧ (i 1).val < win1_12.index _ 1 * 1 + 1; rw [e1]; omega
    | ⟨2, _⟩ => show win1_12.index _ 2 * 128 ≤ (i 2).val ∧ (i 2).val < win1_12.index _ 2 * 128 + 128; rw [e2]; omega

theorem flushed13 (c : Dev nD) (t : Fin cfg1.N) (hf : (cfg1.win 13).flush t = true) :
    (dat1 V c).flushed 13 t = ((cfg1.win 13).blk t).view.read (Elt Ideal) (G13 V c) := by
  have h9 : t.val % 10 = 9 := (flush1_13 t).mp hf
  have hN : t.val < 20 := lt_of_lt_of_eq t.isLt N20
  show (cfg1.win 13).cut (grid1.coords t) ((dat1 V c).after 13 t) = _
  rw [after1_13]
  funext y
  have y0 : (y 0).val < 1 := (y 0).isLt
  have y1 : (y 1).val < 1 := (y 1).isLt
  have y2 : (y 2).val < 128 := (y 2).isLt
  show (outsAt1 V c t.val t.isLt).2.2 y = G13 V c (((cfg1.win 13).blk t).view.emb y)
  have he : ((cfg1.win 13).blk t).view.emb y = ix3 (⟨t.val / 10, by omega⟩ : Fin 2) (0 : Fin 1) (⟨(y 2).val, y2⟩ : Fin 128) :=
    funext fun a => Fin.ext (by
      match a with
      | ⟨0, _⟩ => show win1_13.index t 0 * 1 + 1 * (y 0).val = t.val / 10; rw [(idx1_13 t).1]; omega
      | ⟨1, _⟩ => show win1_13.index t 1 * 1 + 1 * (y 1).val = 0; rw [(idx1_13 t).2.1]; omega
      | ⟨2, _⟩ => show win1_13.index t 2 * 128 + 1 * (y 2).val = (y 2).val; rw [(idx1_13 t).2.2]; omega)
  have hy : y = ix3 (0 : Fin 1) (0 : Fin 1) (⟨(y 2).val, y2⟩ : Fin 128) := funext fun a => Fin.ext (by
    match a with
    | ⟨0, _⟩ => show (y 0).val = 0; omega
    | ⟨1, _⟩ => show (y 1).val = 0; omega
    | ⟨2, _⟩ => rfl)
  rw [he]
  show _ = A13 V c (⟨(y 2).val, y2⟩ : Fin 128) (10 * (t.val / 10) + 9)
  have ht : 10 * (t.val / 10) + 9 = t.val := by omega
  rw [ht]
  unfold A13
  rw [dif_pos t.isLt]
  exact congrArg (outsAt1 V c t.val t.isLt).2.2 hy

theorem mem_blk13 (t : Fin cfg1.N) (i : S2x1x128.Idx) :
    i ∈ ((cfg1.win 13).blk t).view.set ↔ ∀ a : Fin 3, win1_13.index t a * S1x1x128.size a ≤ (i a).val ∧ (i a).val < win1_13.index t a * S1x1x128.size a + S1x1x128.size a := by
  show i ∈ ((View.whole main_v38_2).slice (win1_13.rect t)).set ↔ _
  rw [View.set_slice_whole, Rect.mem_set_unit]
  exact Iff.rfl

/-- The array of running columns after the run: row p holds half p's column after its last tile. -/
theorem final13 (c : Dev nD) : (dat1 V c).arrAt 13 cfg1.N = G13 V c :=
  (dat1 V c).arrAt_eq_of_cover 13 (G13 V c) (flushed13 V c) fun i => by
    have i0 : (i 0).val < 2 := (i 0).isLt
    have i1 : (i 1).val < 1 := (i 1).isLt
    have i2 : (i 2).val < 128 := (i 2).isLt
    have hN : cfg1.N = 20 := N20
    have hN' : grid1.N = 20 := N_1
    refine ⟨⟨10 * (i 0).val + 9, by omega⟩, (flush1_13 _).mpr (by show (10 * (i 0).val + 9) % 10 = 9; omega), ?_⟩
    rw [mem_blk13]
    obtain ⟨e0, e1, e2⟩ := idx1_13 ⟨10 * (i 0).val + 9, by omega⟩
    have e0' : win1_13.index ⟨10 * (i 0).val + 9, by omega⟩ 0 = (i 0).val := by rw [e0]; show (10 * (i 0).val + 9) / 10 = (i 0).val; omega
    intro a
    match a with
    | ⟨0, _⟩ => show win1_13.index _ 0 * 1 ≤ (i 0).val ∧ (i 0).val < win1_13.index _ 0 * 1 + 1; rw [e0']; omega
    | ⟨1, _⟩ => show win1_13.index _ 1 * 1 ≤ (i 1).val ∧ (i 1).val < win1_13.index _ 1 * 1 + 1; rw [e1]; omega
    | ⟨2, _⟩ => show win1_13.index _ 2 * 128 ≤ (i 2).val ∧ (i 2).val < win1_13.index _ 2 * 128 + 128; rw [e2]; omega

end Final

/-! ## The arrays in terms of the layer -/

section Reading
variable (V : (c : Dev nD) → (b : Ref sig .tc) → Buf (Elt Ideal) ((c : Thread nD τ).loc b))

open Idealize.ShloMosaic.ValueIdx Cert.TileSums Cert.Spec

/-- Row r of tile n of the hidden rows is row 5000·n + r of the first linear map normalised by the given mean and variance
    columns, scaled, shifted and cut at zero — when the region's arrays are what their names say. -/
theorem hidT_eq (c : Dev nD) (P h : Rows) (s : EReal) (W1 : Mat) (b1 g1 be1 mean1 var1 : Col) (W2 : Mat) (b2 : Col)
    (hP : ∀ r l, V c main_v9 (ix2 r l) = P r l) (hh : ∀ r l, V c main_arg0 (ix2 r l) = h r l)
    (hs : ∀ l, V c main_v12 (ix2 (0 : Fin 1) l) = s) (hW : ∀ l k, V c main_arg3 (ix2 l k) = W1 l k)
    (hb : ∀ k, V c main_v13 (ix2 (0 : Fin 1) k) = b1 k) (hg : ∀ k, V c main_v14 (ix2 (0 : Fin 1) k) = g1 k)
    (hbe : ∀ k, V c main_v15 (ix2 (0 : Fin 1) k) = be1 k) (hm : ∀ k, V c main_v31 (ix2 (0 : Fin 1) k) = mean1 k)
    (hv : ∀ k, V c main_v37 (ix2 (0 : Fin 1) k) = var1 k) (hW2 : ∀ l k, V c main_arg7 (ix2 l k) = W2 l k)
    (hb2 : ∀ k, V c main_v16 (ix2 (0 : Fin 1) k) = b2 k)
    (n : ℕ) (hn : n < 20) (r : Fin 5000) (k : Fin 128) (hr : 5000 * n + r.val < 100000) :
    hidT V c n (ix2 r k) = (normRelu (y1 P h s W1 b1) mean1 var1 g1 be1) ⟨5000 * n + r.val, hr⟩ k := by
  have hN : n < cfg1.N := by rw [N20]; exact hn
  unfold hidT
  rw [dif_pos hN, KPay.k1_pay1_apply, KPay.k1_pay7_apply]
  unfold normRelu y1 lin xin
  rw [blk1_4, blk1_5, blk1_6, blk1_7, blk1_8, hb, hg, hbe, hm, hv]
  refine congrArg (max · 0) (congrArg (· + be1 k) (congrArg (· * g1 k) (congrArg (· * Ideal.rsqrt (var1 k + varEps))
    (congrArg (· - mean1 k) (congrArg (· + b1 k) (Finset.sum_congr rfl fun l _ => ?_))))))
  rw [blk1_0 V c ⟨n, hN⟩ r l hr, blk1_1 V c ⟨n, hN⟩ r l hr, blk1_2, blk1_3, hP, hh, hs, hW]

/-- Row r of tile n of the second linear map. -/
theorem tileY_eq (c : Dev nD) (P h : Rows) (s : EReal) (W1 : Mat) (b1 g1 be1 mean1 var1 : Col) (W2 : Mat) (b2 : Col)
    (hP : ∀ r l, V c main_v9 (ix2 r l) = P r l) (hh : ∀ r l, V c main_arg0 (ix2 r l) = h r l)
    (hs : ∀ l, V c main_v12 (ix2 (0 : Fin 1) l) = s) (hW : ∀ l k, V c main_arg3 (ix2 l k) = W1 l k)
    (hb : ∀ k, V c main_v13 (ix2 (0 : Fin 1) k) = b1 k) (hg : ∀ k, V c main_v14 (ix2 (0 : Fin 1) k) = g1 k)
    (hbe : ∀ k, V c main_v15 (ix2 (0 : Fin 1) k) = be1 k) (hm : ∀ k, V c main_v31 (ix2 (0 : Fin 1) k) = mean1 k)
    (hv : ∀ k, V c main_v37 (ix2 (0 : Fin 1) k) = var1 k) (hW2 : ∀ l k, V c main_arg7 (ix2 l k) = W2 l k)
    (hb2 : ∀ k, V c main_v16 (ix2 (0 : Fin 1) k) = b2 k)
    (n : ℕ) (hn : n < 20) (r : Fin 5000) (k : Fin 128) :
    tileY V c n (ix2 r k) = ext0 (fun x => lin (normRelu (y1 P h s W1 b1) mean1 var1 g1 be1) W2 b2 x k) (5000 * n + r.val) := by
  have hN : n < cfg1.N := by rw [N20]; exact hn
  have hr : 5000 * n + r.val < 100000 := by have := r.isLt; omega
  have e := hidT_eq V c P h s W1 b1 g1 be1 mean1 var1 W2 b2 hP hh hs hW hb hg hbe hm hv hW2 hb2 n hn r
  unfold hidT at e
  rw [dif_pos hN] at e
  unfold tileY
  rw [dif_pos hN, ext0_of_lt _ hr, KPay.k1_pay2_apply]
  unfold lin
  refine congrArg₂ (· + ·) (Finset.sum_congr rfl fun l _ => ?_) ?_
  · rw [e l hr, blk1_9, hW2]
  · rw [blk1_10, hb2]

/-- Row p of the array of sums: the sum of the second linear map's column k over the ten tiles of half p. -/
theorem sums12 (c : Dev nD) (P h : Rows) (s : EReal) (W1 : Mat) (b1 g1 be1 mean1 var1 : Col) (W2 : Mat) (b2 : Col)
    (hP : ∀ r l, V c main_v9 (ix2 r l) = P r l) (hh : ∀ r l, V c main_arg0 (ix2 r l) = h r l)
    (hs : ∀ l, V c main_v12 (ix2 (0 : Fin 1) l) = s) (hW : ∀ l k, V c main_arg3 (ix2 l k) = W1 l k)
    (hb : ∀ k, V c main_v13 (ix2 (0 : Fin 1) k) = b1 k) (hg : ∀ k, V c main_v14 (ix2 (0 : Fin 1) k) = g1 k)
    (hbe : ∀ k, V c main_v15 (ix2 (0 : Fin 1) k) = be1 k) (hm : ∀ k, V c main_v31 (ix2 (0 : Fin 1) k) = mean1 k)
    (hv : ∀ k, V c main_v37 (ix2 (0 : Fin 1) k) = var1 k) (hW2 : ∀ l k, V c main_arg7 (ix2 l k) = W2 l k)
    (hb2 : ∀ k, V c main_v16 (ix2 (0 : Fin 1) k) = b2 k) (p : Fin 2) (k : Fin 128) :
    (dat1 V c).arrAt 12 cfg1.N (ix3 p (0 : Fin 1) k)
      = ∑ i ∈ Finset.range 10, ∑ r : Fin 5000, ext0 (fun x => lin (normRelu (y1 P h s W1 b1) mean1 var1 g1 be1) W2 b2 x k) (5000 * (10 * p.val + i) + r.val) := by
  rw [final12]
  show A12 V c k (10 * p.val + 9) = _
  rw [A12_last V c k p.val p.isLt]
  refine Finset.sum_congr rfl fun i hi => ?_
  have hi' : i < 10 := Finset.mem_range.mp hi
  have hp := p.isLt
  unfold T12
  exact Finset.sum_congr rfl fun r _ => tileY_eq V c P h s W1 b1 g1 be1 mean1 var1 W2 b2 hP hh hs hW hb hg hbe hm hv hW2 hb2 (10 * p.val + i) (by omega) r k

/-- Row p of the array of sums of squares. -/
theorem sums13 (c : Dev nD) (P h : Rows) (s : EReal) (W1 : Mat) (b1 g1 be1 mean1 var1 : Col) (W2 : Mat) (b2 : Col)
    (hP : ∀ r l, V c main_v9 (ix2 r l) = P r l) (hh : ∀ r l, V c main_arg0 (ix2 r l) = h r l)
    (hs : ∀ l, V c main_v12 (ix2 (0 : Fin 1) l) = s) (hW : ∀ l k, V c main_arg3 (ix2 l k) = W1 l k)
    (hb : ∀ k, V c main_v13 (ix2 (0 : Fin 1) k) = b1 k) (hg : ∀ k, V c main_v14 (ix2 (0 : Fin 1) k) = g1 k)
    (hbe : ∀ k, V c main_v15 (ix2 (0 : Fin 1) k) = be1 k) (hm : ∀ k, V c main_v31 (ix2 (0 : Fin 1) k) = mean1 k)
    (hv : ∀ k, V c main_v37 (ix2 (0 : Fin 1) k) = var1 k) (hW2 : ∀ l k, V c main_arg7 (ix2 l k) = W2 l k)
    (hb2 : ∀ k, V c main_v16 (ix2 (0 : Fin 1) k) = b2 k) (p : Fin 2) (k : Fin 128) :
    (dat1 V c).arrAt 13 cfg1.N (ix3 p (0 : Fin 1) k)
      = ∑ i ∈ Finset.range 10, ∑ r : Fin 5000, ext0 (fun x => lin (normRelu (y1 P h s W1 b1) mean1 var1 g1 be1) W2 b2 x k * lin (normRelu (y1 P h s W1 b1) mean1 var1 g1 be1) W2 b2 x k) (5000 * (10 * p.val + i) + r.val) := by
  rw [final13]
  show A13 V c k (10 * p.val + 9) = _
  rw [A13_last V c k p.val p.isLt]
  refine Finset.sum_congr rfl fun i hi => ?_
  have hi' : i < 10 := Finset.mem_range.mp hi
  have hp := p.isLt
  unfold T13
  refine Finset.sum_congr rfl fun r _ => ?_
  have hr : 5000 * (10 * p.val + i) + r.val < 100000 := by have := r.isLt; omega
  rw [tileY_eq V c P h s W1 b1 g1 be1 mean1 var1 W2 b2 hP hh hs hW hb hg hbe hm hv hW2 hb2 (10 * p.val + i) (by omega) r k, ext0_of_lt _ hr, ext0_of_lt _ hr]

/-- The array of hidden rows. -/
theorem hidden11 (c : Dev nD) (P h : Rows) (s : EReal) (W1 : Mat) (b1 g1 be1 mean1 var1 : Col) (W2 : Mat) (b2 : Col)
    (hP : ∀ r l, V c main_v9 (ix2 r l) = P r l) (hh : ∀ r l, V c main_arg0 (ix2 r l) = h r l)
    (hs : ∀ l, V c main_v12 (ix2 (0 : Fin 1) l) = s) (hW : ∀ l k, V c main_arg3 (ix2 l k) = W1 l k)
    (hb : ∀ k, V c main_v13 (ix2 (0 : Fin 1) k) = b1 k) (hg : ∀ k, V c main_v14 (ix2 (0 : Fin 1) k) = g1 k)
    (hbe : ∀ k, V c main_v15 (ix2 (0 : Fin 1) k) = be1 k) (hm : ∀ k, V c main_v31 (ix2 (0 : Fin 1) k) = mean1 k)
    (hv : ∀ k, V c main_v37 (ix2 (0 : Fin 1) k) = var1 k) (hW2 : ∀ l k, V c main_arg7 (ix2 l k) = W2 l k)
    (hb2 : ∀ k, V c main_v16 (ix2 (0 : Fin 1) k) = b2 k) (x : Fin 100000) (l : Fin 128) :
    (dat1 V c).arrAt 11 cfg1.N (ix2 x l) = (normRelu (y1 P h s W1 b1) mean1 var1 g1 be1) x l := by
  rw [final11]
  have hx := x.isLt
  show hidT V c (x.val / 5000) (ix2 (⟨x.val % 5000, _⟩ : Fin 5000) (⟨l.val, _⟩ : Fin 128)) = _
  have hr : 5000 * (x.val / 5000) + x.val % 5000 < 100000 := by omega
  rw [hidT_eq V c P h s W1 b1 g1 be1 mean1 var1 W2 b2 hP hh hs hW hb hg hbe hm hv hW2 hb2 (x.val / 5000) (by omega) ⟨x.val % 5000, Nat.mod_lt _ (by decide)⟩ ⟨l.val, l.isLt⟩ hr]
  have ex : (⟨5000 * (x.val / 5000) + x.val % 5000, hr⟩ : Fin 100000) = x := Fin.ext (by show 5000 * (x.val / 5000) + x.val % 5000 = x.val; omega)
  rw [ex]

end Reading

end Cert.KernelIdeal.K1
end
-- ==== Proof.LibVariance.lean ====
import Mathlib
import Idealize.ShloMosaic.PureOps.Ideal
import Idealize.ShloMosaic.PureOps.Ideal.Laws

noncomputable section

namespace Cert.LibVariance

open Idealize.ShloMosaic

/-- The f32 pattern `0x39800000` (sign `0`, biased exponent `115`, zero fraction) denotes
    `2^23 · 2^(115 - 127 - 23) = 2^(-12) = 1/4096`. -/
theorem ofBits_inv4096 : Ideal.ofBits .f32 0x39800000#32 = (((4096 : ℝ)⁻¹ : ℝ) : EReal) := by
  simp [Ideal.ofBits, Ideal.ieee, -EReal.coe_mul]; norm_num

/-- A finite sum of coerced reals is the coercion of the real sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih =>
    rw [Finset.sum_insert ha, Finset.sum_insert ha, ih, EReal.coe_add]

/-- The one-pass / two-pass variance identity. With `μ = a · Σ r` and `a · N = 1`:
    `a · Σ (r i - μ)² = a · Σ r i² - 2 μ (a · Σ r) + (a · N) μ² = a · Σ r i² - μ²`, and the left side is
    `a ≥ 0` times a sum of squares, hence nonnegative, so clamping the one-pass form at `0` changes nothing. -/
theorem onepass_eq_twopass {ι : Type*} [Fintype ι] (r : ι → ℝ) (a : ℝ) (ha : 0 ≤ a)
    (hcard : a * (Fintype.card ι : ℝ) = 1) :
    max ((∑ i, (r i : EReal) * (r i : EReal)) * (a : EReal)
        - ((∑ i, (r i : EReal)) * (a : EReal)) * ((∑ i, (r i : EReal)) * (a : EReal))) 0
      = (∑ i, ((r i : EReal) - (∑ j, (r j : EReal)) * (a : EReal))
          * ((r i : EReal) - (∑ j, (r j : EReal)) * (a : EReal))) * (a : EReal) := by
  -- the real identity
  have hreal : (∑ i, (r i - (∑ j, r j) * a) * (r i - (∑ j, r j) * a)) * a
      = (∑ i, r i * r i) * a - ((∑ i, r i) * a) * ((∑ i, r i) * a) := by
    set S : ℝ := ∑ j, r j with hS
    have h1 : (∑ i, (r i - S * a) * (r i - S * a))
        = (∑ i, r i * r i) - 2 * (S * a) * S + (Fintype.card ι : ℝ) * ((S * a) * (S * a)) := by
      have : ∀ i, (r i - S * a) * (r i - S * a)
          = r i * r i - 2 * (S * a) * r i + (S * a) * (S * a) := fun i => by ring
      simp only [this, Finset.sum_add_distrib, Finset.sum_sub_distrib, ← Finset.mul_sum,
        Finset.sum_const, Finset.card_univ, nsmul_eq_mul, ← hS]
      ring
    rw [h1]
    have h2 : (Fintype.card ι : ℝ) * a = 1 := by rw [mul_comm]; exact hcard
    linear_combination (S * a) * (S * a) * h2
  have hnonneg : 0 ≤ (∑ i, (r i - (∑ j, r j) * a) * (r i - (∑ j, r j) * a)) * a :=
    mul_nonneg (Finset.sum_nonneg fun i _ => mul_self_nonneg _) ha
  -- move the coercions out
  have hsum : (∑ j, (r j : EReal)) = ((∑ j, r j : ℝ) : EReal) := coe_sum Finset.univ r
  have hsq : (∑ i, (r i : EReal) * (r i : EReal)) = ((∑ i, r i * r i : ℝ) : EReal) := by
    refine Eq.trans ?_ (coe_sum Finset.univ _)
    refine Finset.sum_congr rfl fun i _ => ?_
    simp only [EReal.coe_mul]
  have hdev : (∑ i, ((r i : EReal) - ((∑ j, r j : ℝ) : EReal) * (a : EReal))
        * ((r i : EReal) - ((∑ j, r j : ℝ) : EReal) * (a : EReal)))
      = ((∑ i, (r i - (∑ j, r j) * a) * (r i - (∑ j, r j) * a) : ℝ) : EReal) := by
    refine Eq.trans ?_ (coe_sum Finset.univ _)
    refine Finset.sum_congr rfl fun i _ => ?_
    simp only [EReal.coe_mul, EReal.coe_sub]
  rw [hsum, hsq, hdev, ← EReal.coe_mul, ← EReal.coe_mul, ← EReal.coe_mul, ← EReal.coe_sub,
    ← EReal.coe_mul, ← hreal]
  exact max_eq_left (by exact_mod_cast hnonneg)

end Cert.LibVariance

end
-- ==== Proof.SpecLaw.lean ====
/-
  The one-pass and the two-pass variance agree on real-valued columns, and hence so do the two layers.

  On the extended reals the identity  Σy²/N − (Σy/N)² = Σ(y − Σy/N)²/N  fails at ±∞, so everything here is stated for
  real-valued arguments.  Finite sums, differences and products of reals are reals, so the first linear map's output
  is real-valued and its two variances agree.  The two-pass variance of a real column is a nonnegative real, and the
  small constant added to it is a positive real, so the reciprocal square root is taken of a positive real and is a
  real; the hidden rows are therefore real-valued, so is the second linear map's output, and its two variances
  agree as well.  Everything else in the layer is common to the two sides.
-/
import proofs.«144824_j22643067584730_2_alg».proof.Proof.Spec
import proofs.«144824_j22643067584730_2_alg».proof.Proof.LibVariance

noncomputable section

namespace Cert.Spec

open Idealize.ShloMosaic

/-! ### The three binary32 words -/

/-- Sign 0, biased exponent 143, fraction 4411392: (2^23 + 4411392) · 2^(143 - 127 - 23) = 12800000 / 128. -/
theorem nRows_val : nRows = ((100000 : ℝ) : EReal) := by
  simp [Ideal.ofBits, Ideal.ieee, -EReal.coe_mul]; norm_num

/-- Sign 0, biased exponent 127, zero fraction: 2^23 · 2^(127 - 127 - 23) = 1. -/
theorem oneW_val : oneW = ((1 : ℝ) : EReal) := by
  simp [Ideal.ofBits, Ideal.ieee, -EReal.coe_mul]; norm_num

/-- Sign 0, biased exponent 110, fraction 2606508: (2^23 + 2606508) · 2^(110 - 127 - 23) = 10995116 / 2^40. -/
theorem varEps_val : varEps = (((10995116 : ℝ) / 2 ^ 40 : ℝ) : EReal) := by
  simp [Ideal.ofBits, Ideal.ieee, -EReal.coe_mul]; norm_num

theorem varEps_pos : ∃ e : ℝ, 0 < e ∧ varEps = (e : EReal) :=
  ⟨(10995116 : ℝ) / 2 ^ 40, by positivity, varEps_val⟩

/-! ### Real-valued extended reals -/

/-- x is a real number (neither infinity) -/
def IsReal (x : EReal) : Prop := ∃ r : ℝ, x = (r : EReal)

theorem IsReal.coe (r : ℝ) : IsReal (r : EReal) := ⟨r, rfl⟩

theorem IsReal.zero : IsReal (0 : EReal) := ⟨0, EReal.coe_zero.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

/-- A finite sum of real numbers is a real number. -/
theorem IsReal.sum {ι : Type*} (s : Finset ι) (f : ι → EReal) (hf : ∀ i ∈ s, IsReal (f i)) :
    IsReal (∑ i ∈ s, f i) :=
  Finset.sum_induction f IsReal (fun _ _ => IsReal.add) IsReal.zero hf

/-- Division by the number of rows is multiplication by the real 1/100000. -/
theorem div_nRows (x : EReal) : Ideal.div x nRows = x * (((1 / 100000 : ℝ) : ℝ) : EReal) := by
  rw [nRows_val]; exact Ideal.div_coe (by norm_num) x

theorem IsReal.div_nRows {x : EReal} (hx : IsReal x) : IsReal (Ideal.div x nRows) := by
  rw [Cert.Spec.div_nRows]; exact hx.mul (IsReal.coe _)

/-- The reciprocal square root of a positive real is the real (√r)⁻¹. -/
theorem IsReal.rsqrt_pos {r : ℝ} (hr : 0 < r) : IsReal (Ideal.rsqrt (r : EReal)) := by
  rw [Ideal.rsqrt_coe, if_neg (not_lt.mpr hr.le), if_neg hr.ne']; exact IsReal.coe _

/-! ### The stages keep real values real -/

theorem xin_real {P h : Rows} {s : EReal} (hP : ∀ r l, IsReal (P r l)) (hh : ∀ r l, IsReal (h r l))
    (hs : IsReal s) (r : Fin 100000) (l : Fin 128) : IsReal (xin P h s r l) :=
  (hP r l).add (hs.mul (hh r l))

theorem lin_real {X : Rows} {W : Mat} {b : Col} (hX : ∀ r l, IsReal (X r l)) (hW : ∀ l k, IsReal (W l k))
    (hb : ∀ k, IsReal (b k)) (r : Fin 100000) (k : Fin 128) : IsReal (lin X W b r k) :=
  (IsReal.sum _ _ fun l _ => (hX r l).mul (hW l k)).add (hb k)

theorem meanOf_real {Y : Rows} (hY : ∀ r k, IsReal (Y r k)) (k : Fin 128) : IsReal (meanOf Y k) :=
  (IsReal.sum _ _ fun r _ => hY r k).div_nRows

/-- The two-pass variance of a real column is a nonnegative real: 1/100000 times a sum of squares. -/
theorem varTwo_nonneg {Y : Rows} (hY : ∀ r k, IsReal (Y r k)) (k : Fin 128) :
    ∃ v : ℝ, 0 ≤ v ∧ varTwo Y k = (v : EReal) := by
  obtain ⟨μ, hμ⟩ := meanOf_real hY k
  choose f hf using fun r => hY r k
  refine ⟨(∑ r : Fin 100000, (f r - μ) * (f r - μ)) * (1 / 100000),
    mul_nonneg (Finset.sum_nonneg fun r _ => mul_self_nonneg _) (by norm_num), ?_⟩
  have hterm : ∀ r : Fin 100000, (Y r k - meanOf Y k) * (Y r k - meanOf Y k)
      = (((f r - μ) * (f r - μ) : ℝ) : EReal) := fun r => by
    rw [hμ, hf r, ← EReal.coe_sub, ← EReal.coe_mul]
  simp only [varTwo, hterm, Cert.Spec.div_nRows]
  rw [LibVariance.coe_sum, ← EReal.coe_mul]

/-- Normalising a real column by a real mean and a nonnegative real variance gives real values: the variance plus
    the small constant is a positive real, so its reciprocal square root is a real. -/
theorem normRelu_real {Y : Rows} {mean var g be : Col} (hY : ∀ r k, IsReal (Y r k))
    (hm : ∀ k, IsReal (mean k)) (hv : ∀ k, ∃ v : ℝ, 0 ≤ v ∧ var k = (v : EReal))
    (hg : ∀ k, IsReal (g k)) (hbe : ∀ k, IsReal (be k)) (r : Fin 100000) (k : Fin 128) :
    IsReal (normRelu Y mean var g be r k) := by
  obtain ⟨v, hv0, hvk⟩ := hv k
  obtain ⟨e, he0, hee⟩ := varEps_pos
  have hrs : IsReal (Ideal.rsqrt (var k + varEps)) := by
    rw [hvk, hee, ← EReal.coe_add]; exact IsReal.rsqrt_pos (add_pos_of_nonneg_of_pos hv0 he0)
  exact ((((hY r k).sub (hm k)).mul hrs).mul (hg k)).add (hbe k) |>.max IsReal.zero

/-! ### The two variances agree on real columns -/

theorem varOne_eq_varTwo (Y : Rows) (hY : ∀ r k, IsReal (Y r k)) : varOne Y = varTwo Y := by
  funext k
  choose f hf using fun r => hY r k
  simp only [varOne, varTwo, meanOf, Cert.Spec.div_nRows, hf]
  exact LibVariance.onepass_eq_twopass f (1 / 100000) (by norm_num)
    (by rw [Fintype.card_fin]; norm_num)

/-! ### The two layers agree on real arguments -/

theorem layer_one_eq_two (P h : Rows) (s : EReal) (W1 : Mat) (b1 g1 be1 : Col) (W2 : Mat) (b2 g2 be2 : Col)
    (hP : ∀ r l, IsReal (P r l)) (hh : ∀ r l, IsReal (h r l)) (hs : IsReal s)
    (hW1 : ∀ l k, IsReal (W1 l k)) (hb1 : ∀ k, IsReal (b1 k)) (hg1 : ∀ k, IsReal (g1 k)) (hbe1 : ∀ k, IsReal (be1 k))
    (hW2 : ∀ l k, IsReal (W2 l k)) (hb2 : ∀ k, IsReal (b2 k)) :
    layer varOne P h s W1 b1 g1 be1 W2 b2 g2 be2 = layer varTwo P h s W1 b1 g1 be1 W2 b2 g2 be2 := by
  -- the first linear map's output is real-valued, so its two variances agree
  have hy1 : ∀ r k, IsReal (y1 P h s W1 b1 r k) := fun r k => lin_real (xin_real hP hh hs) hW1 hb1 r k
  have e1 : varOne (y1 P h s W1 b1) = varTwo (y1 P h s W1 b1) := varOne_eq_varTwo _ hy1
  have eh : hidden varOne P h s W1 b1 g1 be1 = hidden varTwo P h s W1 b1 g1 be1 := by
    unfold hidden; rw [e1]
  have ey2 : y2 varOne P h s W1 b1 g1 be1 W2 b2 = y2 varTwo P h s W1 b1 g1 be1 W2 b2 := by
    unfold y2; rw [eh]
  -- the hidden rows are real-valued, hence so is the second linear map's output
  have hhid : ∀ r k, IsReal (hidden varTwo P h s W1 b1 g1 be1 r k) := fun r k =>
    normRelu_real hy1 (meanOf_real hy1) (varTwo_nonneg hy1) hg1 hbe1 r k
  have hy2 : ∀ r k, IsReal (y2 varTwo P h s W1 b1 g1 be1 W2 b2 r k) := fun r k => lin_real hhid hW2 hb2 r k
  have e2 : varOne (y2 varTwo P h s W1 b1 g1 be1 W2 b2) = varTwo (y2 varTwo P h s W1 b1 g1 be1 W2 b2) :=
    varOne_eq_varTwo _ hy2
  unfold layer; rw [ey2, e2]

end Cert.Spec

end
-- ==== Proof.Finite.lean ====
/-
  From the precondition to real values.

  The precondition is the conjunction, over the ten float arguments, of "every entry x has max(x, −x) < +∞".  On
  the extended reals that excludes +∞ and −∞ (whose negation is +∞), so every entry of every float argument is a
  real number.  The pooled array is a zero array onto which gathered rows of the node features are added; each of
  its entries is 0 plus a finite sum of entries of the node features, so it is real-valued when they are.
-/
import proofs.«144824_j22643067584730_2_alg».proof.Proof.SpecLaw
import proofs.«144824_j22643067584730_2_alg».proof.Pre_finite_inputs
import proofs.«144824_j22643067584730_2_alg».proof.KernelIdeal
import proofs.«144824_j22643067584730_2_alg».proof.Defs
import Idealize.ShloMosaic.Lib.ReduceAll

noncomputable section

namespace Cert.Finite

open Idealize.ShloMosaic Idealize.SL.Sem Cert.KernelIdeal Cert.Spec

/-! ### One element: |x| < +∞ says x is a real -/

/-- The word 0x7F800000 (sign 0, exponent all ones, zero fraction) denotes +∞. -/
theorem ofBits_inf : Ideal.ofBits .f32 0x7F800000#32 = (⊤ : EReal) := by
  simp [Ideal.ofBits, Ideal.ieee]

/-- The word 0 denotes the real 0. -/
theorem ofBits_zero : Ideal.ofBits .f32 0x00000000#32 = (0 : EReal) := by
  simp [Ideal.ofBits, Ideal.ieee]

/-- max(x, −x) < +∞ excludes x = +∞ and x = −∞ (whose negation is +∞). -/
theorem isReal_of_abs_lt_inf (x : EReal)
    (h : Ideal.cmp .olt (max x (-x)) (Ideal.ofBits .f32 0x7F800000#32) = 1#1) : IsReal x := by
  rw [ofBits_inf] at h
  induction x using EReal.rec with
  | bot => simp [Ideal.cmp] at h
  | coe r => exact ⟨r, rfl⟩
  | top => simp [Ideal.cmp] at h

/-! ### One array: a conjunction over all entries that came out 1 -/

instance : Subsingleton Cert.Pre_finite_inputs.S_.Idx := ⟨fun a b => funext fun d => d.elim0⟩

/-- If the conjunction over every index of "|x i| < y i" is 1, where every y i is the word of +∞, then every
    entry of x is a real. -/
theorem all_real {s : Shape} {axes : List (Fin s.rank)} (hr : s.ReducesTo axes Cert.Pre_finite_inputs.S_)
    (hu : 0 < Cert.Pre_finite_inputs.S_.numel) (x y : FVec Ideal s .f32)
    (hy : ∀ i, y i = Ideal.ofBits .f32 0x7F800000#32) (init : IVec Cert.Pre_finite_inputs.S_ 1)
    (e : Host.reduce IntOp.andi (cmpf .olt (Host.absf x) y) init hr hu ValueIdx.ix0 = 1#1) :
    ∀ i, IsReal (x i) := fun i => by
  have h := Host.reduce_andi_all (cmpf .olt (Host.absf x) y) init hr hu ValueIdx.ix0 e i
  refine isReal_of_abs_lt_inf (x i) ?_
  rw [← hy i]
  exact h

/-- A conjunction of two one-element arrays that is 1 has both 1. -/
theorem andi_ix0 (p q : IVec Cert.Pre_finite_inputs.S_ 1) (h : andi p q ValueIdx.ix0 = 1#1) :
    p ValueIdx.ix0 = 1#1 ∧ q ValueIdx.ix0 = 1#1 := IntOp.andi_eq_one.1 h

/-! ### The whole predicate: ten conjuncts, one per float argument -/

section Pre
variable [Cert.Pre_finite_inputs.Facts]
open Cert.Pre_finite_inputs.Facts

/-- The printed predicate is the conjunction, over the ten float arguments, of "every entry has |·| < +∞";
    if it is 1, every entry of every float argument is a real. -/
theorem fn_real (a0 : FVec Ideal Cert.Pre_finite_inputs.S100000x128 .f32)
    (a1 a2 : IVec Cert.Pre_finite_inputs.S1600000 32)
    (a3 : FVec Ideal Cert.Pre_finite_inputs.S128x128 .f32)
    (a4 a5 a6 : FVec Ideal Cert.Pre_finite_inputs.S128 .f32)
    (a7 : FVec Ideal Cert.Pre_finite_inputs.S128x128 .f32)
    (a8 a9 a10 : FVec Ideal Cert.Pre_finite_inputs.S128 .f32)
    (a11 : FVec Ideal Cert.Pre_finite_inputs.S_ .f32)
    (h : Cert.Pre_finite_inputs.fn (F := Ideal) a0 a1 a2 a3 a4 a5 a6 a7 a8 a9 a10 a11 = fun _ => 1#1) :
    (∀ i, IsReal (a0 i)) ∧ (∀ i, IsReal (a3 i)) ∧ (∀ i, IsReal (a4 i)) ∧ (∀ i, IsReal (a5 i))
      ∧ (∀ i, IsReal (a6 i)) ∧ (∀ i, IsReal (a7 i)) ∧ (∀ i, IsReal (a8 i)) ∧ (∀ i, IsReal (a9 i))
      ∧ (∀ i, IsReal (a10 i)) ∧ (∀ i, IsReal (a11 i)) := by
  have h := congrFun h ValueIdx.ix0
  dsimp only [Cert.Pre_finite_inputs.fn, Cert.Pre_finite_inputs.fn_part1, Cert.Pre_finite_inputs.fn_part2] at h
  obtain ⟨h, h11⟩ := andi_ix0 _ _ h
  obtain ⟨h, h10⟩ := andi_ix0 _ _ h
  obtain ⟨h, h9⟩ := andi_ix0 _ _ h
  obtain ⟨h, h8⟩ := andi_ix0 _ _ h
  obtain ⟨h, h7⟩ := andi_ix0 _ _ h
  obtain ⟨h, h6⟩ := andi_ix0 _ _ h
  obtain ⟨h, h5⟩ := andi_ix0 _ _ h
  obtain ⟨h, h4⟩ := andi_ix0 _ _ h
  obtain ⟨h0, h3⟩ := andi_ix0 _ _ h
  exact ⟨all_real _ _ a0 _ (fun _ => rfl) _ h0, all_real _ _ a3 _ (fun _ => rfl) _ h3,
    all_real _ _ a4 _ (fun _ => rfl) _ h4, all_real _ _ a5 _ (fun _ => rfl) _ h5,
    all_real _ _ a6 _ (fun _ => rfl) _ h6, all_real _ _ a7 _ (fun _ => rfl) _ h7,
    all_real _ _ a8 _ (fun _ => rfl) _ h8, all_real _ _ a9 _ (fun _ => rfl) _ h9,
    all_real _ _ a10 _ (fun _ => rfl) _ h10, all_real _ _ a11 _ (fun _ => rfl) _ h11⟩

variable (m : (ℓ : Loc nD τ sig) → Buf (Elt Ideal) ℓ) (hpre : Cert.Pre_KernelIdeal m) (c : Dev nD)
include hpre

theorem real_arg0 : ∀ i, IsReal (m ((c.tc : Thread nD τ).loc main_arg0) i) := (fn_real _ _ _ _ _ _ _ _ _ _ _ _ (hpre c)).1
theorem real_arg3 : ∀ i, IsReal (m ((c.tc : Thread nD τ).loc main_arg3) i) := (fn_real _ _ _ _ _ _ _ _ _ _ _ _ (hpre c)).2.1
theorem real_arg4 : ∀ i, IsReal (m ((c.tc : Thread nD τ).loc main_arg4) i) := (fn_real _ _ _ _ _ _ _ _ _ _ _ _ (hpre c)).2.2.1
theorem real_arg5 : ∀ i, IsReal (m ((c.tc : Thread nD τ).loc main_arg5) i) := (fn_real _ _ _ _ _ _ _ _ _ _ _ _ (hpre c)).2.2.2.1
theorem real_arg6 : ∀ i, IsReal (m ((c.tc : Thread nD τ).loc main_arg6) i) := (fn_real _ _ _ _ _ _ _ _ _ _ _ _ (hpre c)).2.2.2.2.1
theorem real_arg7 : ∀ i, IsReal (m ((c.tc : Thread nD τ).loc main_arg7) i) := (fn_real _ _ _ _ _ _ _ _ _ _ _ _ (hpre c)).2.2.2.2.2.1
theorem real_arg8 : ∀ i, IsReal (m ((c.tc : Thread nD τ).loc main_arg8) i) := (fn_real _ _ _ _ _ _ _ _ _ _ _ _ (hpre c)).2.2.2.2.2.2.1
theorem real_arg9 : ∀ i, IsReal (m ((c.tc : Thread nD τ).loc main_arg9) i) := (fn_real _ _ _ _ _ _ _ _ _ _ _ _ (hpre c)).2.2.2.2.2.2.2.1
theorem real_arg10 : ∀ i, IsReal (m ((c.tc : Thread nD τ).loc main_arg10) i) := (fn_real _ _ _ _ _ _ _ _ _ _ _ _ (hpre c)).2.2.2.2.2.2.2.2.1
theorem real_arg11 : ∀ i, IsReal (m ((c.tc : Thread nD τ).loc main_arg11) i) := (fn_real _ _ _ _ _ _ _ _ _ _ _ _ (hpre c)).2.2.2.2.2.2.2.2.2

end Pre

/-! ### The pooled array -/

/-- An accumulating scatter of real updates onto a real array is real-valued: each entry is the operand's entry
    plus a finite sum of updates. -/
theorem scatterAdd_real {s si su : Shape} {w : Nat} (d : ScatterDims s si su) (v : FVec Ideal s .f32)
    (idx : IVec si w) (upd : FVec Ideal su .f32) (hv : ∀ i, IsReal (v i)) (hu : ∀ j, IsReal (upd j)) :
    ∀ i, IsReal (Host.scatterAdd d v idx upd i) := by
  intro i
  unfold Host.scatterAdd
  rw [Ideal.hostScatterAdd_def]
  unfold Ideal.hostScatterAdd
  exact (hv i).add (IsReal.sum _ _ fun j _ => hu j)

/-- A gather from a real array is real-valued: each entry is some entry of the operand. -/
theorem gather_real {s si t : Shape} {w : Nat} (d : GatherDims s si t) (x : FVec Ideal s .f32) (idx : IVec si w)
    (hx : ∀ i, IsReal (x i)) : ∀ j, IsReal (Host.gather d x idx j) := by
  intro j
  unfold Host.gather
  exact hx _

/-- The zero word broadcast to any shape is real-valued. -/
theorem bcast_zero_real {s t : Shape} (dims : Fin s.rank → Fin t.rank) (h : s.BroadcastsInDim t dims) :
    ∀ i, IsReal (broadcastInDim t dims h (constant (F := Ideal) s .f32 0x00000000#32) i) := by
  intro i
  unfold broadcastInDim constant
  rw [Ideal.ofBits_def, ofBits_zero]
  exact IsReal.zero

section Pooled
variable [Cert.KernelIdeal.Facts₀]
open Cert.KernelIdeal.Facts₀

/-- The pooled neighbour features as the program's host operations spell them: the rows of x named by src
    (a negative index first wrapped by adding 100000) are gathered, and added onto a zero array at the rows
    named by dst. -/
def pooledOf (x : FVec Ideal S100000x128 .f32) (src dst : IVec S1600000 32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 x
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- Every entry of the pooled array is 0 plus a finite sum of entries of x — whichever rows the indices name,
    since a gathered entry is always some entry of x and an update either lands or is dropped — hence a real
    when x is real-valued. -/
theorem pooled_real (x : FVec Ideal S100000x128 .f32) (src dst : IVec S1600000 32)
    (hx : ∀ i, IsReal (x i)) : ∀ i, IsReal (pooledOf x src dst i) :=
  scatterAdd_real _ _ _ _ (bcast_zero_real _ _) (gather_real _ x _ hx)

end Pooled

end Cert.Finite

end
-- ==== Proof.K2.lean ====
/-
  The third kernel region: the output rows.

  The grid has 20 points; point t works on tile t (rows 5000·t … 5000·t + 4999) of the hidden rows and on the whole
  weight matrix and the whole bias, scale, shift, mean and variance rows.  It writes tile t of the output: row r of the
  tile is the second linear map of hidden row 5000·t + r, minus the column's mean, times the reciprocal square root of
  the column's variance plus the small constant, times the scale, plus the shift, cut off at zero.  Every point writes
  its tile back and the 20 tiles fill the 100000 rows, so the output array is that function of the region's arrays at
  every row and column.
-/
import proofs.«144824_j22643067584730_2_alg».proof.Proof.Gen.KernelIdeal.Frame
import Idealize.ShloMosaic.Lib.Pipeline.Value
import Idealize.ShloMosaic.Lib.Tactic
import proofs.«144824_j22643067584730_2_alg».proof.Proof.KPay
import proofs.«144824_j22643067584730_2_alg».proof.Proof.Spec

set_option maxRecDepth 16384

noncomputable section

open Idealize.ShloMosaic Idealize.ShloMosaic.TcCoe Idealize.SL.Sem
open Idealize.ShloMosaic.Pipeline (Dat)

namespace Cert.KernelIdeal.K2

open Cert.KernelIdeal Cert.KernelIdeal.Gen Cert.Spec Idealize.ShloMosaic.ValueIdx

variable {F : FTy → Type} [FloatOps F]

theorem hz2 : (![0, 0] : Fin 2 → Nat) = fun _ => 0 := funext fun a => by fin_cases a <;> rfl

theorem N20 : cfg2.N = 20 := N_2

/-! ## The windows' blocks read at an index -/

section Blocks
variable (V : (c : Dev nD) → (b : Ref sig .tc) → Buf (Elt F) ((c : Thread nD τ).loc b))

theorem idx2_0 : ∀ t : Fin cfg2.N, win2_0.index t (0 : Fin 2) = t.val ∧ win2_0.index t (1 : Fin 2) = 0 :=
  (by decide +kernel : ∀ t : Fin grid2.N, _)
theorem idx2_1 : ∀ t : Fin cfg2.N, win2_1.index t (0 : Fin 2) = 0 ∧ win2_1.index t (1 : Fin 2) = 0 :=
  (by decide +kernel : ∀ t : Fin grid2.N, _)
theorem idx2_2 : ∀ t : Fin cfg2.N, win2_2.index t (0 : Fin 2) = 0 ∧ win2_2.index t (1 : Fin 2) = 0 :=
  (by decide +kernel : ∀ t : Fin grid2.N, _)
theorem idx2_3 : ∀ t : Fin cfg2.N, win2_3.index t (0 : Fin 2) = 0 ∧ win2_3.index t (1 : Fin 2) = 0 :=
  (by decide +kernel : ∀ t : Fin grid2.N, _)
theorem idx2_4 : ∀ t : Fin cfg2.N, win2_4.index t (0 : Fin 2) = 0 ∧ win2_4.index t (1 : Fin 2) = 0 :=
  (by decide +kernel : ∀ t : Fin grid2.N, _)
theorem idx2_5 : ∀ t : Fin cfg2.N, win2_5.index t (0 : Fin 2) = 0 ∧ win2_5.index t (1 : Fin 2) = 0 :=
  (by decide +kernel : ∀ t : Fin grid2.N, _)
theorem idx2_6 : ∀ t : Fin cfg2.N, win2_6.index t (0 : Fin 2) = 0 ∧ win2_6.index t (1 : Fin 2) = 0 :=
  (by decide +kernel : ∀ t : Fin grid2.N, _)
theorem idx2_7 : ∀ t : Fin cfg2.N, win2_7.index t (0 : Fin 2) = t.val ∧ win2_7.index t (1 : Fin 2) = 0 :=
  (by decide +kernel : ∀ t : Fin grid2.N, _)

/-- Tile t of the hidden rows: row r of the tile is row 5000·t + r of the array. -/
theorem blk2_0 (c : Dev nD) (t : Fin cfg2.N) (r : Fin 5000) (l : Fin 128) (hr : 5000 * t.val + r.val < 100000) :
    iblk2 V c 0 t (ix2 r l) = V c main_v38_0 (ix2 ⟨5000 * t.val + r.val, hr⟩ l) := by
  unfold iblk2
  rw [View.read_apply]
  show V c main_v38_0 _ = V c main_v38_0 _
  refine congrArg (V c main_v38_0) (funext fun a => Fin.ext ?_)
  match a with
  | ⟨0, _⟩ => show win2_0.index t 0 * 5000 + 1 * r.val = 5000 * t.val + r.val; rw [(idx2_0 t).1]; omega
  | ⟨1, _⟩ => show win2_0.index t 1 * 128 + 1 * l.val = l.val; rw [(idx2_0 t).2]; omega

/-- The weight matrix, whole at every point. -/
theorem blk2_1 (c : Dev nD) (t : Fin cfg2.N) (l k : Fin 128) :
    iblk2 V c 1 t (ix2 l k) = V c main_arg7 (ix2 l k) := by
  unfold iblk2
  rw [View.read_apply]
  show V c main_arg7 _ = V c main_arg7 _
  refine congrArg (V c main_arg7) (funext fun a => Fin.ext ?_)
  match a with
  | ⟨0, _⟩ => show win2_1.index t 0 * 128 + 1 * l.val = l.val; rw [(idx2_1 t).1]; omega
  | ⟨1, _⟩ => show win2_1.index t 1 * 128 + 1 * k.val = k.val; rw [(idx2_1 t).2]; omega

/-- The bias row, whole at every point. -/
theorem blk2_2 (c : Dev nD) (t : Fin cfg2.N) (u : Fin 1) (k : Fin 128) :
    iblk2 V c 2 t (ix2 u k) = V c main_v16 (ix2 u k) := by
  unfold iblk2
  rw [View.read_apply]
  show V c main_v16 _ = V c main_v16 _
  refine congrArg (V c main_v16) (funext fun a => Fin.ext ?_)
  match a with
  | ⟨0, _⟩ => show win2_2.index t 0 * 1 + 1 * u.val = u.val; rw [(idx2_2 t).1]; omega
  | ⟨1, _⟩ => show win2_2.index t 1 * 128 + 1 * k.val = k.val; rw [(idx2_2 t).2]; omega

/-- The scale row, whole at every point. -/
theorem blk2_3 (c : Dev nD) (t : Fin cfg2.N) (u : Fin 1) (k : Fin 128) :
    iblk2 V c 3 t (ix2 u k) = V c main_v17 (ix2 u k) := by
  unfold iblk2
  rw [View.read_apply]
  show V c main_v17 _ = V c main_v17 _
  refine congrArg (V c main_v17) (funext fun a => Fin.ext ?_)
  match a with
  | ⟨0, _⟩ => show win2_3.index t 0 * 1 + 1 * u.val = u.val; rw [(idx2_3 t).1]; omega
  | ⟨1, _⟩ => show win2_3.index t 1 * 128 + 1 * k.val = k.val; rw [(idx2_3 t).2]; omega

/-- The shift row, whole at every point. -/
theorem blk2_4 (c : Dev nD) (t : Fin cfg2.N) (u : Fin 1) (k : Fin 128) :
    iblk2 V c 4 t (ix2 u k) = V c main_v18 (ix2 u k) := by
  unfold iblk2
  rw [View.read_apply]
  show V c main_v18 _ = V c main_v18 _
  refine congrArg (V c main_v18) (funext fun a => Fin.ext ?_)
  match a with
  | ⟨0, _⟩ => show win2_4.index t 0 * 1 + 1 * u.val = u.val; rw [(idx2_4 t).1]; omega
  | ⟨1, _⟩ => show win2_4.index t 1 * 128 + 1 * k.val = k.val; rw [(idx2_4 t).2]; omega

/-- The mean row, whole at every point. -/
theorem blk2_5 (c : Dev nD) (t : Fin cfg2.N) (u : Fin 1) (k : Fin 128) :
    iblk2 V c 5 t (ix2 u k) = V c main_v50 (ix2 u k) := by
  unfold iblk2
  rw [View.read_apply]
  show V c main_v50 _ = V c main_v50 _
  refine congrArg (V c main_v50) (funext fun a => Fin.ext ?_)
  match a with
  | ⟨0, _⟩ => show win2_5.index t 0 * 1 + 1 * u.val = u.val; rw [(idx2_5 t).1]; omega
  | ⟨1, _⟩ => show win2_5.index t 1 * 128 + 1 * k.val = k.val; rw [(idx2_5 t).2]; omega

/-- The variance row, whole at every point. -/
theorem blk2_6 (c : Dev nD) (t : Fin cfg2.N) (u : Fin 1) (k : Fin 128) :
    iblk2 V c 6 t (ix2 u k) = V c main_v56 (ix2 u k) := by
  unfold iblk2
  rw [View.read_apply]
  show V c main_v56 _ = V c main_v56 _
  refine congrArg (V c main_v56) (funext fun a => Fin.ext ?_)
  match a with
  | ⟨0, _⟩ => show win2_6.index t 0 * 1 + 1 * u.val = u.val; rw [(idx2_6 t).1]; omega
  | ⟨1, _⟩ => show win2_6.index t 1 * 128 + 1 * k.val = k.val; rw [(idx2_6 t).2]; omega

end Blocks

/-! ## The output array after the run -/

section Final
variable (V : (c : Dev nD) → (b : Ref sig .tc) → Buf (Elt Ideal) ((c : Thread nD τ).loc b))

/-- A row of a tile times a column of a matrix, when the row and the column are known entry by entry. -/
theorem sum_tile (v0 : Vec Ideal S5000x128 .f32) (v2 : Vec Ideal S128x128 .f32) (x w : Fin 128 → EReal) (r : Fin 5000) (k : Fin 128)
    (h0 : ∀ l, v0 (ix2 r l) = x l) (h2 : ∀ l, v2 (ix2 l k) = w l) :
    (∑ l : Fin 128, v0 (ix2 r l) * v2 (ix2 l k)) = ∑ l : Fin 128, x l * w l :=
  Finset.sum_congr rfl fun l _ => by rw [h0, h2]

/-- What point t writes back is tile t of the normalised second linear map of the hidden rows. -/
theorem flushed7 (c : Dev nD) (X1 : Rows) (W2 : Mat) (b2 g2 be2 mean2 var2 : Col)
    (hX : ∀ r l, V c main_v38_0 (ix2 r l) = X1 r l) (hW : ∀ l k, V c main_arg7 (ix2 l k) = W2 l k)
    (hb : ∀ k, V c main_v16 (ix2 (0 : Fin 1) k) = b2 k) (hg : ∀ k, V c main_v17 (ix2 (0 : Fin 1) k) = g2 k)
    (hbe : ∀ k, V c main_v18 (ix2 (0 : Fin 1) k) = be2 k) (hm : ∀ k, V c main_v50 (ix2 (0 : Fin 1) k) = mean2 k)
    (hv : ∀ k, V c main_v56 (ix2 (0 : Fin 1) k) = var2 k) (t : Fin cfg2.N) :
    (dat2 V c).flushed 7 t = ((cfg2.win 7).blk t).view.read (Elt Ideal) (unrows (normRelu (lin X1 W2 b2) mean2 var2 g2 be2)) := by
  have hN : t.val < 20 := lt_of_lt_of_eq t.isLt N20
  show (cfg2.win 7).cut (grid2.coords t) ((dat2 V c).after 7 t) = _
  rw [after2_7]
  unfold out2_7
  rw [View.canon_unit_zero hz2]
  simp only [View.ld_unit_zero (S := S5000x128) hz2, View.ld_unit_zero (S := S128x128) hz2, View.ld_unit_zero (S := S1x128) hz2]
  funext y
  obtain ⟨r, k, rfl⟩ : ∃ (r : Fin 5000) (k : Fin 128), y = ix2 r k :=
    ⟨⟨(y 0).val, (y 0).isLt⟩, ⟨(y 1).val, (y 1).isLt⟩, funext fun a => Fin.ext (by
      match a with
      | ⟨0, _⟩ => rfl
      | ⟨1, _⟩ => rfl)⟩
  have hr : 5000 * t.val + r.val < 100000 := by have := r.isLt; omega
  show k2_pay1 (iblk2 V c 0 t) (iblk2 V c 1 t) (iblk2 V c 2 t) (iblk2 V c 6 t) (iblk2 V c 5 t) (iblk2 V c 3 t) (iblk2 V c 4 t) (ix2 r k)
    = unrows (normRelu (lin X1 W2 b2) mean2 var2 g2 be2) (((cfg2.win 7).blk t).view.emb (ix2 r k))
  have he : ((cfg2.win 7).blk t).view.emb (ix2 r k) = ix2 (⟨5000 * t.val + r.val, hr⟩ : Fin 100000) k :=
    funext fun a => Fin.ext (by
      match a with
      | ⟨0, _⟩ => show win2_7.index t 0 * 5000 + 1 * r.val = 5000 * t.val + r.val; rw [(idx2_7 t).1]; omega
      | ⟨1, _⟩ => show win2_7.index t 1 * 128 + 1 * k.val = k.val; rw [(idx2_7 t).2]; omega)
  rw [he]
  refine (KPay.k2_pay1_apply _ _ _ _ _ _ _ r k).trans ?_
  have hsum := sum_tile (iblk2 V c 0 t) (iblk2 V c 1 t) (fun l => X1 ⟨5000 * t.val + r.val, hr⟩ l) (fun l => W2 l k) r k
    (fun l => (blk2_0 V c t r l hr).trans (hX ⟨5000 * t.val + r.val, hr⟩ l)) (fun l => (blk2_1 V c t l k).trans (hW l k))
  rw [hsum, blk2_2 V c t 0 k, blk2_3 V c t 0 k, blk2_4 V c t 0 k, blk2_5 V c t 0 k, blk2_6 V c t 0 k, hb, hg, hbe, hm, hv]
  rfl

/-- An index of the output array is in point t's tile iff each coordinate is in the tile's range on its axis. -/
theorem mem_blk7 (t : Fin cfg2.N) (i : S100000x128.Idx) :
    i ∈ ((cfg2.win 7).blk t).view.set ↔ ∀ a : Fin 2, win2_7.index t a * S5000x128.size a ≤ (i a).val ∧ (i a).val < win2_7.index t a * S5000x128.size a + S5000x128.size a := by
  show i ∈ ((View.whole main_v57).slice (win2_7.rect t)).set ↔ _
  rw [View.set_slice_whole, Rect.mem_set_unit]
  exact Iff.rfl

end Final

end Cert.KernelIdeal.K2

open Cert.KernelIdeal Cert.KernelIdeal.Gen Cert.Spec Idealize.ShloMosaic.ValueIdx in
/-- The output array after the run: at row x and column k the normalised, scaled, shifted second linear map of hidden
    row x, cut off at zero.  Row x lies in tile x / 5000, which point x / 5000 writes back. -/
theorem Cert.KernelIdeal.K2.final7 (V : (c : Dev nD) → (b : Ref sig .tc) → Buf (Elt Ideal) ((c : Thread nD τ).loc b)) (c : Dev nD)
    (X1 : Rows) (W2 : Mat) (b2 g2 be2 mean2 var2 : Col)
    (hX : ∀ r l, V c main_v38_0 (ix2 r l) = X1 r l) (hW : ∀ l k, V c main_arg7 (ix2 l k) = W2 l k)
    (hb : ∀ k, V c main_v16 (ix2 (0 : Fin 1) k) = b2 k) (hg : ∀ k, V c main_v17 (ix2 (0 : Fin 1) k) = g2 k)
    (hbe : ∀ k, V c main_v18 (ix2 (0 : Fin 1) k) = be2 k) (hm : ∀ k, V c main_v50 (ix2 (0 : Fin 1) k) = mean2 k)
    (hv : ∀ k, V c main_v56 (ix2 (0 : Fin 1) k) = var2 k) :
    (dat2 V c).arrAt 7 cfg2.N = Cert.Spec.unrows (Cert.Spec.normRelu (Cert.Spec.lin X1 W2 b2) mean2 var2 g2 be2) :=
  (dat2 V c).arrAt_eq_of_cover 7 _ (fun t _ => Cert.KernelIdeal.K2.flushed7 V c X1 W2 b2 g2 be2 mean2 var2 hX hW hb hg hbe hm hv t) fun i => by
    have i0 : (i 0).val < 100000 := (i 0).isLt
    have i1 : (i 1).val < 128 := (i 1).isLt
    have hN : cfg2.N = 20 := Cert.KernelIdeal.K2.N20
    have hN' : grid2.N = 20 := N_2
    refine ⟨⟨(i 0).val / 5000, by omega⟩, flush2_7 _, ?_⟩
    rw [Cert.KernelIdeal.K2.mem_blk7]
    obtain ⟨e0, e1⟩ := Cert.KernelIdeal.K2.idx2_7 ⟨(i 0).val / 5000, by omega⟩
    have e0' : win2_7.index ⟨(i 0).val / 5000, by omega⟩ 0 = (i 0).val / 5000 := e0
    intro a
    match a with
    | ⟨0, _⟩ => show win2_7.index _ 0 * 5000 ≤ (i 0).val ∧ (i 0).val < win2_7.index _ 0 * 5000 + 5000; rw [e0']; omega
    | ⟨1, _⟩ => show win2_7.index _ 1 * 128 ≤ (i 1).val ∧ (i 1).val < win2_7.index _ 1 * 128 + 128; rw [e1]; omega

end
-- ==== Proof.KFold.lean ====
/-
  The kernel program's result read through its three regions.

  Between the launch and the first region the host pools the neighbours' rows and lays the scale and the bias rows out;
  between the regions it adds the two halves' column sums, divides by the number of rows, and forms the one-pass
  variance max(Σy²/N − (Σy/N)², 0).  A buffer no operation writes and no region flushes keeps its contents, so every
  region finds the launch arrays where it expects them.  The two halves' sums together are the sum over all rows, so
  the mean and variance columns the second and third regions are handed are those of the specification, and the result
  array ends at the layer with the one-pass variance.
-/
import proofs.«144824_j22643067584730_2_alg».proof.Proof.K0
import proofs.«144824_j22643067584730_2_alg».proof.Proof.K1
import proofs.«144824_j22643067584730_2_alg».proof.Proof.Finite
import proofs.«144824_j22643067584730_2_alg».proof.Proof.K2
import Idealize.ShloMosaic.Lib.StableHlo.Run
import Idealize.ShloMosaic.Lib.ValueLayout

set_option maxRecDepth 16384

noncomputable section

open Idealize.ShloMosaic Idealize.ShloMosaic.TcCoe Idealize.SL.Sem
open Idealize.ShloMosaic.Pipeline (Dat)

namespace Cert.KernelIdeal.KFold

open Cert.KernelIdeal Cert.KernelIdeal.Gen Cert.Spec Idealize.ShloMosaic.ValueIdx Cert.TileSums

variable (m : (ℓ : Loc nD τ sig) → Buf (Elt Ideal) ℓ) (ρ : Dev nD → PrngReg)

/-- A buffer no operation of a host stretch writes holds after the stretch what it held before. -/
macro "host_unwritten" ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide))))

/-! ## The first region's entry contents -/

theorem V1_v9 (c : Dev nD) : V1 m ρ c main_v9
    = Cert.Finite.pooledOf (m ((c : Thread nD τ).loc main_arg0)) (m ((c : Thread nD τ).loc main_arg1)) (m ((c : Thread nD τ).loc main_arg2)) := by
  show StableHlo.after hostOps0 (W0 m ρ c) (Proc.devRef .tc main_v9) = _
  after_results
  rfl

theorem V1_arg0 (c : Dev nD) : V1 m ρ c main_arg0 = m ((c : Thread nD τ).loc main_arg0) := by
  show StableHlo.after hostOps0 (W0 m ρ c) (Proc.devRef .tc main_arg0) = _
  after_results
theorem V1_arg3 (c : Dev nD) : V1 m ρ c main_arg3 = m ((c : Thread nD τ).loc main_arg3) := by
  show StableHlo.after hostOps0 (W0 m ρ c) (Proc.devRef .tc main_arg3) = _
  after_results
theorem V1_arg7 (c : Dev nD) : V1 m ρ c main_arg7 = m ((c : Thread nD τ).loc main_arg7) := by
  show StableHlo.after hostOps0 (W0 m ρ c) (Proc.devRef .tc main_arg7) = _
  after_results

/-- The scale row: every entry is 1 + eps. -/
theorem V1_v12 (c : Dev nD) (l : Fin 128) :
    V1 m ρ c main_v12 (ix2 (0 : Fin 1) l) = oneW + m ((c : Thread nD τ).loc main_arg11) ix0 := by
  have e : V1 m ρ c main_v12 = broadcastInDim S1x128 ![0, 1] bcast_S1x1_S1x128_0_1
      (shapeCast S1x1 (addf (constant (F := Ideal) S_ .f32 0x3F800000#32) (m ((c : Thread nD τ).loc main_arg11))) shapeCasts_S_S1x1) := by
    show StableHlo.after hostOps0 (W0 m ρ c) (Proc.devRef .tc main_v12) = _
    after_results
    rfl
  rw [e]
  refine (broadcastInDim_apply _ bcast_S1x1_S1x128_0_1 _ (ix2 (0 : Fin 1) l) (ix2 (0 : Fin 1) (0 : Fin 1)) (fun a => match a with
    | ⟨0, _⟩ => by show 0 = if (1 : Nat) = 1 then 0 else _; rw [if_pos rfl]
    | ⟨1, _⟩ => by show 0 = if (1 : Nat) = 1 then 0 else _; rw [if_pos rfl])).trans ?_
  refine (shapeCast_apply _ shapeCasts_S_S1x1 (ix2 (0 : Fin 1) (0 : Fin 1)) ix0 (by rw [Shape.rowMajor_val_two]; rfl)).trans ?_
  rfl

theorem V1_v13 (c : Dev nD) (k : Fin 128) :
    V1 m ρ c main_v13 (ix2 (0 : Fin 1) k) = m ((c : Thread nD τ).loc main_arg4) (ix1 k) := by
  have e : V1 m ρ c main_v13 = shapeCast S1x128 (m ((c : Thread nD τ).loc main_arg4)) shapeCasts_S128_S1x128 := by
    show StableHlo.after hostOps0 (W0 m ρ c) (Proc.devRef .tc main_v13) = _
    after_results
    rfl
  rw [e]
  exact shapeCast_a_1a_apply _ _ 0 k

theorem V1_v14 (c : Dev nD) (k : Fin 128) :
    V1 m ρ c main_v14 (ix2 (0 : Fin 1) k) = m ((c : Thread nD τ).loc main_arg5) (ix1 k) := by
  have e : V1 m ρ c main_v14 = shapeCast S1x128 (m ((c : Thread nD τ).loc main_arg5)) shapeCasts_S128_S1x128 := by
    show StableHlo.after hostOps0 (W0 m ρ c) (Proc.devRef .tc main_v14) = _
    after_results
    rfl
  rw [e]
  exact shapeCast_a_1a_apply _ _ 0 k

theorem V1_v15 (c : Dev nD) (k : Fin 128) :
    V1 m ρ c main_v15 (ix2 (0 : Fin 1) k) = m ((c : Thread nD τ).loc main_arg6) (ix1 k) := by
  have e : V1 m ρ c main_v15 = shapeCast S1x128 (m ((c : Thread nD τ).loc main_arg6)) shapeCasts_S128_S1x128 := by
    show StableHlo.after hostOps0 (W0 m ρ c) (Proc.devRef .tc main_v15) = _
    after_results
    rfl
  rw [e]
  exact shapeCast_a_1a_apply _ _ 0 k

theorem V1_v16 (c : Dev nD) (k : Fin 128) :
    V1 m ρ c main_v16 (ix2 (0 : Fin 1) k) = m ((c : Thread nD τ).loc main_arg8) (ix1 k) := by
  have e : V1 m ρ c main_v16 = shapeCast S1x128 (m ((c : Thread nD τ).loc main_arg8)) shapeCasts_S128_S1x128 := by
    show StableHlo.after hostOps0 (W0 m ρ c) (Proc.devRef .tc main_v16) = _
    after_results
    rfl
  rw [e]
  exact shapeCast_a_1a_apply _ _ 0 k

theorem V1_v17 (c : Dev nD) (k : Fin 128) :
    V1 m ρ c main_v17 (ix2 (0 : Fin 1) k) = m ((c : Thread nD τ).loc main_arg9) (ix1 k) := by
  have e : V1 m ρ c main_v17 = shapeCast S1x128 (m ((c : Thread nD τ).loc main_arg9)) shapeCasts_S128_S1x128 := by
    show StableHlo.after hostOps0 (W0 m ρ c) (Proc.devRef .tc main_v17) = _
    after_results
    rfl
  rw [e]
  exact shapeCast_a_1a_apply _ _ 0 k

theorem V1_v18 (c : Dev nD) (k : Fin 128) :
    V1 m ρ c main_v18 (ix2 (0 : Fin 1) k) = m ((c : Thread nD τ).loc main_arg10) (ix1 k) := by
  have e : V1 m ρ c main_v18 = shapeCast S1x128 (m ((c : Thread nD τ).loc main_arg10)) shapeCasts_S128_S1x128 := by
    show StableHlo.after hostOps0 (W0 m ρ c) (Proc.devRef .tc main_v18) = _
    after_results
    rfl
  rw [e]
  exact shapeCast_a_1a_apply _ _ 0 k

/-! ## Two layout facts of the host stretches between the regions -/

/-- The two rows of a [2, 1, 128] array added, at column k. -/
theorem rows_add (A : FVec Ideal S2x1x128 .f32) (k : Fin 128) :
    (addf (shapeCast S1x128 (extractStridedSlice S1x1x128 ![0, 0, 0] A slices_S2x1x128_S1x1x128_0_0_0) shapeCasts_S1x1x128_S1x128 : FVec Ideal S1x128 .f32)
        (shapeCast S1x128 (extractStridedSlice S1x1x128 ![1, 0, 0] A slices_S2x1x128_S1x1x128_1_0_0) shapeCasts_S1x1x128_S1x128 : FVec Ideal S1x128 .f32)) (ix2 (0 : Fin 1) k)
      = A (ix3 (0 : Fin 2) (0 : Fin 1) k) + A (ix3 (1 : Fin 2) (0 : Fin 1) k) := by
  rw [addf_apply]
  refine congrArg₂ (· + ·) ?_ ?_
  · exact (shapeCast_1ab_ab_apply _ _ 0 k).trans (extractStridedSlice_apply ![0, 0, 0] A _ (ix3 (0 : Fin 1) (0 : Fin 1) k) (ix3 (0 : Fin 2) (0 : Fin 1) k) (fun a => match a with
      | ⟨0, _⟩ => rfl
      | ⟨1, _⟩ => rfl
      | ⟨2, _⟩ => (Nat.zero_add _).symm))
  · exact (shapeCast_1ab_ab_apply _ _ 0 k).trans (extractStridedSlice_apply ![1, 0, 0] A _ (ix3 (0 : Fin 1) (0 : Fin 1) k) (ix3 (1 : Fin 2) (0 : Fin 1) k) (fun a => match a with
      | ⟨0, _⟩ => rfl
      | ⟨1, _⟩ => rfl
      | ⟨2, _⟩ => (Nat.zero_add _).symm))

/-- A scalar word broadcast to a row, at column k. -/
theorem bcast_word (w : BitVec 32) (k : Fin 128) :
    (broadcastInDim S1x128 ![] bcast_S_S1x128 (constant (F := Ideal) S_ .f32 w) : FVec Ideal S1x128 .f32) (ix2 (0 : Fin 1) k) = Ideal.ofBits .f32 w :=
  broadcastInDim_apply _ bcast_S_S1x128 _ (ix2 (0 : Fin 1) k) ix0 (fun a => a.elim0)

/-! ## Between the first and the second region -/

theorem V3_v9 (c : Dev nD) : V3 m ρ c main_v9 = V1 m ρ c main_v9 :=
  calc V3 m ρ c main_v9 = W2 m ρ c (Proc.devRef .tc main_v9) := by
        show StableHlo.after hostOps1 (W2 m ρ c) (Proc.devRef .tc main_v9) = _
        host_unwritten hostOps1
    _ = V1 m ρ c main_v9 := (W2_arr m ρ c 0).trans (((dat0 (V1 m ρ) c).arrAt_in 0 rfl _).trans (A_eq0 (V1 m ρ) c 0))

theorem V3_arg0 (c : Dev nD) : V3 m ρ c main_arg0 = V1 m ρ c main_arg0 :=
  calc V3 m ρ c main_arg0 = W2 m ρ c (Proc.devRef .tc main_arg0) := by
        show StableHlo.after hostOps1 (W2 m ρ c) (Proc.devRef .tc main_arg0) = _
        host_unwritten hostOps1
    _ = V1 m ρ c main_arg0 := (W2_arr m ρ c 1).trans (((dat0 (V1 m ρ) c).arrAt_in 1 rfl _).trans (A_eq0 (V1 m ρ) c 1))

theorem V3_v12 (c : Dev nD) : V3 m ρ c main_v12 = V1 m ρ c main_v12 :=
  calc V3 m ρ c main_v12 = W2 m ρ c (Proc.devRef .tc main_v12) := by
        show StableHlo.after hostOps1 (W2 m ρ c) (Proc.devRef .tc main_v12) = _
        host_unwritten hostOps1
    _ = V1 m ρ c main_v12 := (W2_arr m ρ c 2).trans (((dat0 (V1 m ρ) c).arrAt_in 2 rfl _).trans (A_eq0 (V1 m ρ) c 2))

theorem V3_arg3 (c : Dev nD) : V3 m ρ c main_arg3 = V1 m ρ c main_arg3 :=
  calc V3 m ρ c main_arg3 = W2 m ρ c (Proc.devRef .tc main_arg3) := by
        show StableHlo.after hostOps1 (W2 m ρ c) (Proc.devRef .tc main_arg3) = _
        host_unwritten hostOps1
    _ = V1 m ρ c main_arg3 := (W2_arr m ρ c 3).trans (((dat0 (V1 m ρ) c).arrAt_in 3 rfl _).trans (A_eq0 (V1 m ρ) c 3))

theorem V3_v13 (c : Dev nD) : V3 m ρ c main_v13 = V1 m ρ c main_v13 :=
  calc V3 m ρ c main_v13 = W2 m ρ c (Proc.devRef .tc main_v13) := by
        show StableHlo.after hostOps1 (W2 m ρ c) (Proc.devRef .tc main_v13) = _
        host_unwritten hostOps1
    _ = V1 m ρ c main_v13 := (W2_arr m ρ c 4).trans (((dat0 (V1 m ρ) c).arrAt_in 4 rfl _).trans (A_eq0 (V1 m ρ) c 4))

theorem V3_v14 (c : Dev nD) : V3 m ρ c main_v14 = V1 m ρ c main_v14 :=
  calc V3 m ρ c main_v14 = W2 m ρ c (Proc.devRef .tc main_v14) := by
        show StableHlo.after hostOps1 (W2 m ρ c) (Proc.devRef .tc main_v14) = _
        host_unwritten hostOps1
    _ = V1 m ρ c main_v14 := W2_of_ne m ρ c main_v14 (by decide)

theorem V3_v15 (c : Dev nD) : V3 m ρ c main_v15 = V1 m ρ c main_v15 :=
  calc V3 m ρ c main_v15 = W2 m ρ c (Proc.devRef .tc main_v15) := by
        show StableHlo.after hostOps1 (W2 m ρ c) (Proc.devRef .tc main_v15) = _
        host_unwritten hostOps1
    _ = V1 m ρ c main_v15 := W2_of_ne m ρ c main_v15 (by decide)

theorem V3_arg7 (c : Dev nD) : V3 m ρ c main_arg7 = V1 m ρ c main_arg7 :=
  calc V3 m ρ c main_arg7 = W2 m ρ c (Proc.devRef .tc main_arg7) := by
        show StableHlo.after hostOps1 (W2 m ρ c) (Proc.devRef .tc main_arg7) = _
        host_unwritten hostOps1
    _ = V1 m ρ c main_arg7 := W2_of_ne m ρ c main_arg7 (by decide)

theorem V3_v16 (c : Dev nD) : V3 m ρ c main_v16 = V1 m ρ c main_v16 :=
  calc V3 m ρ c main_v16 = W2 m ρ c (Proc.devRef .tc main_v16) := by
        show StableHlo.after hostOps1 (W2 m ρ c) (Proc.devRef .tc main_v16) = _
        host_unwritten hostOps1
    _ = V1 m ρ c main_v16 := W2_of_ne m ρ c main_v16 (by decide)

theorem V3_v17 (c : Dev nD) : V3 m ρ c main_v17 = V1 m ρ c main_v17 :=
  calc V3 m ρ c main_v17 = W2 m ρ c (Proc.devRef .tc main_v17) := by
        show StableHlo.after hostOps1 (W2 m ρ c) (Proc.devRef .tc main_v17) = _
        host_unwritten hostOps1
    _ = V1 m ρ c main_v17 := W2_of_ne m ρ c main_v17 (by decide)

theorem V3_v18 (c : Dev nD) : V3 m ρ c main_v18 = V1 m ρ c main_v18 :=
  calc V3 m ρ c main_v18 = W2 m ρ c (Proc.devRef .tc main_v18) := by
        show StableHlo.after hostOps1 (W2 m ρ c) (Proc.devRef .tc main_v18) = _
        host_unwritten hostOps1
    _ = V1 m ρ c main_v18 := W2_of_ne m ρ c main_v18 (by decide)

/-- The mean column handed to the next region: the two halves' sums added and divided by the number of rows. -/
theorem V3_mean (c : Dev nD) (k : Fin 128) (A : FVec Ideal S2x1x128 .f32) (hA : W2 m ρ c (Proc.devRef .tc main_v19_0) = A) :
    V3 m ρ c main_v31 (ix2 (0 : Fin 1) k) = Ideal.div (A (ix3 (0 : Fin 2) (0 : Fin 1) k) + A (ix3 (1 : Fin 2) (0 : Fin 1) k)) nRows := by
  have e : V3 m ρ c main_v31 = (Host.divf (addf (shapeCast S1x128 (extractStridedSlice S1x1x128 ![0, 0, 0] (W2 m ρ c (Proc.devRef .tc main_v19_0)) slices_S2x1x128_S1x1x128_0_0_0) shapeCasts_S1x1x128_S1x128)
        (shapeCast S1x128 (extractStridedSlice S1x1x128 ![1, 0, 0] (W2 m ρ c (Proc.devRef .tc main_v19_0)) slices_S2x1x128_S1x1x128_1_0_0) shapeCasts_S1x1x128_S1x128))
        (broadcastInDim S1x128 ![] bcast_S_S1x128 (constant (F := Ideal) S_ .f32 0x47C35000#32))) := by
    show StableHlo.after hostOps1 (W2 m ρ c) (Proc.devRef .tc main_v31) = _
    after_results
    rfl
  rw [e, hA]
  show Ideal.div _ _ = _
  rw [rows_add, bcast_word]

set_option maxHeartbeats 4000000 in
/-- The variance column handed to the next region: the mean of the squares minus the squared mean, cut off at zero. -/
theorem V3_var (c : Dev nD) (k : Fin 128) (A B : FVec Ideal S2x1x128 .f32)
    (hA : W2 m ρ c (Proc.devRef .tc main_v19_0) = A) (hB : W2 m ρ c (Proc.devRef .tc main_v19_1) = B) :
    V3 m ρ c main_v37 (ix2 (0 : Fin 1) k)
      = max (Ideal.div (B (ix3 (0 : Fin 2) (0 : Fin 1) k) + B (ix3 (1 : Fin 2) (0 : Fin 1) k)) nRows
          - Ideal.div (A (ix3 (0 : Fin 2) (0 : Fin 1) k) + A (ix3 (1 : Fin 2) (0 : Fin 1) k)) nRows
            * Ideal.div (A (ix3 (0 : Fin 2) (0 : Fin 1) k) + A (ix3 (1 : Fin 2) (0 : Fin 1) k)) nRows) 0 := by
  have e : V3 m ρ c main_v37 = maximumf (subf (Host.divf (addf (shapeCast S1x128 (extractStridedSlice S1x1x128 ![0, 0, 0] (W2 m ρ c (Proc.devRef .tc main_v19_1)) slices_S2x1x128_S1x1x128_0_0_0) shapeCasts_S1x1x128_S1x128)
        (shapeCast S1x128 (extractStridedSlice S1x1x128 ![1, 0, 0] (W2 m ρ c (Proc.devRef .tc main_v19_1)) slices_S2x1x128_S1x1x128_1_0_0) shapeCasts_S1x1x128_S1x128))
        (broadcastInDim S1x128 ![] bcast_S_S1x128 (constant (F := Ideal) S_ .f32 0x47C35000#32)))
      (mulf (Host.divf (addf (shapeCast S1x128 (extractStridedSlice S1x1x128 ![0, 0, 0] (W2 m ρ c (Proc.devRef .tc main_v19_0)) slices_S2x1x128_S1x1x128_0_0_0) shapeCasts_S1x1x128_S1x128)
        (shapeCast S1x128 (extractStridedSlice S1x1x128 ![1, 0, 0] (W2 m ρ c (Proc.devRef .tc main_v19_0)) slices_S2x1x128_S1x1x128_1_0_0) shapeCasts_S1x1x128_S1x128))
        (broadcastInDim S1x128 ![] bcast_S_S1x128 (constant (F := Ideal) S_ .f32 0x47C35000#32))) (Host.divf (addf (shapeCast S1x128 (extractStridedSlice S1x1x128 ![0, 0, 0] (W2 m ρ c (Proc.devRef .tc main_v19_0)) slices_S2x1x128_S1x1x128_0_0_0) shapeCasts_S1x1x128_S1x128)
        (shapeCast S1x128 (extractStridedSlice S1x1x128 ![1, 0, 0] (W2 m ρ c (Proc.devRef .tc main_v19_0)) slices_S2x1x128_S1x1x128_1_0_0) shapeCasts_S1x1x128_S1x128))
        (broadcastInDim S1x128 ![] bcast_S_S1x128 (constant (F := Ideal) S_ .f32 0x47C35000#32)))))
      (broadcastInDim S1x128 ![] bcast_S_S1x128 (constant (F := Ideal) S_ .f32 0x00000000#32)) := by
    show StableHlo.after hostOps1 (W2 m ρ c) (Proc.devRef .tc main_v37) = _
    after_results_simp
    rfl
  rw [e, hA, hB, maximumf_apply, subf_apply, mulf_apply]
  show max (Ideal.div _ _ - Ideal.div _ _ * Ideal.div _ _) _ = _
  rw [rows_add, rows_add, bcast_word, bcast_word, Ideal.ofBits_zero_f32]

/-! ## Between the second and the third region -/

theorem V5_v38_0 (c : Dev nD) : V5 m ρ c main_v38_0 = (dat1 (V3 m ρ) c).arrAt 11 cfg1.N :=
  calc V5 m ρ c main_v38_0 = W4 m ρ c (Proc.devRef .tc main_v38_0) := by
        show StableHlo.after hostOps2 (W4 m ρ c) (Proc.devRef .tc main_v38_0) = _
        host_unwritten hostOps2
    _ = (dat1 (V3 m ρ) c).arrAt 11 cfg1.N := W4_arr m ρ c 11

theorem V5_arg7 (c : Dev nD) : V5 m ρ c main_arg7 = V3 m ρ c main_arg7 :=
  calc V5 m ρ c main_arg7 = W4 m ρ c (Proc.devRef .tc main_arg7) := by
        show StableHlo.after hostOps2 (W4 m ρ c) (Proc.devRef .tc main_arg7) = _
        host_unwritten hostOps2
    _ = V3 m ρ c main_arg7 := (W4_arr m ρ c 9).trans (((dat1 (V3 m ρ) c).arrAt_in 9 rfl _).trans (A_eq1 (V3 m ρ) c 9))

theorem V5_v16 (c : Dev nD) : V5 m ρ c main_v16 = V3 m ρ c main_v16 :=
  calc V5 m ρ c main_v16 = W4 m ρ c (Proc.devRef .tc main_v16) := by
        show StableHlo.after hostOps2 (W4 m ρ c) (Proc.devRef .tc main_v16) = _
        host_unwritten hostOps2
    _ = V3 m ρ c main_v16 := (W4_arr m ρ c 10).trans (((dat1 (V3 m ρ) c).arrAt_in 10 rfl _).trans (A_eq1 (V3 m ρ) c 10))

theorem V5_v17 (c : Dev nD) : V5 m ρ c main_v17 = V3 m ρ c main_v17 :=
  calc V5 m ρ c main_v17 = W4 m ρ c (Proc.devRef .tc main_v17) := by
        show StableHlo.after hostOps2 (W4 m ρ c) (Proc.devRef .tc main_v17) = _
        host_unwritten hostOps2
    _ = V3 m ρ c main_v17 := W4_of_ne m ρ c main_v17 (by decide)

theorem V5_v18 (c : Dev nD) : V5 m ρ c main_v18 = V3 m ρ c main_v18 :=
  calc V5 m ρ c main_v18 = W4 m ρ c (Proc.devRef .tc main_v18) := by
        show StableHlo.after hostOps2 (W4 m ρ c) (Proc.devRef .tc main_v18) = _
        host_unwritten hostOps2
    _ = V3 m ρ c main_v18 := W4_of_ne m ρ c main_v18 (by decide)

/-- The mean column handed to the next region: the two halves' sums added and divided by the number of rows. -/
theorem V5_mean (c : Dev nD) (k : Fin 128) (A : FVec Ideal S2x1x128 .f32) (hA : W4 m ρ c (Proc.devRef .tc main_v38_1) = A) :
    V5 m ρ c main_v50 (ix2 (0 : Fin 1) k) = Ideal.div (A (ix3 (0 : Fin 2) (0 : Fin 1) k) + A (ix3 (1 : Fin 2) (0 : Fin 1) k)) nRows := by
  have e : V5 m ρ c main_v50 = (Host.divf (addf (shapeCast S1x128 (extractStridedSlice S1x1x128 ![0, 0, 0] (W4 m ρ c (Proc.devRef .tc main_v38_1)) slices_S2x1x128_S1x1x128_0_0_0) shapeCasts_S1x1x128_S1x128)
        (shapeCast S1x128 (extractStridedSlice S1x1x128 ![1, 0, 0] (W4 m ρ c (Proc.devRef .tc main_v38_1)) slices_S2x1x128_S1x1x128_1_0_0) shapeCasts_S1x1x128_S1x128))
        (broadcastInDim S1x128 ![] bcast_S_S1x128 (constant (F := Ideal) S_ .f32 0x47C35000#32))) := by
    show StableHlo.after hostOps2 (W4 m ρ c) (Proc.devRef .tc main_v50) = _
    after_results
    rfl
  rw [e, hA]
  show Ideal.div _ _ = _
  rw [rows_add, bcast_word]

set_option maxHeartbeats 4000000 in
/-- The variance column handed to the next region: the mean of the squares minus the squared mean, cut off at zero. -/
theorem V5_var (c : Dev nD) (k : Fin 128) (A B : FVec Ideal S2x1x128 .f32)
    (hA : W4 m ρ c (Proc.devRef .tc main_v38_1) = A) (hB : W4 m ρ c (Proc.devRef .tc main_v38_2) = B) :
    V5 m ρ c main_v56 (ix2 (0 : Fin 1) k)
      = max (Ideal.div (B (ix3 (0 : Fin 2) (0 : Fin 1) k) + B (ix3 (1 : Fin 2) (0 : Fin 1) k)) nRows
          - Ideal.div (A (ix3 (0 : Fin 2) (0 : Fin 1) k) + A (ix3 (1 : Fin 2) (0 : Fin 1) k)) nRows
            * Ideal.div (A (ix3 (0 : Fin 2) (0 : Fin 1) k) + A (ix3 (1 : Fin 2) (0 : Fin 1) k)) nRows) 0 := by
  have e : V5 m ρ c main_v56 = maximumf (subf (Host.divf (addf (shapeCast S1x128 (extractStridedSlice S1x1x128 ![0, 0, 0] (W4 m ρ c (Proc.devRef .tc main_v38_2)) slices_S2x1x128_S1x1x128_0_0_0) shapeCasts_S1x1x128_S1x128)
        (shapeCast S1x128 (extractStridedSlice S1x1x128 ![1, 0, 0] (W4 m ρ c (Proc.devRef .tc main_v38_2)) slices_S2x1x128_S1x1x128_1_0_0) shapeCasts_S1x1x128_S1x128))
        (broadcastInDim S1x128 ![] bcast_S_S1x128 (constant (F := Ideal) S_ .f32 0x47C35000#32)))
      (mulf (Host.divf (addf (shapeCast S1x128 (extractStridedSlice S1x1x128 ![0, 0, 0] (W4 m ρ c (Proc.devRef .tc main_v38_1)) slices_S2x1x128_S1x1x128_0_0_0) shapeCasts_S1x1x128_S1x128)
        (shapeCast S1x128 (extractStridedSlice S1x1x128 ![1, 0, 0] (W4 m ρ c (Proc.devRef .tc main_v38_1)) slices_S2x1x128_S1x1x128_1_0_0) shapeCasts_S1x1x128_S1x128))
        (broadcastInDim S1x128 ![] bcast_S_S1x128 (constant (F := Ideal) S_ .f32 0x47C35000#32))) (Host.divf (addf (shapeCast S1x128 (extractStridedSlice S1x1x128 ![0, 0, 0] (W4 m ρ c (Proc.devRef .tc main_v38_1)) slices_S2x1x128_S1x1x128_0_0_0) shapeCasts_S1x1x128_S1x128)
        (shapeCast S1x128 (extractStridedSlice S1x1x128 ![1, 0, 0] (W4 m ρ c (Proc.devRef .tc main_v38_1)) slices_S2x1x128_S1x1x128_1_0_0) shapeCasts_S1x1x128_S1x128))
        (broadcastInDim S1x128 ![] bcast_S_S1x128 (constant (F := Ideal) S_ .f32 0x47C35000#32)))))
      (broadcastInDim S1x128 ![] bcast_S_S1x128 (constant (F := Ideal) S_ .f32 0x00000000#32)) := by
    show StableHlo.after hostOps2 (W4 m ρ c) (Proc.devRef .tc main_v56) = _
    after_results_simp
    rfl
  rw [e, hA, hB, maximumf_apply, subf_apply, mulf_apply]
  show max (Ideal.div _ _ - Ideal.div _ _ * Ideal.div _ _) _ = _
  rw [rows_add, rows_add, bcast_word, bcast_word, Ideal.ofBits_zero_f32]

/-! ## The result array -/

section Value
variable (c : Dev nD)

/-- The pooled rows. -/
abbrev Pm : Rows := rows (Cert.Finite.pooledOf (m ((c : Thread nD τ).loc main_arg0)) (m ((c : Thread nD τ).loc main_arg1)) (m ((c : Thread nD τ).loc main_arg2)))
/-- The node features. -/
abbrev hm : Rows := rows (m ((c : Thread nD τ).loc main_arg0))
/-- The scale 1 + eps. -/
abbrev sm : EReal := oneW + (m ((c : Thread nD τ).loc main_arg11)) ix0
abbrev W1m : Mat := mat (m ((c : Thread nD τ).loc main_arg3))
abbrev b1m : Col := col (m ((c : Thread nD τ).loc main_arg4))
abbrev g1m : Col := col (m ((c : Thread nD τ).loc main_arg5))
abbrev be1m : Col := col (m ((c : Thread nD τ).loc main_arg6))
abbrev W2m : Mat := mat (m ((c : Thread nD τ).loc main_arg7))
abbrev b2m : Col := col (m ((c : Thread nD τ).loc main_arg8))
abbrev g2m : Col := col (m ((c : Thread nD τ).loc main_arg9))
abbrev be2m : Col := col (m ((c : Thread nD τ).loc main_arg10))
/-- The first linear map's rows. -/
abbrev Y1m : Rows := y1 (Pm m c) (hm m c) (sm m c) (W1m m c) (b1m m c)
/-- The hidden rows, with the one-pass variance. -/
abbrev X1m : Rows := hidden varOne (Pm m c) (hm m c) (sm m c) (W1m m c) (b1m m c) (g1m m c) (be1m m c)
/-- The second linear map's rows. -/
abbrev Y2m : Rows := y2 varOne (Pm m c) (hm m c) (sm m c) (W1m m c) (b1m m c) (g1m m c) (be1m m c) (W2m m c) (b2m m c)

theorem h1P (r : Fin 100000) (l : Fin 128) : V1 m ρ c main_v9 (ix2 r l) = Pm m c r l := by rw [V1_v9]; rfl
theorem h1h (r : Fin 100000) (l : Fin 128) : V1 m ρ c main_arg0 (ix2 r l) = hm m c r l := by rw [V1_arg0]; rfl
theorem h1W (l k : Fin 128) : V1 m ρ c main_arg3 (ix2 l k) = W1m m c l k := by rw [V1_arg3]; rfl

/-- The arrays of sums and of sums of squares the first region leaves. -/
abbrev S1a : FVec Ideal S2x1x128 .f32 := (dat0 (V1 m ρ) c).arrAt 5 cfg0.N
abbrev Q1a : FVec Ideal S2x1x128 .f32 := (dat0 (V1 m ρ) c).arrAt 6 cfg0.N

/-- The two halves' sums of the first linear map's column k together are its sum over all rows. -/
theorem total5 (k : Fin 128) :
    S1a m ρ c (ix3 (0 : Fin 2) (0 : Fin 1) k) + S1a m ρ c (ix3 (1 : Fin 2) (0 : Fin 1) k) = ∑ x : Fin 100000, Y1m m c x k := by
  rw [show S1a m ρ c (ix3 (0 : Fin 2) (0 : Fin 1) k) = _ from K0.sums5 (V1 m ρ) c (Pm m c) (hm m c) (sm m c) (W1m m c) (b1m m c) (h1P m ρ c) (h1h m ρ c) (V1_v12 m ρ c) (h1W m ρ c) (V1_v13 m ρ c) 0 k,
    show S1a m ρ c (ix3 (1 : Fin 2) (0 : Fin 1) k) = _ from K0.sums5 (V1 m ρ) c (Pm m c) (hm m c) (sm m c) (W1m m c) (b1m m c) (h1P m ρ c) (h1h m ρ c) (V1_v12 m ρ c) (h1W m ρ c) (V1_v13 m ρ c) 1 k]
  exact halves_total (fun x => Y1m m c x k)

theorem total6 (k : Fin 128) :
    Q1a m ρ c (ix3 (0 : Fin 2) (0 : Fin 1) k) + Q1a m ρ c (ix3 (1 : Fin 2) (0 : Fin 1) k) = ∑ x : Fin 100000, Y1m m c x k * Y1m m c x k := by
  rw [show Q1a m ρ c (ix3 (0 : Fin 2) (0 : Fin 1) k) = _ from K0.sums6 (V1 m ρ) c (Pm m c) (hm m c) (sm m c) (W1m m c) (b1m m c) (h1P m ρ c) (h1h m ρ c) (V1_v12 m ρ c) (h1W m ρ c) (V1_v13 m ρ c) 0 k,
    show Q1a m ρ c (ix3 (1 : Fin 2) (0 : Fin 1) k) = _ from K0.sums6 (V1 m ρ) c (Pm m c) (hm m c) (sm m c) (W1m m c) (b1m m c) (h1P m ρ c) (h1h m ρ c) (V1_v12 m ρ c) (h1W m ρ c) (V1_v13 m ρ c) 1 k]
  exact halves_total (fun x => Y1m m c x k * Y1m m c x k)

/-- The mean column the second region is handed is the first linear map's column mean. -/
theorem mean1_eq (k : Fin 128) : V3 m ρ c main_v31 (ix2 (0 : Fin 1) k) = meanOf (Y1m m c) k := by
  rw [V3_mean m ρ c k (S1a m ρ c) (W2_arr m ρ c 5), total5]
  rfl

/-- The variance column the second region is handed is the first linear map's one-pass column variance. -/
theorem var1_eq (k : Fin 128) : V3 m ρ c main_v37 (ix2 (0 : Fin 1) k) = varOne (Y1m m c) k := by
  rw [V3_var m ρ c k (S1a m ρ c) (Q1a m ρ c) (W2_arr m ρ c 5) (W2_arr m ρ c 6), total5, total6]
  rfl

theorem h3P (r : Fin 100000) (l : Fin 128) : V3 m ρ c main_v9 (ix2 r l) = Pm m c r l := by rw [V3_v9]; exact h1P m ρ c r l
theorem h3h (r : Fin 100000) (l : Fin 128) : V3 m ρ c main_arg0 (ix2 r l) = hm m c r l := by rw [V3_arg0]; exact h1h m ρ c r l
theorem h3s (l : Fin 128) : V3 m ρ c main_v12 (ix2 (0 : Fin 1) l) = sm m c := by rw [V3_v12]; exact V1_v12 m ρ c l
theorem h3W (l k : Fin 128) : V3 m ρ c main_arg3 (ix2 l k) = W1m m c l k := by rw [V3_arg3]; exact h1W m ρ c l k
theorem h3b (k : Fin 128) : V3 m ρ c main_v13 (ix2 (0 : Fin 1) k) = b1m m c k := by rw [V3_v13]; exact V1_v13 m ρ c k
theorem h3g (k : Fin 128) : V3 m ρ c main_v14 (ix2 (0 : Fin 1) k) = g1m m c k := by rw [V3_v14]; exact V1_v14 m ρ c k
theorem h3be (k : Fin 128) : V3 m ρ c main_v15 (ix2 (0 : Fin 1) k) = be1m m c k := by rw [V3_v15]; exact V1_v15 m ρ c k
theorem h3W2 (l k : Fin 128) : V3 m ρ c main_arg7 (ix2 l k) = W2m m c l k := by rw [V3_arg7, V1_arg7]; rfl
theorem h3b2 (k : Fin 128) : V3 m ρ c main_v16 (ix2 (0 : Fin 1) k) = b2m m c k := by rw [V3_v16]; exact V1_v16 m ρ c k

/-- The hidden rows' array is the layer's hidden rows. -/
theorem hidden_eq (r : Fin 100000) (l : Fin 128) : V5 m ρ c main_v38_0 (ix2 r l) = X1m m c r l := by
  rw [V5_v38_0]
  exact K1.hidden11 (V3 m ρ) c (Pm m c) (hm m c) (sm m c) (W1m m c) (b1m m c) (g1m m c) (be1m m c) (meanOf (Y1m m c)) (varOne (Y1m m c)) (W2m m c) (b2m m c)
      (h3P m ρ c) (h3h m ρ c) (h3s m ρ c) (h3W m ρ c) (h3b m ρ c) (h3g m ρ c) (h3be m ρ c) (mean1_eq m ρ c) (var1_eq m ρ c) (h3W2 m ρ c) (h3b2 m ρ c) r l

/-- The arrays of sums and of sums of squares the second region leaves. -/
abbrev S2a : FVec Ideal S2x1x128 .f32 := (dat1 (V3 m ρ) c).arrAt 12 cfg1.N
abbrev Q2a : FVec Ideal S2x1x128 .f32 := (dat1 (V3 m ρ) c).arrAt 13 cfg1.N

theorem total12 (k : Fin 128) :
    S2a m ρ c (ix3 (0 : Fin 2) (0 : Fin 1) k) + S2a m ρ c (ix3 (1 : Fin 2) (0 : Fin 1) k) = ∑ x : Fin 100000, Y2m m c x k := by
  rw [show S2a m ρ c (ix3 (0 : Fin 2) (0 : Fin 1) k) = _ from K1.sums12 (V3 m ρ) c (Pm m c) (hm m c) (sm m c) (W1m m c) (b1m m c) (g1m m c) (be1m m c) (meanOf (Y1m m c)) (varOne (Y1m m c)) (W2m m c) (b2m m c)
      (h3P m ρ c) (h3h m ρ c) (h3s m ρ c) (h3W m ρ c) (h3b m ρ c) (h3g m ρ c) (h3be m ρ c) (mean1_eq m ρ c) (var1_eq m ρ c) (h3W2 m ρ c) (h3b2 m ρ c) 0 k,
    show S2a m ρ c (ix3 (1 : Fin 2) (0 : Fin 1) k) = _ from K1.sums12 (V3 m ρ) c (Pm m c) (hm m c) (sm m c) (W1m m c) (b1m m c) (g1m m c) (be1m m c) (meanOf (Y1m m c)) (varOne (Y1m m c)) (W2m m c) (b2m m c)
      (h3P m ρ c) (h3h m ρ c) (h3s m ρ c) (h3W m ρ c) (h3b m ρ c) (h3g m ρ c) (h3be m ρ c) (mean1_eq m ρ c) (var1_eq m ρ c) (h3W2 m ρ c) (h3b2 m ρ c) 1 k]
  exact halves_total (fun x => Y2m m c x k)

theorem total13 (k : Fin 128) :
    Q2a m ρ c (ix3 (0 : Fin 2) (0 : Fin 1) k) + Q2a m ρ c (ix3 (1 : Fin 2) (0 : Fin 1) k) = ∑ x : Fin 100000, Y2m m c x k * Y2m m c x k := by
  rw [show Q2a m ρ c (ix3 (0 : Fin 2) (0 : Fin 1) k) = _ from K1.sums13 (V3 m ρ) c (Pm m c) (hm m c) (sm m c) (W1m m c) (b1m m c) (g1m m c) (be1m m c) (meanOf (Y1m m c)) (varOne (Y1m m c)) (W2m m c) (b2m m c)
      (h3P m ρ c) (h3h m ρ c) (h3s m ρ c) (h3W m ρ c) (h3b m ρ c) (h3g m ρ c) (h3be m ρ c) (mean1_eq m ρ c) (var1_eq m ρ c) (h3W2 m ρ c) (h3b2 m ρ c) 0 k,
    show Q2a m ρ c (ix3 (1 : Fin 2) (0 : Fin 1) k) = _ from K1.sums13 (V3 m ρ) c (Pm m c) (hm m c) (sm m c) (W1m m c) (b1m m c) (g1m m c) (be1m m c) (meanOf (Y1m m c)) (varOne (Y1m m c)) (W2m m c) (b2m m c)
      (h3P m ρ c) (h3h m ρ c) (h3s m ρ c) (h3W m ρ c) (h3b m ρ c) (h3g m ρ c) (h3be m ρ c) (mean1_eq m ρ c) (var1_eq m ρ c) (h3W2 m ρ c) (h3b2 m ρ c) 1 k]
  exact halves_total (fun x => Y2m m c x k * Y2m m c x k)

theorem mean2_eq (k : Fin 128) : V5 m ρ c main_v50 (ix2 (0 : Fin 1) k) = meanOf (Y2m m c) k := by
  rw [V5_mean m ρ c k (S2a m ρ c) (W4_arr m ρ c 12), total12]
  rfl

theorem var2_eq (k : Fin 128) : V5 m ρ c main_v56 (ix2 (0 : Fin 1) k) = varOne (Y2m m c) k := by
  rw [V5_var m ρ c k (S2a m ρ c) (Q2a m ρ c) (W4_arr m ρ c 12) (W4_arr m ρ c 13), total12, total13]
  rfl

theorem h5W2 (l k : Fin 128) : V5 m ρ c main_arg7 (ix2 l k) = W2m m c l k := by rw [V5_arg7]; exact h3W2 m ρ c l k
theorem h5b2 (k : Fin 128) : V5 m ρ c main_v16 (ix2 (0 : Fin 1) k) = b2m m c k := by rw [V5_v16]; exact h3b2 m ρ c k
theorem h5g2 (k : Fin 128) : V5 m ρ c main_v17 (ix2 (0 : Fin 1) k) = g2m m c k := by rw [V5_v17, V3_v17]; exact V1_v17 m ρ c k
theorem h5be2 (k : Fin 128) : V5 m ρ c main_v18 (ix2 (0 : Fin 1) k) = be2m m c k := by rw [V5_v18, V3_v18]; exact V1_v18 m ρ c k

/-- THE RESULT: the result array ends at the layer with the one-pass variance, of the launch arrays. -/
theorem result :
    W6 m ρ c (Proc.devRef .tc main_v57)
      = unrows (layer varOne (Pm m c) (hm m c) (sm m c) (W1m m c) (b1m m c) (g1m m c) (be1m m c) (W2m m c) (b2m m c) (g2m m c) (be2m m c)) := by
  refine (W6_arr m ρ c 7).trans ?_
  exact K2.final7 (V5 m ρ) c (X1m m c) (W2m m c) (b2m m c) (g2m m c) (be2m m c) (meanOf (Y2m m c)) (varOne (Y2m m c))
    (hidden_eq m ρ c) (h5W2 m ρ c) (h5b2 m ρ c) (h5g2 m ρ c) (h5be2 m ρ c) (mean2_eq m ρ c) (var2_eq m ρ c)

end Value

end Cert.KernelIdeal.KFold
end
-- ==== Proof.RefValue.lean ====
/-
  The reference's result, at the ideal instance, is the layer of Spec.lean applied to the argument arrays.

  The reference adds the pooled neighbour features P to (1 + eps) · h, applies x · W + b, normalises every column by its
  mean and its two-pass variance over the 100000 rows (a sum over the rows that starts from the zero word, divided by
  the word of 100000), multiplies by the reciprocal square root of the variance plus the small constant, scales by g,
  shifts by be, takes the maximum with the zero word, and does the same a second time. Read one stage at a time at a
  row r and a column k, each stage is the corresponding function of Spec.lean: the broadcasts of a [128] vector through
  [1, 128] to [100000, 128] read column k, the contraction runs over the 128 inner columns, and the sums over the rows
  lose their initial zero. The pooled array P is kept as one opaque function of the first three arguments.
-/
import proofs.«144824_j22643067584730_2_alg».proof.Proof.Spec
import proofs.«144824_j22643067584730_2_alg».proof.Proof.Gen.ReferenceIdeal.Read

noncomputable section

namespace Cert.RefSide

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx

/-! ## The composed index maps at a row and a column -/

theorem lidx14 (r : Fin 100000) (k l : Fin 128) : lidx_main_v14 (ix2 r k) l = ix2 r l :=
  funext fun a => Fin.ext (by match a with | ⟨0, _⟩ => rfl | ⟨1, _⟩ => rfl)
theorem ridx14 (r : Fin 100000) (k l : Fin 128) : ridx_main_v14 (ix2 r k) l = ix2 l k :=
  funext fun a => Fin.ext (by match a with | ⟨0, _⟩ => rfl | ⟨1, _⟩ => rfl)
theorem lidx44 (r : Fin 100000) (k l : Fin 128) : lidx_main_v44 (ix2 r k) l = ix2 r l :=
  funext fun a => Fin.ext (by match a with | ⟨0, _⟩ => rfl | ⟨1, _⟩ => rfl)
theorem ridx44 (r : Fin 100000) (k l : Fin 128) : ridx_main_v44 (ix2 r k) l = ix2 l k :=
  funext fun a => Fin.ext (by match a with | ⟨0, _⟩ => rfl | ⟨1, _⟩ => rfl)
theorem idx15_16 (r : Fin 100000) (k : Fin 128) : idx_main_v15 (idx_main_v16 (ix2 r k)) = ix1 k :=
  funext fun a => Fin.ext (by match a with | ⟨0, _⟩ => rfl)
theorem idx21_22 (r : Fin 100000) (k : Fin 128) : idx_main_v21 (idx_main_v22 (ix2 r k)) = ix1 k :=
  funext fun a => Fin.ext (by match a with | ⟨0, _⟩ => rfl)
theorem idx28_29 (r : Fin 100000) (k : Fin 128) : idx_main_v28 (idx_main_v29 (ix2 r k)) = ix1 k :=
  funext fun a => Fin.ext (by match a with | ⟨0, _⟩ => rfl)
theorem idx34_35 (r : Fin 100000) (k : Fin 128) : idx_main_v34 (idx_main_v35 (ix2 r k)) = ix1 k :=
  funext fun a => Fin.ext (by match a with | ⟨0, _⟩ => rfl)
theorem idx37_38 (r : Fin 100000) (k : Fin 128) : idx_main_v37 (idx_main_v38 (ix2 r k)) = ix1 k :=
  funext fun a => Fin.ext (by match a with | ⟨0, _⟩ => rfl)
theorem idx40_41 (r : Fin 100000) (k : Fin 128) : idx_main_v40 (idx_main_v41 (ix2 r k)) = ix1 k :=
  funext fun a => Fin.ext (by match a with | ⟨0, _⟩ => rfl)
theorem idx45_46 (r : Fin 100000) (k : Fin 128) : idx_main_v45 (idx_main_v46 (ix2 r k)) = ix1 k :=
  funext fun a => Fin.ext (by match a with | ⟨0, _⟩ => rfl)
theorem idx51_52 (r : Fin 100000) (k : Fin 128) : idx_main_v51 (idx_main_v52 (ix2 r k)) = ix1 k :=
  funext fun a => Fin.ext (by match a with | ⟨0, _⟩ => rfl)
theorem idx58_59 (r : Fin 100000) (k : Fin 128) : idx_main_v58 (idx_main_v59 (ix2 r k)) = ix1 k :=
  funext fun a => Fin.ext (by match a with | ⟨0, _⟩ => rfl)
theorem idx64_65 (r : Fin 100000) (k : Fin 128) : idx_main_v64 (idx_main_v65 (ix2 r k)) = ix1 k :=
  funext fun a => Fin.ext (by match a with | ⟨0, _⟩ => rfl)
theorem idx67_68 (r : Fin 100000) (k : Fin 128) : idx_main_v67 (idx_main_v68 (ix2 r k)) = ix1 k :=
  funext fun a => Fin.ext (by match a with | ⟨0, _⟩ => rfl)
theorem idx70_71 (r : Fin 100000) (k : Fin 128) : idx_main_v70 (idx_main_v71 (ix2 r k)) = ix1 k :=
  funext fun a => Fin.ext (by match a with | ⟨0, _⟩ => rfl)
theorem idx18 (r : Fin 100000) (k : Fin 128) : idx_main_v18 (ix1 k) r = ix2 r k :=
  funext fun a => Fin.ext (by match a with | ⟨0, _⟩ => rfl | ⟨1, _⟩ => rfl)
theorem idx25 (r : Fin 100000) (k : Fin 128) : idx_main_v25 (ix1 k) r = ix2 r k :=
  funext fun a => Fin.ext (by match a with | ⟨0, _⟩ => rfl | ⟨1, _⟩ => rfl)
theorem idx48 (r : Fin 100000) (k : Fin 128) : idx_main_v48 (ix1 k) r = ix2 r k :=
  funext fun a => Fin.ext (by match a with | ⟨0, _⟩ => rfl | ⟨1, _⟩ => rfl)
theorem idx55 (r : Fin 100000) (k : Fin 128) : idx_main_v55 (ix1 k) r = ix2 r k :=
  funext fun a => Fin.ext (by match a with | ⟨0, _⟩ => rfl | ⟨1, _⟩ => rfl)

/-! ## The stages, one row and one column at a time -/

variable (x0 : (⟨S100000x128, .f32⟩ : BufTy).Contents (Elt Ideal))
  (x1 x2 : (⟨S1600000, .i32⟩ : BufTy).Contents (Elt Ideal))
  (x3 : (⟨S128x128, .f32⟩ : BufTy).Contents (Elt Ideal))
  (x4 x5 x6 : (⟨S128, .f32⟩ : BufTy).Contents (Elt Ideal))
  (x7 : (⟨S128x128, .f32⟩ : BufTy).Contents (Elt Ideal))
  (x8 x9 x10 : (⟨S128, .f32⟩ : BufTy).Contents (Elt Ideal))
  (x11 : (⟨S_, .f32⟩ : BufTy).Contents (Elt Ideal))

/-- The layer's input: P + (1 + eps) · h. -/
theorem v13_at (r : Fin 100000) (l : Fin 128) :
    val_main_v13 (F := Ideal) x0 x1 x2 x11 (ix2 r l) = Spec.xin (Spec.rows (val_main_v9 (F := Ideal) x0 x1 x2)) (Spec.rows x0) (Spec.oneW + x11 ix0) r l := by
  rw [val_main_v13_apply, val_main_v12_apply, val_main_v11_apply, val_main_v10_apply, val_main_cst_1_apply]
  simp only [Ideal.addf_def, Ideal.mulf_def, Ideal.ofBits_def]
  rfl

/-- The first linear map: the contraction over the 128 inner columns plus the bias of column k. -/
theorem v17_at (r : Fin 100000) (k : Fin 128) :
    val_main_v17 (F := Ideal) x0 x1 x2 x3 x4 x11 (ix2 r k) = Spec.y1 (Spec.rows (val_main_v9 (F := Ideal) x0 x1 x2)) (Spec.rows x0) (Spec.oneW + x11 ix0) (Spec.mat x3) (Spec.col x4) r k := by
  rw [val_main_v17_apply, val_main_v14_apply, val_main_v16_apply, val_main_v15_apply, idx15_16]
  simp only [Ideal.addf_def, Spec.y1, Spec.lin]
  refine congrArg (fun t => t + Spec.col x4 k) (Finset.sum_congr rfl fun l _ => ?_)
  rw [lidx14, ridx14, v13_at]
  rfl

/-- The first column means: the sum over the rows starts from zero and is divided by the number of rows. -/
theorem v20_at (k : Fin 128) :
    val_main_v20 (F := Ideal) x0 x1 x2 x3 x4 x11 (ix1 k) = Spec.meanOf (Spec.rows (val_main_v17 (F := Ideal) x0 x1 x2 x3 x4 x11)) k := by
  rw [val_main_v20_apply, val_main_v18_apply, val_main_v19_apply, val_main_cst_3_apply, val_main_cst_2_apply]
  simp only [Ideal.hostDivf_def, Ideal.ofBits_def, Ideal.ofBits_zero_f32, zero_add, Spec.meanOf]
  refine congrArg (fun t => Ideal.div t Spec.nRows) (Finset.sum_congr rfl fun r _ => ?_)
  rw [idx18]
  rfl

/-- The first column variances, in two passes. -/
theorem v27_at (k : Fin 128) :
    val_main_v27 (F := Ideal) x0 x1 x2 x3 x4 x11 (ix1 k) = Spec.varTwo (Spec.rows (val_main_v17 (F := Ideal) x0 x1 x2 x3 x4 x11)) k := by
  rw [val_main_v27_apply, val_main_v25_apply, val_main_v26_apply, val_main_cst_5_apply, val_main_cst_4_apply]
  simp only [Ideal.hostDivf_def, Ideal.ofBits_def, Ideal.ofBits_zero_f32, zero_add, Spec.varTwo]
  refine congrArg (fun t => Ideal.div t Spec.nRows) (Finset.sum_congr rfl fun r _ => ?_)
  rw [idx25, val_main_v24_apply, val_main_v23_apply, val_main_v22_apply, val_main_v21_apply, idx21_22, v20_at]
  simp only [Ideal.mulf_def, Ideal.subf_def]
  rfl

/-- The hidden rows: normalise, scale, shift, cut off at zero. -/
theorem v43_at (r : Fin 100000) (k : Fin 128) :
    val_main_v43 (F := Ideal) x0 x1 x2 x3 x4 x5 x6 x11 (ix2 r k)
      = Spec.normRelu (Spec.rows (val_main_v17 (F := Ideal) x0 x1 x2 x3 x4 x11)) (Spec.meanOf (Spec.rows (val_main_v17 (F := Ideal) x0 x1 x2 x3 x4 x11))) (Spec.varTwo (Spec.rows (val_main_v17 (F := Ideal) x0 x1 x2 x3 x4 x11)))
          (Spec.col x5) (Spec.col x6) r k := by
  rw [val_main_v43_apply, val_main_v42_apply, val_main_v39_apply, val_main_v36_apply, val_main_v30_apply,
    val_main_v29_apply, val_main_v28_apply, val_main_v35_apply, val_main_v34_apply, val_main_v33_apply,
    val_main_v32_apply, val_main_v31_apply, val_main_cst_6_apply, val_main_v38_apply, val_main_v37_apply,
    val_main_v41_apply, val_main_v40_apply, val_main_call0_v0_apply, val_main_call0_cst_apply,
    idx28_29, idx34_35, idx37_38, idx40_41, v20_at, v27_at]
  simp only [Ideal.maximumf_def, Ideal.addf_def, Ideal.mulf_def, Ideal.subf_def, Ideal.hostUnary_rsqrt_def,
    Ideal.ofBits_def, Ideal.ofBits_zero_f32]
  rfl

/-- The first linear map's output as a table of rows. -/
theorem rows_v17 : Spec.rows (val_main_v17 (F := Ideal) x0 x1 x2 x3 x4 x11) = Spec.y1 (Spec.rows (val_main_v9 (F := Ideal) x0 x1 x2)) (Spec.rows x0) (Spec.oneW + x11 ix0) (Spec.mat x3) (Spec.col x4) :=
  funext fun r => funext fun k => v17_at x0 x1 x2 x3 x4 x11 r k

/-- The hidden rows as a table. -/
theorem rows_v43 : Spec.rows (val_main_v43 (F := Ideal) x0 x1 x2 x3 x4 x5 x6 x11) = Spec.hidden Spec.varTwo (Spec.rows (val_main_v9 (F := Ideal) x0 x1 x2)) (Spec.rows x0) (Spec.oneW + x11 ix0) (Spec.mat x3) (Spec.col x4) (Spec.col x5) (Spec.col x6) := by
  funext r k
  refine (v43_at x0 x1 x2 x3 x4 x5 x6 x11 r k).trans ?_
  rw [rows_v17]
  rfl

/-- The second linear map. -/
theorem v47_at (r : Fin 100000) (k : Fin 128) :
    val_main_v47 (F := Ideal) x0 x1 x2 x3 x4 x5 x6 x7 x8 x11 (ix2 r k)
      = Spec.lin (Spec.rows (val_main_v43 (F := Ideal) x0 x1 x2 x3 x4 x5 x6 x11)) (Spec.mat x7) (Spec.col x8) r k := by
  rw [val_main_v47_apply, val_main_v44_apply, val_main_v46_apply, val_main_v45_apply, idx45_46]
  simp only [Ideal.addf_def, Spec.lin]
  refine congrArg (fun t => t + Spec.col x8 k) (Finset.sum_congr rfl fun l _ => ?_)
  rw [lidx44, ridx44]
  rfl

/-- The second column means. -/
theorem v50_at (k : Fin 128) :
    val_main_v50 (F := Ideal) x0 x1 x2 x3 x4 x5 x6 x7 x8 x11 (ix1 k) = Spec.meanOf (Spec.rows (val_main_v47 (F := Ideal) x0 x1 x2 x3 x4 x5 x6 x7 x8 x11)) k := by
  rw [val_main_v50_apply, val_main_v48_apply, val_main_v49_apply, val_main_cst_8_apply, val_main_cst_7_apply]
  simp only [Ideal.hostDivf_def, Ideal.ofBits_def, Ideal.ofBits_zero_f32, zero_add, Spec.meanOf]
  refine congrArg (fun t => Ideal.div t Spec.nRows) (Finset.sum_congr rfl fun r _ => ?_)
  rw [idx48]
  rfl

/-- The second column variances, in two passes. -/
theorem v57_at (k : Fin 128) :
    val_main_v57 (F := Ideal) x0 x1 x2 x3 x4 x5 x6 x7 x8 x11 (ix1 k) = Spec.varTwo (Spec.rows (val_main_v47 (F := Ideal) x0 x1 x2 x3 x4 x5 x6 x7 x8 x11)) k := by
  rw [val_main_v57_apply, val_main_v55_apply, val_main_v56_apply, val_main_cst_10_apply, val_main_cst_9_apply]
  simp only [Ideal.hostDivf_def, Ideal.ofBits_def, Ideal.ofBits_zero_f32, zero_add, Spec.varTwo]
  refine congrArg (fun t => Ideal.div t Spec.nRows) (Finset.sum_congr rfl fun r _ => ?_)
  rw [idx55, val_main_v54_apply, val_main_v53_apply, val_main_v52_apply, val_main_v51_apply, idx51_52, v50_at]
  simp only [Ideal.mulf_def, Ideal.subf_def]
  rfl

/-- The output rows: normalise, scale, shift, cut off at zero. -/
theorem v73_at (r : Fin 100000) (k : Fin 128) :
    val_main_v73 (F := Ideal) x0 x1 x2 x3 x4 x5 x6 x7 x8 x9 x10 x11 (ix2 r k)
      = Spec.normRelu (Spec.rows (val_main_v47 (F := Ideal) x0 x1 x2 x3 x4 x5 x6 x7 x8 x11)) (Spec.meanOf (Spec.rows (val_main_v47 (F := Ideal) x0 x1 x2 x3 x4 x5 x6 x7 x8 x11))) (Spec.varTwo (Spec.rows (val_main_v47 (F := Ideal) x0 x1 x2 x3 x4 x5 x6 x7 x8 x11)))
          (Spec.col x9) (Spec.col x10) r k := by
  rw [val_main_v73_apply, val_main_v72_apply, val_main_v69_apply, val_main_v66_apply, val_main_v60_apply,
    val_main_v59_apply, val_main_v58_apply, val_main_v65_apply, val_main_v64_apply, val_main_v63_apply,
    val_main_v62_apply, val_main_v61_apply, val_main_cst_11_apply, val_main_v68_apply, val_main_v67_apply,
    val_main_v71_apply, val_main_v70_apply, val_main_call1_v0_apply, val_main_call1_cst_apply,
    idx58_59, idx64_65, idx67_68, idx70_71, v50_at, v57_at]
  simp only [Ideal.maximumf_def, Ideal.addf_def, Ideal.mulf_def, Ideal.subf_def, Ideal.hostUnary_rsqrt_def,
    Ideal.ofBits_def, Ideal.ofBits_zero_f32]
  rfl

/-- The second linear map's output as a table of rows. -/
theorem rows_v47 : Spec.rows (val_main_v47 (F := Ideal) x0 x1 x2 x3 x4 x5 x6 x7 x8 x11) = Spec.y2 Spec.varTwo (Spec.rows (val_main_v9 (F := Ideal) x0 x1 x2)) (Spec.rows x0) (Spec.oneW + x11 ix0) (Spec.mat x3) (Spec.col x4) (Spec.col x5) (Spec.col x6) (Spec.mat x7) (Spec.col x8) := by
  funext r k
  refine (v47_at x0 x1 x2 x3 x4 x5 x6 x7 x8 x11 r k).trans ?_
  rw [rows_v43]
  rfl

/-- The last stage is the layer, as arrays. -/
theorem v73_eq :
    val_main_v73 (F := Ideal) x0 x1 x2 x3 x4 x5 x6 x7 x8 x9 x10 x11
      = Spec.unrows (Spec.layer Spec.varTwo (Spec.rows (val_main_v9 (F := Ideal) x0 x1 x2)) (Spec.rows x0) (Spec.oneW + x11 ix0) (Spec.mat x3) (Spec.col x4) (Spec.col x5) (Spec.col x6) (Spec.mat x7) (Spec.col x8) (Spec.col x9) (Spec.col x10)) := by
  funext i
  obtain ⟨r, k, rfl⟩ : ∃ (r : Fin 100000) (k : Fin 128), i = ix2 r k := ⟨i 0, i 1, eq_ix2 i⟩
  refine (v73_at x0 x1 x2 x3 x4 x5 x6 x7 x8 x9 x10 x11 r k).trans ?_
  rw [rows_v47]
  rfl

end Cert.RefSide

open Cert.ReferenceIdeal Cert.ReferenceIdeal.Gen Idealize.ShloMosaic Idealize.ShloMosaic.TcCoe Idealize.SL.Sem Idealize.ShloMosaic.ValueIdx in
/-- The reference run's result term is the layer of the argument arrays, with the pooled features the reference's own
    scatter-add of the gathered rows. -/
theorem Cert.RefSide.ref_value (m : (ℓ : Loc nD τ sig) → Buf (Elt Ideal) ℓ) (c : Dev nD) :
    Cert.ReferenceIdeal.Value.res_main_v73 (F := Ideal) m c
      = Cert.Spec.unrows (Cert.Spec.layer Cert.Spec.varTwo
          (Cert.Spec.rows (Cert.ReferenceIdeal.Read.val_main_v9 (F := Ideal) (m ((c.tc : Thread nD τ).loc main_arg0))
            (m ((c.tc : Thread nD τ).loc main_arg1)) (m ((c.tc : Thread nD τ).loc main_arg2))))
          (Cert.Spec.rows (m ((c.tc : Thread nD τ).loc main_arg0)))
          (Cert.Spec.oneW + m ((c.tc : Thread nD τ).loc main_arg11) ValueIdx.ix0)
          (Cert.Spec.mat (m ((c.tc : Thread nD τ).loc main_arg3))) (Cert.Spec.col (m ((c.tc : Thread nD τ).loc main_arg4)))
          (Cert.Spec.col (m ((c.tc : Thread nD τ).loc main_arg5))) (Cert.Spec.col (m ((c.tc : Thread nD τ).loc main_arg6)))
          (Cert.Spec.mat (m ((c.tc : Thread nD τ).loc main_arg7))) (Cert.Spec.col (m ((c.tc : Thread nD τ).loc main_arg8)))
          (Cert.Spec.col (m ((c.tc : Thread nD τ).loc main_arg9))) (Cert.Spec.col (m ((c.tc : Thread nD τ).loc main_arg10)))) :=
  (Cert.ReferenceIdeal.Read.val_main_v73_eq (F := Ideal) m c).trans (Cert.RefSide.v73_eq _ _ _ _ _ _ _ _ _ _ _ _)

end
-- ==== Proof.lean ====
/-
  The layer kernel against its reference: a graph layer  x = pooled + (1 + eps) · h,  then twice  linear map → batch
  normalisation over the 100000 rows → max(·, 0).

  The kernel program pools on the host, then runs three kernel regions: the first takes the column sums and sums of
  squares of the first linear map (tile by tile, two halves), the host turns them into a mean and a one-pass variance
  max(Σy²/N − (Σy/N)², 0); the second normalises, forms the hidden rows and takes the same sums of the second linear
  map; the third normalises again.  The reference takes each variance in two passes, Σ(y − mean)²/N.  On the extended
  reals both are the layer of the specification, with the one-pass and the two-pass variance; the two agree when every
  entry is a real number, which the precondition — every float argument finite — gives, the pooled rows being finite
  sums of entries of h.

  The three frames are the generated frame runs (the reference's is its run with the result dropped), nothing was
  rewritten by the idealization, and the algebraic claim is the kernel program's run with its result read through the
  three regions, the reference's run read operation by operation, and the law between the two variances.
-/
import proofs.«144824_j22643067584730_2_alg».proof.Defs
import proofs.«144824_j22643067584730_2_alg».proof.Proof.Gen.Kernel
import proofs.«144824_j22643067584730_2_alg».proof.Proof.Gen.Kernel.Frame
import proofs.«144824_j22643067584730_2_alg».proof.Proof.Gen.KernelIdeal
import proofs.«144824_j22643067584730_2_alg».proof.Proof.Gen.KernelIdeal.Frame
import proofs.«144824_j22643067584730_2_alg».proof.Proof.Gen.ReferenceIdeal
import proofs.«144824_j22643067584730_2_alg».proof.Proof.Gen.ReferenceIdeal.Run
import proofs.«144824_j22643067584730_2_alg».proof.Proof.Gen.Pre_finite_inputs
import proofs.«144824_j22643067584730_2_alg».proof.Proof.KRun
import proofs.«144824_j22643067584730_2_alg».proof.Proof.KFold
import proofs.«144824_j22643067584730_2_alg».proof.Proof.RefValue
import proofs.«144824_j22643067584730_2_alg».proof.Proof.SpecLaw
import proofs.«144824_j22643067584730_2_alg».proof.Proof.Finite
import Idealize.ShloMosaic.Adequacy
import Idealize.ShloMosaic.Init

set_option maxRecDepth 16384

noncomputable section

namespace Cert.Proof

open Idealize.ShloMosaic Idealize.SL.Sem Cert.Spec

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- The reference's pooled rows are the kernel program's: the same host operations on the same arguments. -/
theorem pooled_same (x : FVec Ideal Cert.KernelIdeal.S100000x128 .f32) (src dst : IVec Cert.KernelIdeal.S1600000 32) :
    Cert.ReferenceIdeal.Read.val_main_v9 (F := Ideal) x src dst = Cert.Finite.pooledOf x src dst := rfl

/-- At the ideal instance the kernel program's result is the layer with the one-pass variance, the reference's the layer
    with the two-pass variance, of arguments that agree and are real-valued: one function. -/
theorem algebraic : Cert.algebraic_KernelIdeal_ReferenceIdeal := by
  intro m ρ m' ρ' hpre hagree
  refine ⟨fun c => unrows (layer varOne (Cert.KernelIdeal.KFold.Pm m c) (Cert.KernelIdeal.KFold.hm m c) (Cert.KernelIdeal.KFold.sm m c)
      (Cert.KernelIdeal.KFold.W1m m c) (Cert.KernelIdeal.KFold.b1m m c) (Cert.KernelIdeal.KFold.g1m m c) (Cert.KernelIdeal.KFold.be1m m c)
      (Cert.KernelIdeal.KFold.W2m m c) (Cert.KernelIdeal.KFold.b2m m c) (Cert.KernelIdeal.KFold.g2m m c) (Cert.KernelIdeal.KFold.be2m m c)), ?_, ?_⟩
  · exact (θ_run Cert.KernelIdeal.defs _ _).mono
      (fun r h c => ⟨((h c).1).trans (Cert.KernelIdeal.KFold.result m ρ c), (h c).2⟩) (Cert.KernelIdeal.KRun.run_main m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11⟩ := hagree c
    rw [Cert.RefSide.ref_value m' c, e0, e1, e2, e3, e4, e5, e6, e7, e8, e9, e10, e11, pooled_same]
    have hx := Cert.Finite.real_arg0 m hpre c
    refine congrArg unrows (layer_one_eq_two _ _ _ _ _ _ _ _ _ _ _ ?_ ?_ ?_ ?_ ?_ ?_ ?_ ?_ ?_).symm
    · exact fun r l => Cert.Finite.pooled_real _ _ _ hx _
    · exact fun r l => hx _
    · obtain ⟨e, he⟩ := Cert.Finite.real_arg11 m hpre c ValueIdx.ix0
      exact ⟨1 + e, by rw [oneW_val, he]; rfl⟩
    · exact fun l k => Cert.Finite.real_arg3 m hpre c _
    · exact fun k => Cert.Finite.real_arg4 m hpre c _
    · exact fun k => Cert.Finite.real_arg5 m hpre c _
    · exact fun k => Cert.Finite.real_arg6 m hpre c _
    · exact fun l k => Cert.Finite.real_arg7 m hpre c _
    · exact fun k => Cert.Finite.real_arg8 m hpre c _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
